-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x26 : S_.BroadcastsInDim S4096x26 (![] : Fin 0 → Fin S4096x26.rank)
  reducesTo_S4096x26_S_d0_1 : S4096x26.ReducesTo [0, 1] S_

variable [Facts]

def fn {F : FTy → Type} [FloatOps F] (main_arg0 : IVec S4096x26 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x26 32 := broadcastInDim S4096x26 ![] bcast_S_S4096x26 main_c_0
  let main_v5 : IVec S4096x26 1 := cmpi .sge main_arg0 main_v4
  let main_c_1 : IVec S_ 32 := constantI S_ 32 99999#32
  let main_v6 : IVec S4096x26 32 := broadcastInDim S4096x26 ![] bcast_S_S4096x26 main_c_1
  let main_v7 : IVec S4096x26 1 := cmpi .sle main_arg0 main_v6
  let main_v8 : IVec S4096x26 1 := andi main_v5 main_v7
  let main_c_2 : IVec S_ 1 := constantI S_ 1 1#1
  let main_v9 : IVec S_ 1 := (fun x v => Host.reduce IntOp.andi x v reducesTo_S4096x26_S_d0_1 h_S_) main_v8 main_c_2
  let main_v10 : IVec S_ 1 := andi main_v3 main_v9
  main_v10
-- ==== Kernel.lean ====
abbrev S4096x26 : Shape := ⟨2, ![4096, 26]⟩
abbrev S100000x128 : Shape := ⟨2, ![100000, 128]⟩
abbrev S106496 : Shape := ⟨1, ![106496]⟩
abbrev S106496x128 : Shape := ⟨2, ![106496, 128]⟩
abbrev S3328 : Shape := ⟨1, ![3328]⟩
abbrev S4x208x128 : Shape := ⟨3, ![4, 208, 128]⟩
abbrev S_ : Shape := ⟨0, ![]⟩
abbrev S1x208x128 : Shape := ⟨3, ![1, 208, 128]⟩
abbrev S208x128 : Shape := ⟨2, ![208, 128]⟩
abbrev S208 : Shape := ⟨1, ![208]⟩
abbrev S4096x26x128 : Shape := ⟨3, ![4096, 26, 128]⟩

abbrev nBuf : Table → Nat
  | .hbm => 5
  | .local .scVector .vmem => 2
  | _ => 0

abbrev bufTy : (tb : Table) → Fin (nBuf tb) → BufTy
  | .hbm, ⟨0, _⟩ => ⟨S4096x26, .i32⟩
  | .hbm, ⟨1, _⟩ => ⟨S100000x128, .f32⟩
  | .hbm, ⟨2, _⟩ => ⟨S106496, .i32⟩
  | .hbm, ⟨3, _⟩ => ⟨S106496x128, .f32⟩
  | .hbm, ⟨4, _⟩ => ⟨S4096x26x128, .f32⟩
  | .local .scVector .vmem, ⟨0, _⟩ => ⟨S3328, .i32⟩
  | .local .scVector .vmem, ⟨1, _⟩ => ⟨S4x208x128, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  ![v2.toNat]
def k0_off2 (i : grid0.Coords) (c0_i32_20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let v19 : BitVec 32 := Scalar.addi v2 c0_i32_20
  let c0_i32_24 : BitVec 32 := 0#32
  ![v19.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x26_S106496 : S4096x26.ShapeCasts S106496
  inb_S4x208x128_S1x208x128_0_0_0 : ∀ a, (![0, 0, 0] : Fin 3 → Nat) a + S1x208x128.size a ≤ S4x208x128.size a
  squeezes_S1x208x128_S208x128 : S1x208x128.Squeezes S208x128
  inb_S3328_S208_0 : ∀ a, (![0] : Fin 1 → Nat) a + S208.size a ≤ S3328.size a
  inb_S100000x128_S100000x128_0_0 : ∀ a, (![0, 0] : Fin 2 → Nat) a + S100000x128.size a ≤ S100000x128.size a
  gathers_S100000x128_S208x128 : S100000x128.Gathers 0 S208x128
  inb_S4x208x128_S1x208x128_1_0_0 : ∀ a, (![1, 0, 0] : Fin 3 → Nat) a + S1x208x128.size a ≤ S4x208x128.size a
  inb_S3328_S208_208 : ∀ a, (![208] : Fin 1 → Nat) a + S208.size a ≤ S3328.size a
  inb_S4x208x128_S1x208x128_2_0_0 : ∀ a, (![2, 0, 0] : Fin 3 → Nat) a + S1x208x128.size a ≤ S4x208x128.size a
  inb_S3328_S208_416 : ∀ a, (![416] : Fin 1 → Nat) a + S208.size a ≤ S3328.size a
  inb_S4x208x128_S1x208x128_3_0_0 : ∀ a, (![3, 0, 0] : Fin 3 → Nat) a + S1x208x128.size a ≤ S4x208x128.size a
  inb_S3328_S208_624 : ∀ a, (![624] : Fin 1 → Nat) a + S208.size a ≤ S3328.size a
  inb_S3328_S208_832 : ∀ a, (![832] : Fin 1 → Nat) a + S208.size a ≤ S3328.size a
  inb_S3328_S208_1040 : ∀ a, (![1040] : Fin 1 → Nat) a + S208.size a ≤ S3328.size a
  inb_S3328_S208_1248 : ∀ a, (![1248] : Fin 1 → Nat) a + S208.size a ≤ S3328.size a
  inb_S3328_S208_1456 : ∀ a, (![1456] : Fin 1 → Nat) a + S208.size a ≤ S3328.size a
  inb_S3328_S208_1664 : ∀ a, (![1664] : Fin 1 → Nat) a + S208.size a ≤ S3328.size a
  inb_S3328_S208_1872 : ∀ a, (![1872] : Fin 1 → Nat) a + S208.size a ≤ S3328.size a
  inb_S3328_S208_2080 : ∀ a, (![2080] : Fin 1 → Nat) a + S208.size a ≤ S3328.size a
  inb_S3328_S208_2288 : ∀ a, (![2288] : Fin 1 → Nat) a + S208.size a ≤ S3328.size a
  inb_S3328_S208_2496 : ∀ a, (![2496] : Fin 1 → Nat) a + S208.size a ≤ S3328.size a
  inb_S3328_S208_2704 : ∀ a, (![2704] : Fin 1 → Nat) a + S208.size a ≤ S3328.size a
  inb_S3328_S208_2912 : ∀ a, (![2912] : Fin 1 → Nat) a + S208.size a ≤ S3328.size a
  inb_S3328_S208_3120 : ∀ a, (![3120] : Fin 1 → Nat) a + S208.size a ≤ S3328.size a
  shapeCasts_S106496x128_S4096x26x128 : S106496x128.ShapeCasts S4096x26x128
  hcc0_scratch2 : 0 + S_.numel ≤ 9
  hcc0_scratch3 : 1 + S_.numel ≤ 9
  hcc0_scratch4 : 2 + S_.numel ≤ 9
  hcc0_scratch5 : 3 + S_.numel ≤ 9
  hcc0_scratch6 : 4 + S_.numel ≤ 9
  hcc0_scratch7 : 5 + S_.numel ≤ 9
  hcc0_scratch8 : 6 + S_.numel ≤ 9
  hcc0_scratch9 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S3328.size a ≤ S106496.size a
  k0_off2_inb : ∀ i : grid0.Coords, ∀ (r : Fin 16), ∀ a, (k0_off2 i (BitVec.ofNat 32 (208 * r.val))) a + S208x128.size a ≤ S106496x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scoped0 : DmaSems sig S_ := SemArray.consecutive 8 S_ hcc0_scoped0

class Facts : Prop extends Facts₀ where

variable [Facts]
-- ==== ReferenceIdeal.lean ====
abbrev S4096x26 : Shape := ⟨2, ![4096, 26]⟩
abbrev S100000x128 : Shape := ⟨2, ![100000, 128]⟩
abbrev S_ : Shape := ⟨0, ![]⟩
abbrev S4096x26x1 : Shape := ⟨3, ![4096, 26, 1]⟩
abbrev S1 : Shape := ⟨1, ![1]⟩
abbrev S1x1x1 : Shape := ⟨3, ![1, 1, 1]⟩
abbrev S4096x26x128 : Shape := ⟨3, ![4096, 26, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S100000x128, .f32⟩
  | .hbm, ⟨2, _⟩ => ⟨S_, .i32⟩
  | .hbm, ⟨3, _⟩ => ⟨S4096x26, .i32⟩
  | .hbm, ⟨4, _⟩ => ⟨S4096x26, .i1⟩
  | .hbm, ⟨5, _⟩ => ⟨S_, .i32⟩
  | .hbm, ⟨6, _⟩ => ⟨S4096x26, .i32⟩
  | .hbm, ⟨7, _⟩ => ⟨S4096x26, .i32⟩
  | .hbm, ⟨8, _⟩ => ⟨S4096x26, .i32⟩
  | .hbm, ⟨9, _⟩ => ⟨S4096x26x1, .i32⟩
  | .hbm, ⟨10, _⟩ => ⟨S1, .i32⟩
  | .hbm, ⟨11, _⟩ => ⟨S_, .i32⟩
  | .hbm, ⟨12, _⟩ => ⟨S4096x26x1, .i32⟩
  | .hbm, ⟨13, _⟩ => ⟨S4096x26x1, .i1⟩
  | .hbm, ⟨14, _⟩ => ⟨S1x1x1, .i32⟩
  | .hbm, ⟨15, _⟩ => ⟨S4096x26x1, .i32⟩
  | .hbm, ⟨16, _⟩ => ⟨S4096x26x1, .i1⟩
  | .hbm, ⟨17, _⟩ => ⟨S4096x26x1, .i1⟩
  | .hbm, ⟨18, _⟩ => ⟨S_, .i1⟩
  | .hbm, ⟨19, _⟩ => ⟨S4096x26, .i1⟩
  | .hbm, ⟨20, _⟩ => ⟨S4096x26x128, .f32⟩
  | .hbm, ⟨21, _⟩ => ⟨S4096x26x128, .i1⟩
  | .hbm, ⟨22, _⟩ => ⟨S_, .f32⟩
  | .hbm, ⟨23, _⟩ => ⟨S4096x26x128, .f32⟩
  | .hbm, ⟨24, _⟩ => ⟨S4096x26x128, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x26 : S_.BroadcastsInDim S4096x26 (![] : Fin 0 → Fin S4096x26.rank)
  bcast_S4096x26_S4096x26x1_0_1 : S4096x26.BroadcastsInDim S4096x26x1 (![0, 1] : Fin 2 → Fin S4096x26x1.rank)
  bcast_S_S4096x26x1 : S_.BroadcastsInDim S4096x26x1 (![] : Fin 0 → Fin S4096x26x1.rank)
  bcast_S1_S1x1x1_2 : S1.BroadcastsInDim S1x1x1 (![2] : Fin 1 → Fin S1x1x1.rank)
  bcast_S1x1x1_S4096x26x1_0_1_2 : S1x1x1.BroadcastsInDim S4096x26x1 (![0, 1, 2] : Fin 3 → Fin S4096x26x1.rank)
  reducesTo_S4096x26x1_S4096x26_d2 : S4096x26x1.ReducesTo [2] S4096x26
  h_S_ : 0 < S_.numel
  bcast_S4096x26_S4096x26x128_0_1 : S4096x26.BroadcastsInDim S4096x26x128 (![0, 1] : Fin 2 → Fin S4096x26x128.rank)
  bcast_S_S4096x26x128 : S_.BroadcastsInDim S4096x26x128 (![] : Fin 0 → Fin S4096x26x128.rank)
  gather_S100000x128_S4096x26x1_S4096x26x128_2_0_n_n_0_2_1128_wf : GatherDims.WF S100000x128 S4096x26x1 S4096x26x128 [2] [0] [] [0] [] 2 ![1, 128]

variable [Facts₀]

def gather_S100000x128_S4096x26x1_S4096x26x128_2_0_n_n_0_2_1128 : GatherDims S100000x128 S4096x26x1 S4096x26x128 where
  offsetDims := [2]
  collapsedSliceDims := [0]
  operandBatchingDims := []
  startIndicesBatchingDims := []
  startIndexMap := [0]
  indexVectorDim := 2
  sliceSizes := ![1, 128]
  wf := gather_S100000x128_S4096x26x1_S4096x26x128_2_0_n_n_0_2_1128_wf

class Facts : Prop extends Facts₀ where

variable [Facts]
-- ==== Proof.Spec.lean ====
/-
  The result both programs compute, as one function of the two argument arrays: an embedding lookup.
  For the index array `idx : int32[4096, 26]` and the table `tab : float32[100000, 128]`,
      out[b, f, c] = tab[idx[b, f], c].
  An index word names the table row of its unsigned value; the value is folded into the table's range so that the
  function is total (on words below 100000, which is all the precondition admits, the fold is the identity).
-/
import Idealize.ShloMosaic.PureOps
import Idealize.ShloMosaic.Lib.ValueIdx

namespace Cert.Spec

open Idealize.ShloMosaic Idealize.ShloMosaic.ValueIdx

abbrev SIdx : Shape := ⟨2, ![4096, 26]⟩
abbrev STab : Shape := ⟨2, ![100000, 128]⟩
abbrev SOut : Shape := ⟨3, ![4096, 26, 128]⟩

/-- The table row an index word names. -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

/-- The lookup: entry `(b, f, c)` of the result is entry `c` of the table's row `idx[b, f]`. -/
def G {α : Type} (idx : SIdx.Idx → BitVec 32) (tab : STab.Idx → α) : SOut.Idx → α :=
  fun x => tab (ix2 (n0 := 100000) (n1 := 128) (rowOf (idx (ix2 (n0 := 4096) (n1 := 26) (x 0) (x 1)))) (x 2))

theorem G_apply {α : Type} (idx : SIdx.Idx → BitVec 32) (tab : STab.Idx → α) (b : Fin 4096) (f : Fin 26) (c : Fin 128) :
    G idx tab (ix3 b f c) = tab (ix2 (rowOf (idx (ix2 b f))) c) := rfl

end Cert.Spec
-- ==== Proof.RefSideRun.lean ====
/-
  The reference program's run. Its @main is one call of the outlined lookup function, which calls the outlined
  select; with the two bodies substituted at their call sites it is a straight line of twenty-three tensor
  operations, so every weakly fair execution terminates with each buffer at the operations' composed value of
  the two argument arrays, and the arguments unchanged.
-/
import proofs.«207303_g8950711845028_cont_9to1c4b_501_30_alg».proof.Defs
import proofs.«207303_g8950711845028_cont_9to1c4b_501_30_alg».proof.Proof.Gen.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F]

/-- The index array with a negative word moved up by the table's height (the lookup's wrap-around of negative
    indices). -/
def wrapped (idx : IVec S4096x26 32) : IVec S4096x26 32 :=
  select (cmpi .slt idx (broadcastInDim S4096x26 ![] bcast_S_S4096x26 (constantI S_ 32 0#32)))
    (addi idx (broadcastInDim S4096x26 ![] bcast_S_S4096x26 (constantI S_ 32 100000#32))) idx

/-- The wrapped index array with a unit axis appended: the gather's table of start indices. -/
def starts (idx : IVec S4096x26 32) : IVec S4096x26x1 32 :=
  broadcastInDim S4096x26x1 ![0, 1] bcast_S4096x26_S4096x26x1_0_1 (wrapped idx)

/-- Per lookup, whether its wrapped index lies in the table: at least 0 and at most 99999, over the unit axis. -/
def inRange (idx : IVec S4096x26 32) : IVec S4096x26 1 :=
  Host.reduce IntOp.andi
    (andi (cmpi .sge (starts idx) (broadcastInDim S4096x26x1 ![] bcast_S_S4096x26x1 (constantI S_ 32 0#32)))
      (cmpi .sle (starts idx) (broadcastInDim S4096x26x1 ![0, 1, 2] bcast_S1x1x1_S4096x26x1_0_1_2
        (broadcastInDim S1x1x1 ![2] bcast_S1_S1x1x1_2 (constantI S1 32 99999#32)))))
    (constantI S_ 1 1#1) reducesTo_S4096x26x1_S4096x26_d2 h_S_

/-- The operations' composed value: the gathered rows where the index is in range, the fill value elsewhere. -/
def out (idx : IVec S4096x26 32) (tab : FVec F S100000x128 .f32) : FVec F S4096x26x128 .f32 :=
  select (broadcastInDim S4096x26x128 ![0, 1] bcast_S4096x26_S4096x26x128_0_1 (inRange idx))
    (Host.gather gather_S100000x128_S4096x26x1_S4096x26x128_2_0_n_n_0_2_1128 tab (starts idx))
    (broadcastInDim S4096x26x128 ![] bcast_S_S4096x26x128 (constant S_ .f32 0x7FC00000#32))

/-- @main's twenty-three operations, in order: the lookup function's, over the call's buffers, with the select
    function's one operation in the place of its call. -/
abbrev ops : List (HloOp τ sig (Elt F)) :=
  [ TRef.nullary main_call0.c (constantI S_ 32 0#32),
    TRef.unary main_call0.c main_call0.v0 (broadcastInDim S4096x26 ![] bcast_S_S4096x26),
    TRef.binary (.of main_arg0) main_call0.v0 main_call0.v1 (cmpi .slt),
    TRef.nullary main_call0.c_0 (constantI S_ 32 100000#32),
    TRef.unary main_call0.c_0 main_call0.v2 (broadcastInDim S4096x26 ![] bcast_S_S4096x26),
    TRef.binary (.of main_arg0) main_call0.v2 main_call0.v3 addi,
    TRef.ternary main_call0.v1 main_call0.v3 (.of main_arg0) main_call0.call0.v0 select,
    TRef.unary main_call0.call0.v0 main_call0.v5 (broadcastInDim S4096x26x1 ![0, 1] bcast_S4096x26_S4096x26x1_0_1),
    TRef.nullary main_call0.c_1 (constantI S1 32 99999#32),
    TRef.nullary main_call0.c_2 (constantI S_ 32 0#32),
    TRef.unary main_call0.c_2 main_call0.v6 (broadcastInDim S4096x26x1 ![] bcast_S_S4096x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x26x1 ![0, 1, 2] bcast_S1x1x1_S4096x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x26x1_S4096x26_d2 h_S_),
    TRef.binary (.of main_arg1) main_call0.v5 main_call0.v13 (fun x i => Host.gather gather_S100000x128_S4096x26x1_S4096x26x128_2_0_n_n_0_2_1128 x i),
    TRef.unary main_call0.v12 main_call0.v14 (broadcastInDim S4096x26x128 ![0, 1] bcast_S4096x26_S4096x26x128_0_1),
    TRef.nullary main_call0.cst (constant S_ .f32 0x7FC00000#32),
    TRef.unary main_call0.cst main_call0.v15 (broadcastInDim S4096x26x128 ![] bcast_S_S4096x26x128),
    TRef.ternary main_call0.v14 main_call0.v13 main_call0.v15 main_call0.v16 select ]

-- twenty-three binds re-associated once the two bodies are substituted
set_option maxRecDepth 1024 in
/-- @main is that straight line: the two functions' definitions unfolded at their calls, both sides are one chain
    of operation steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
/-- The fold at the result buffer is the composed value: each operation's result at its own buffer is its function's
    value and at any other buffer what was there, and the typed references' transports are the identity at these
    literal references. The reduction and the gather are kept folded meanwhile: the equation never looks inside
    them. -/
theorem out_eq (V : Valuation τ sig (Elt F)) :
    after ops V (main_v0 : DevRef τ sig) = out (F := F) (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of
    @main terminates with the result buffer at the operations' composed value of the arguments and the arguments
    unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _), (h c main_arg1).trans (arg1_eq _)⟩)
    (run_seq scopedRefs_eq scopedSems_eq defs main (fun _ => ops) main_eq (fun _ => ops_sub) m ρ)

end Cert.RefSide

end
-- ==== Proof.RefSide.lean ====
/-
  The reference side of the certificate. The reference program looks up, for each of 4096 × 26 index words, the
  named row of a 100000 × 128 table: it moves a negative index up by the table's height, tests the result against
  the table's range, gathers the rows (the gather clamps its start indices into the table) and puts a fill value
  where the test failed. The precondition says every index word is, read signed, between 0 and 99999. Under it no
  index is negative, every test passes, the clamp is the identity and the fill value is never selected: the result
  is `out[b, f, c] = tab[idx[b, f], c]`, the specification's lookup.

  Three statements: the precondition gives the bound on every index word (`idx_lt_of_pre`); from any memory whose
  index words obey the bound the program runs, ends with the result buffer at the lookup and leaves its arguments
  unchanged (`run`); and so the program's frame claim holds (`frame`).
-/
import proofs.«207303_g8950711845028_cont_9to1c4b_501_30_alg».proof.Defs
import proofs.«207303_g8950711845028_cont_9to1c4b_501_30_alg».proof.Proof.Gen.ReferenceIdeal
import proofs.«207303_g8950711845028_cont_9to1c4b_501_30_alg».proof.Proof.Gen.Pre_input_domain
import proofs.«207303_g8950711845028_cont_9to1c4b_501_30_alg».proof.Proof.Spec
import proofs.«207303_g8950711845028_cont_9to1c4b_501_30_alg».proof.Proof.RefSideRun
import Idealize.ShloMosaic.Lib.ReduceAll
import Idealize.ShloMosaic.Lib.ValueIdx

noncomputable section

namespace Cert.RefSide

open Cert.ReferenceIdeal Cert.ReferenceIdeal.Facts₀ Idealize.ShloMosaic Idealize.ShloMosaic.TcCoe Idealize.SL.Sem
  Idealize.ShloMosaic.StableHlo Idealize.ShloMosaic.ValueIdx

variable {F : FTy → Type} [FloatOps F]

/-! ## The composed value read at an index

Under the precondition every index word is below 100000, so it reads the same signed and unsigned, no wrap-around
applies, every in-range bit is 1, the gather's clamp is the identity and the fill value is never selected. -/

/-- A word below 100000 reads the same signed and unsigned. -/
theorem toInt_of_lt {w : BitVec 32} (h : w.toNat < 100000) : w.toInt = (w.toNat : Int) :=
  BitVec.toInt_eq_toNat_of_lt (by omega)

/-- No index word is negative, so the wrap-around leaves the array as it is. -/
theorem wrapped_eq (idx : IVec S4096x26 32) (hidx : ∀ j, (idx j).toNat < 100000) : wrapped idx = idx := by
  funext j
  show Scalar.select (IntOp.cmpi .slt (idx j) 0#32) _ (idx j) = idx j
  have h0 : IntOp.cmpi .slt (idx j) 0#32 = 0#1 := by
    apply eq_zero_of_ne_one
    rw [IntOp.cmpi_slt, toInt_of_lt (hidx j), show (0#32 : BitVec 32).toInt = 0 from by decide]
    omega
  rw [h0, select_zero]

/-- The start index of lookup `(b, f)` is the index word `idx[b, f]`. -/
theorem starts_apply (idx : IVec S4096x26 32) (hidx : ∀ j, (idx j).toNat < 100000) (b : Fin 4096) (f : Fin 26) (z : Fin 1) :
    starts idx (ix3 b f z) = idx (ix2 b f) := by
  unfold starts
  rw [wrapped_eq idx hidx]
  show idx _ = idx _
  congr 1
  funext a
  match a with
  | ⟨0, _⟩ => rfl
  | ⟨1, _⟩ => rfl

/-- A reduction by `and` of an array of ones, from the initial value one, is one. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih => rw [List.foldl_cons, hx a, show IntOp.andi (1#1 : BitVec 1) 1#1 = 1#1 from by decide]; exact ih

/-- Every lookup's index is in the table. -/
theorem inRange_apply (idx : IVec S4096x26 32) (hidx : ∀ j, (idx j).toNat < 100000) (j : S4096x26.Idx) :
    inRange idx j = 1#1 := by
  unfold inRange
  refine reduce_andi_of_all _ _ _ _ (fun i => ?_) (fun _ => rfl) j
  obtain ⟨b, f, z, rfl⟩ : ∃ b f z, i = ix3 b f z := ⟨i 0, i 1, i 2, eq_ix3 i⟩
  show IntOp.andi (IntOp.cmpi .sge (starts idx (ix3 b f z)) 0#32) (IntOp.cmpi .sle (starts idx (ix3 b f z)) 99999#32) = 1#1
  rw [starts_apply idx hidx, IntOp.andi_eq_one, IntOp.cmpi_sge, IntOp.cmpi_sle, toInt_of_lt (hidx _),
    show (0#32 : BitVec 32).toInt = 0 from by decide, show (99999#32 : BitVec 32).toInt = 99999 from by decide]
  have := hidx (ix2 b f)
  omega

local notation "gd" => gather_S100000x128_S4096x26x1_S4096x26x128_2_0_n_n_0_2_1128

/-- The lookup's gather read at `(b, f, c)`: the table at the row its start index `st[b, f, 0]` names — read signed and
    clamped into the table — and column `c`. -/
theorem gather_apply {α : Type} (tab : S100000x128.Idx → α) (st : IVec S4096x26x1 32) (b : Fin 4096) (f : Fin 26) (c : Fin 128) :
    Host.gather gd tab st (ix3 b f c) = tab (ix2 (n0 := 100000) (n1 := 128) ⟨min (st (ix3 b f 0)).toInt.toNat 99999, by omega⟩ c) := by
  unfold Host.gather
  congr 1
  funext a
  refine Fin.ext ?_
  match a with
  | ⟨0, _⟩ =>
    show GatherDims.start gd (ix3 b f c) st 0 + GatherDims.batchCoord gd (ix3 b f c) 0 + GatherDims.offCoord gd (ix3 b f c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd (ix3 b f c) ⟨List.idxOf (0 : Fin 2) (GatherDims.startIndexMap gd),
        List.idxOf_lt_length_iff.2 (List.mem_singleton.mpr rfl)⟩ = ix3 b f 0 := by
      funext e; refine Fin.ext ?_
      match e with
      | ⟨0, _⟩ => rfl
      | ⟨1, _⟩ => rfl
      | ⟨2, _⟩ => rfl
    rw [hsi]
    rfl
  | ⟨1, _⟩ =>
    show GatherDims.start gd (ix3 b f c) st 1 + GatherDims.batchCoord gd (ix3 b f c) 1 + GatherDims.offCoord gd (ix3 b f c) 1 = c.val
    rw [GatherDims.batchCoord_eq_zero _ _ _ List.not_mem_nil]
    unfold GatherDims.start
    rw [dif_neg (show (1 : Fin 2) ∉ GatherDims.startIndexMap gd from by decide)]
    unfold GatherDims.offCoord
    rw [dif_pos (show (1 : Fin 2) ∈ GatherDims.sKept gd from by decide)]
    simp only [Nat.zero_add, Nat.add_zero]
    rfl

/-- THE VALUE: under the precondition the operations' composed value is the lookup. -/
theorem out_eq_G (idx : IVec S4096x26 32) (tab : FVec F S100000x128 .f32) (hidx : ∀ j, (idx j).toNat < 100000) :
    out idx tab = Cert.Spec.G idx tab := by
  funext x
  obtain ⟨b, f, c, rfl⟩ : ∃ b f c, x = ix3 b f c := ⟨x 0, x 1, x 2, eq_ix3 x⟩
  unfold out
  rw [select_apply]
  have hm : broadcastInDim S4096x26x128 ![0, 1] bcast_S4096x26_S4096x26x128_0_1 (inRange idx) (ix3 b f c) = 1#1 :=
    inRange_apply idx hidx _
  have hlt := hidx (ix2 b f)
  have hrow : (⟨min (starts idx (ix3 b f 0)).toInt.toNat 99999, by omega⟩ : Fin 100000) = Cert.Spec.rowOf (idx (ix2 b f)) := by
    apply Fin.ext
    show min (starts idx (ix3 b f 0)).toInt.toNat 99999 = (idx (ix2 b f)).toNat % 100000
    rw [starts_apply idx hidx, toInt_of_lt hlt, Int.toNat_natCast, Nat.mod_eq_of_lt hlt]
    omega
  rw [hm, select_one, gather_apply, Cert.Spec.G_apply, hrow]

/-! ## The three statements -/

/-- The scalar shape has one index. -/
instance : Subsingleton Cert.Pre_input_domain.S_.Idx := ⟨fun a b => funext fun d => d.elim0⟩

/-- The precondition's integer conjunct, read back: the conjunction over the whole index array of "at least 0" and
    "at most 99999", both signed, is 1, so each word is nonnegative — it then reads the same signed and unsigned —
    and at most 99999. -/
theorem idx_lt_of_pre {F : FTy → Type} [FloatOps F] (a0 : IVec Cert.Pre_input_domain.S4096x26 32)
    (a1 : FVec F Cert.Pre_input_domain.S100000x128 .f32)
    (h : Cert.Pre_input_domain.fn (F := F) a0 a1 = fun _ => 1#1) : ∀ j, (a0 j).toNat < 100000 := by
  intro j
  have h0 : Cert.Pre_input_domain.fn (F := F) a0 a1 ix0 = 1#1 := congrFun h _
  dsimp only [Cert.Pre_input_domain.fn] at h0
  have h1 := (IntOp.andi_eq_one.1 h0).2
  have h2 := Host.reduce_andi_all _ _ _ _ _ h1 j
  have h3 : IntOp.cmpi .sge (a0 j) 0#32 = 1#1 ∧ IntOp.cmpi .sle (a0 j) 99999#32 = 1#1 := IntOp.andi_eq_one.1 h2
  obtain ⟨hge, hle⟩ := h3
  rw [IntOp.cmpi_sge, show (0#32 : BitVec 32).toInt = 0 from by decide] at hge
  rw [IntOp.cmpi_sle, show (99999#32 : BitVec 32).toInt = 99999 from by decide] at hle
  have hn : 2 * (a0 j).toNat < 2 ^ 32 := BitVec.toInt_pos_iff.1 hge
  rw [BitVec.toInt_eq_toNat_of_lt hn] at hle
  omega

/-- From any memory whose index words are below 100000, with zero counters: every weakly fair execution of the
    reference terminates with the result buffer at the lookup of the two argument arrays and the arguments
    unchanged. -/
theorem run (m : (ℓ : Loc Cert.ReferenceIdeal.nD Cert.ReferenceIdeal.τ Cert.ReferenceIdeal.sig) → Buf (Elt Ideal) ℓ) (g : Dev Cert.ReferenceIdeal.nD → PrngReg)
    (hidx : ∀ (c : Dev Cert.ReferenceIdeal.nD) j, (m ((c.tc : Thread Cert.ReferenceIdeal.nD Cert.ReferenceIdeal.τ).loc Cert.ReferenceIdeal.main_arg0) j).toNat < 100000) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1.trans (out_eq_G _ _ (hidx c)), (h c).2⟩) (run_out m g)

/-- The reference's frame claim: under the precondition it runs and its argument arrays end unchanged. -/
theorem frame : Cert.frame_ReferenceIdeal (hReferenceIdeal := Cert.ReferenceIdeal.Gen.facts) (hPre_input_domain := Cert.Pre_input_domain.Gen.facts) := by
  intro m g hpre
  exact (θ_run _ _ _).mono (fun _ h c => (h c).2) (run m g fun c => idx_lt_of_pre _ _ (hpre c))

end Cert.RefSide

end
-- ==== Proof.Ideal.Base.lean ====
/-
  The idealized kernel as a SparseCore program: thirty-two tasks, one per vector subcore of the two SparseCores. Task
  `(core c, subcore s)` owns the block of 3328 consecutive rows starting at row `3328 · (2 s + c)` of the flattened
  index array and of the output: it copies its block of index words into its index scratch, and for each of the block's
  sixteen chunks of 208 rows gathers the table rows those words name into one of four row buffers and copies that buffer
  out to the chunk of the output. This file fixes the vocabulary the other files of the proof share: the program as the
  launch theorem reads it, the ghost state (the launch handshakes' rounds beside the transfers' counters), and the five
  arrays of the TensorCore's memory.
-/
import proofs.«207303_g8950711845028_cont_9to1c4b_501_30_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207303_g8950711845028_cont_9to1c4b_501_30_alg».proof.Proof.Gen.KernelIdeal
import proofs.«207303_g8950711845028_cont_9to1c4b_501_30_alg».proof.Proof.Gen.KernelIdeal.Skeleton

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array as given, the table, the index array flattened, the gathered rows, the result. -/
abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.KI
end
-- ==== Proof.Ideal.Chunks.lean ====
/-
  One task's memory, cut the way the kernel's copies cut it: the sixteen chunks of its block of the output, the sixteen
  lists of 208 index words in its index scratch, the four row buffers of its row scratch, and its block of the flattened
  index array. The lists partition the index scratch; every word a list holds is a word of the index array.
-/
import proofs.«207303_g8950711845028_cont_9to1c4b_501_30_alg».proof.Proof.Ideal.Base

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One tile's task -/

local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S106496 EltTy.i32)
local notation "oV" => (Memref.whole Cert.KernelIdeal.main_v1_scv : Memref Cert.KernelIdeal.sig Kind.scVector Space.hbm Cert.KernelIdeal.S106496x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x208x128 EltTy.f32)

abbrev cV (L : grid0.Coords) : Fin τ.nSC := (L 0).castLE hcore0
abbrev jV (L : grid0.Coords) : Fin τ.nSub := (L 1).castLE hsub0

/-- Chunk `r` of the tile's block of the output: 208 rows from row `3328 · (2 · subcore + core) + 208 · r`. -/
abbrev oCh (L : grid0.Coords) (w : BitVec 32) (r : Fin 16) (h : BitVec.ofNat 32 (208 * r.val) = w) : Memref sig .scVector .hbm S208x128 .f32 :=
  (oV).slice (Rect.unit (s := S106496x128) (k0_off2 L w) S208x128.size (h ▸ k0_off2_inb L r)) (fun _ => rfl)
/-- The 208 index words of one chunk, in the tile's index scratch. -/
abbrev lst (o : Nat) (h : ∀ a, (![o] : Fin 1 → Nat) a + S208.size a ≤ S3328.size a) : Memref sig .scVector .vmem S208 .i32 :=
  (sV).slice (Rect.unit (s := S3328) ![o] S208.size h) (fun _ => rfl)
/-- One of the four row buffers of the tile's row scratch. -/
abbrev slot (k : Nat) (h : ∀ a, (![k, 0, 0] : Fin 3 → Nat) a + S1x208x128.size a ≤ S4x208x128.size a) : Memref sig .scVector .vmem S208x128 .f32 :=
  ((rV).slice (Rect.unit (s := S4x208x128) ![k, 0, 0] S1x208x128.size h) (fun _ => rfl)).squeeze S208x128 squeezes_S1x208x128_S208x128
/-- The tile's block of the flattened index array. -/
abbrev iBlk (L : grid0.Coords) : Memref sig .scVector .hbm S3328 .i32 :=
  (iV).slice (Rect.unit (s := S106496) (k0_off1 L) S3328.size (k0_off1_inb L)) (fun _ => rfl)

/-- The whole table, as each gather names its source. -/
abbrev tAll : Memref sig .scVector .hbm S100000x128 .f32 :=
  (tV).slice (Rect.unit (s := S100000x128) ![0, 0] S100000x128.size inb_S100000x128_S100000x128_0_0) (fun _ => rfl)

variable [FloatOps F]

/-! ## Finite families, spelt out -/
omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    SparseCore.bigSep_insert' (by decide), SparseCore.bigSep_insert' (by decide), SparseCore.bigSep_insert' (by decide), bigSep_singleton]
omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The index scratch, cut into the sixteen chunks' lists -/

theorem lst_inb (j : Fin 16) : ∀ a, (![208 * j.val] : Fin 1 → Nat) a + S208.size a ≤ S3328.size a := by
  intro a; have := j.isLt
  match a with
  | ⟨0, _⟩ => show 208 * j.val + 208 ≤ 3328; omega
abbrev lstN (j : Fin 16) : Memref sig .scVector .vmem S208 .i32 := lst (208 * j.val) (lst_inb j)
abbrev lstSet (j : Fin 16) : Finset S3328.Idx := (lstN j).view.set
theorem lstN_set (j : Fin 16) : lstSet j = (Rect.unit (s := S3328) ![208 * j.val] S208.size (lst_inb j)).set :=
  View.set_slice_whole _ _
theorem lst_disjoint : ∀ j ∈ (Finset.univ : Finset (Fin 16)), ∀ j' ∈ (Finset.univ : Finset (Fin 16)), j ≠ j' →
    Disjoint (lstSet j) (lstSet j') := by
  intro j _ j' _ h
  rw [lstN_set, lstN_set]
  refine Rect.unit_disjoint 0 ?_
  have : j.val ≠ j'.val := Fin.val_ne_of_ne h
  show 208 * j.val + 208 ≤ 208 * j'.val ∨ 208 * j'.val + 208 ≤ 208 * j.val
  omega
theorem lst_cover : (Finset.univ : Finset (Fin 16)).biUnion lstSet = Finset.univ := by
  ext i
  simp only [Finset.mem_biUnion, Finset.mem_univ, true_and, iff_true]
  have hi : (i 0).val < 3328 := (i 0).isLt
  refine ⟨⟨(i 0).val / 208, by omega⟩, ?_⟩
  rw [lstN_set, Rect.mem_set_unit]
  intro a
  match a with
  | ⟨0, _⟩ => show 208 * ((i 0).val / 208) ≤ (i 0).val ∧ (i 0).val < 208 * ((i 0).val / 208) + 208; omega

/-! ## The index words the lists hold -/

/-- What the index scratch holds once the tile's block of the index array has landed in it: every word is a word of the
    index array, so below the table's height when those all are. -/
theorem lst_words_lt (L : grid0.Coords) {d : Dev nD} {fi : Buf (Elt F) (iLoc d)} (hfi : ∀ y, (fi y).toNat < 100000)
    (fs : S3328.Idx → Elt F .i32) (pay : S3328.Idx → Elt F .i32) (hpay : pay = (iBlk L).view.read (Elt F) fi)
    (o : Nat) (h : ∀ a, (![o] : Fin 1 → Nat) a + S208.size a ≤ S3328.size a) :
    ∀ x, ((lst o h).view.read (Elt F) (View.write (Elt F) (sV).view fs pay Finset.univ) x).toNat < S100000x128.size gathers_S100000x128_S208x128.axis := by
  subst hpay; intro x
  have e : View.write (Elt F) (sV).view fs ((iBlk L).view.read (Elt F) fi) Finset.univ = (iBlk L).view.read (Elt F) fi :=
    View.write_whole_univ _ _ _
  have e1 : ∀ (g : S3328.Idx → Elt F .i32) z, (lst o h).view.read (Elt F) g z = g ((lst o h).view.emb z) :=
    fun g z => (View.read_apply _ _).trans (cast_eq _ _)
  have e2 : ∀ z, (iBlk L).view.read (Elt F) fi z = fi ((iBlk L).view.emb z) := fun z => (View.read_apply _ _).trans (cast_eq _ _)
  rw [e, e1, e2]
  exact hfi _

end Cert.KI
end
-- ==== Proof.Blocks.lean ====
/-
  The row layout the kernel works in, and its cut into chunks. The kernel reads the index array `idx : [4096, 26]`
  flat, `flat : [106496]` in row-major order, gathers the table rows `rows[r, c] = tab[flat[r], c]` as one
  `[106496, 128]` array, and reads that array as `[4096, 26, 128]`, again in row-major order. Row `r = 26·b + f` of
  the flat order is lookup `(b, f)`, and entry `(r, c)` of the rows is entry `(b, f, c)` of the result, so the reshaped
  rows are the specification's lookup (`rows_reshape`), and the flat index words obey the bound the index words do
  (`flat_lt`). The 106496 rows are cut into 2 × 16 × 16 chunks of 208 whole rows, chunk `(c, i, j)` starting at row
  `6656·i + 3328·c + 208·j = 208·(32·i + 16·c + j)`: the starts are the multiples of 208 below 106496, each once, so
  the chunks lie inside the array (`chunk_inb`), are pairwise disjoint (`chunk_disjoint`) and cover it
  (`chunk_cover`).
-/
import Idealize.ShloMosaic.PureOps
import Idealize.ShloMosaic.Lib.ValueIdx
import proofs.«207303_g8950711845028_cont_9to1c4b_501_30_alg».proof.Proof.Spec

namespace Cert.Blocks

open Idealize.ShloMosaic Idealize.ShloMosaic.ValueIdx Cert.Spec

abbrev SFlat : Shape := ⟨1, ![106496]⟩
abbrev SRows : Shape := ⟨2, ![106496, 128]⟩

/-- The gathered rows as one array: row `r` is the table's row named by `flat[r]`. -/
def Rows {α : Type} (flat : SFlat.Idx → BitVec 32) (tab : STab.Idx → α) : SRows.Idx → α :=
  fun y => tab (ix2 (n0 := 100000) (n1 := 128) (rowOf (flat (ix1 (n := 106496) (y 0)))) (y 1))

/-! ## The chunks -/

/-- A chunk lies inside the rows: its last row is at most row `6656·15 + 3328 + 208·15 + 207 = 106495`, and it takes
    every column. -/
theorem chunk_inb (c : Fin 2) (i j : Fin 16) :
    ∀ a, (![6656 * i.val + 3328 * c.val + 208 * j.val, 0] : Fin 2 → Nat) a + (![208, 128] : Fin 2 → Nat) a ≤ SRows.size a := by
  intro a
  have hc := c.isLt
  have hi := i.isLt
  have hj := j.isLt
  match a with
  | ⟨0, _⟩ =>
    show 6656 * i.val + 3328 * c.val + 208 * j.val + 208 ≤ 106496
    omega
  | ⟨1, _⟩ =>
    show 0 + 128 ≤ 128
    omega

/-- Chunk `(c, i, j)`: 208 whole rows from row `6656·i + 3328·c + 208·j`. -/
abbrev chunkRect (c : Fin 2) (i j : Fin 16) : Rect SRows :=
  Rect.unit (s := SRows) ![6656 * i.val + 3328 * c.val + 208 * j.val, 0] ![208, 128] (chunk_inb c i j)

/-- Its set of entries. -/
abbrev chunkSet (p : Fin 2 × Fin 16 × Fin 16) : Finset SRows.Idx := (chunkRect p.1 p.2.1 p.2.2).set

/-- Two different chunks share no entry: their first rows are different multiples of 208 (`32·i + 16·c + j` names the
    triple, as `j` is below 16 and `16·c + j` below 32), so their row ranges, 208 long, are separated. -/
theorem chunk_disjoint : ∀ p ∈ (Finset.univ : Finset (Fin 2 × Fin 16 × Fin 16)),
    ∀ p' ∈ (Finset.univ : Finset (Fin 2 × Fin 16 × Fin 16)), p ≠ p' → Disjoint (chunkSet p) (chunkSet p') := by
  rintro ⟨c, i, j⟩ - ⟨c', i', j'⟩ - hne
  have hne' : c.val ≠ c'.val ∨ i.val ≠ i'.val ∨ j.val ≠ j'.val := by
    by_contra hcon
    simp only [not_or, not_not] at hcon
    exact hne (by rw [Fin.ext hcon.1, Fin.ext hcon.2.1, Fin.ext hcon.2.2])
  have hc := c.isLt
  have hi := i.isLt
  have hj := j.isLt
  have hc' := c'.isLt
  have hi' := i'.isLt
  have hj' := j'.isLt
  refine Rect.unit_disjoint (0 : Fin 2) ?_
  show 6656 * i.val + 3328 * c.val + 208 * j.val + 208 ≤ 6656 * i'.val + 3328 * c'.val + 208 * j'.val
    ∨ 6656 * i'.val + 3328 * c'.val + 208 * j'.val + 208 ≤ 6656 * i.val + 3328 * c.val + 208 * j.val
  omega

/-- Every entry is in a chunk: row `r` is in chunk `(r mod 6656 div 3328, r div 6656, r mod 3328 div 208)`. -/
theorem chunk_cover : (Finset.univ : Finset (Fin 2 × Fin 16 × Fin 16)).biUnion chunkSet = Finset.univ := by
  ext y
  simp only [Finset.mem_biUnion, Finset.mem_univ, true_and, iff_true]
  have hr : (y 0).val < 106496 := (y 0).isLt
  have hcol : (y 1).val < 128 := (y 1).isLt
  refine ⟨(⟨(y 0).val % 6656 / 3328, by omega⟩, ⟨(y 0).val / 6656, by omega⟩, ⟨(y 0).val % 3328 / 208, by omega⟩), ?_⟩
  refine Rect.mem_set_unit.2 fun a => ?_
  match a with
  | ⟨0, _⟩ =>
    show 6656 * ((y 0).val / 6656) + 3328 * ((y 0).val % 6656 / 3328) + 208 * ((y 0).val % 3328 / 208) ≤ (y 0).val
      ∧ (y 0).val < 6656 * ((y 0).val / 6656) + 3328 * ((y 0).val % 6656 / 3328) + 208 * ((y 0).val % 3328 / 208) + 208
    omega
  | ⟨1, _⟩ =>
    show 0 ≤ (y 1).val ∧ (y 1).val < 0 + 128
    omega

/-! ## The flat order and the reshape -/

/-- The flat index array holds the index array's words, so it obeys the same bound. -/
theorem flat_lt (a0 : SIdx.Idx → BitVec 32) (h1 : SIdx.ShapeCasts SFlat) (h : ∀ j, (a0 j).toNat < 100000) :
    ∀ y, (shapeCast SFlat a0 h1 y).toNat < 100000 :=
  fun _ => h _

/-- The rows gathered at the flat index array, read as `[4096, 26, 128]`, are the lookup: entry `(b, f, c)` is entry
    `(26·b + f, c)` of the rows, and flat position `26·b + f` holds the index word `idx[b, f]`. -/
theorem rows_reshape {α : Type} (a0 : SIdx.Idx → BitVec 32) (tab : STab.Idx → α) (h1 : SIdx.ShapeCasts SFlat)
    (h2 : SRows.ShapeCasts SOut) : shapeCast SOut (Rows (shapeCast SFlat a0 h1) tab) h2 = G a0 tab := by
  funext x
  obtain ⟨b, f, c, rfl⟩ : ∃ b f c, x = ix3 b f c := ⟨x 0, x 1, x 2, eq_ix3 x⟩
  have hb := b.isLt
  have hf := f.isLt
  have hrow : 26 * b.val + f.val < 106496 := by omega
  have hk : Shape.reshapeEquiv h2 (ix3 b f c) = ix2 (n0 := 106496) (n1 := 128) ⟨26 * b.val + f.val, hrow⟩ c := by
    refine Shape.reshapeEquiv_eq_of_rowMajor h2 ?_
    rw [Shape.rowMajor_val_two, Shape.rowMajor_val_three]
    show (26 * b.val + f.val) * 128 + c.val = (b.val * 26 + f.val) * 128 + c.val
    omega
  have hk1 : Shape.reshapeEquiv h1 (ix1 (n := 106496) ⟨26 * b.val + f.val, hrow⟩) = ix2 (n0 := 4096) (n1 := 26) b f := by
    refine Shape.reshapeEquiv_eq_of_rowMajor h1 ?_
    rw [Shape.rowMajor_val_two, Shape.rowMajor_val_one]
    show b.val * 26 + f.val = 26 * b.val + f.val
    omega
  show Rows (shapeCast SFlat a0 h1) tab (Shape.reshapeEquiv h2 (ix3 b f c)) = _
  rw [hk, G_apply]
  show tab (ix2 (rowOf (a0 (Shape.reshapeEquiv h1 (ix1 ⟨26 * b.val + f.val, hrow⟩)))) c) = _
  rw [hk1]

end Cert.Blocks
-- ==== Proof.Ideal.Arrays.lean ====
/-
  What the arrays hold, and who holds which part of them while the tasks run. The flattened index array is the index
  array reshaped; the output ends as the gathered rows, row `r` the table's row named by the flattened index word `r`
  (`Cert.Blocks.Rows`); the result is that reshaped. During the call every task reads the whole index array and the
  whole table, so each holds a read share of both (the full share cut in two for the SparseCores, each half in sixteen
  for its tasks), and owns the sixteen chunks of its own block of the output.
-/
import proofs.«207303_g8950711845028_cont_9to1c4b_501_30_alg».proof.Proof.Ideal.Chunks
import proofs.«207303_g8950711845028_cont_9to1c4b_501_30_alg».proof.Proof.Blocks

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S106496 EltTy.i32)
local notation "oV" => (Memref.whole Cert.KernelIdeal.main_v1_scv : Memref Cert.KernelIdeal.sig Kind.scVector Space.hbm Cert.KernelIdeal.S106496x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x208x128 EltTy.f32)

variable (m : (ℓ : Loc nD τ sig) → Buf (Elt F) ℓ)

/-- The flattened index array: the index array's words in row-major order. -/
def Fi (d : Dev nD) : Buf (Elt F) (iLoc d) := fun i => shapeCast S106496 (m (aLoc d)) shapeCasts_S4096x26_S106496 i
/-- The gathered rows. -/
def Go (d : Dev nD) : Buf (Elt F) (oLoc d) := Cert.Blocks.Rows (Fi m d) (m (tLoc d))
/-- The result: the gathered rows, one per pair of a batch row and a feature. -/
def Res (d : Dev nD) : Buf (Elt F) (rLoc d) := fun i => shapeCast S4096x26x128 (Go m d) shapeCasts_S106496x128_S4096x26x128 i

/-- What the proof asks of the launch memory: every index word names a row of the table. -/
def PreOK : Prop := ∀ (d : Dev nD) y, (Fi m d y).toNat < 100000

/-- The read share of SparseCore `c`, and of its task `i`. -/
def qC (c : Fin 2) : PosShare TreeShare := pieceOf fullShare 2 (by decide) c
def qT (c : Fin 2) (i : Fin 16) : PosShare TreeShare := pieceOf (qC c) 16 (by decide) i

theorem bound_zero : grid0.bound 0 = 2 := rfl
theorem bound_one : grid0.bound 1 = 16 := rfl
/-- A task's SparseCore and vector subcore, as numbers below 2 and 16. -/
abbrev cL (L : grid0.Coords) : Fin 2 := Fin.cast bound_zero (L 0)
abbrev iL (L : grid0.Coords) : Fin 16 := Fin.cast bound_one (L 1)

/-- What task `(c, i)` holds: its read shares of the flattened index array and of the table, and the sixteen chunks of its
    block of the output, at contents `fo`. -/
def taskRes (d : Dev nD) (c : Fin 2) (i : Fin 16) (fo : Buf (Elt F) (oLoc d)) : sProp 𝕄 :=
  iprop((iLoc d ↦{qT c i} Fi m d) ∗ (tLoc d ↦{qT c i} m (tLoc d))
    ∗ bigSep Finset.univ fun j : Fin 16 => oLoc d ↦[Cert.Blocks.chunkSet (c, i, j)]{fullShare} fo)

theorem unit_congr {s : Shape} {off off' size : Fin s.rank → Nat} (e : off = off') (h : ∀ a, off a + size a ≤ s.size a)
    (h' : ∀ a, off' a + size a ≤ s.size a) : Rect.unit off size h = Rect.unit off' size h' := by
  subst e; rfl

/-- Chunk `r` of a task's block of the output, as the kernel slices it, is chunk `(core, subcore, r)` of the output's rows. -/
theorem set_oCh (L : grid0.Coords) (w : BitVec 32) (r : Fin 16) (hw : BitVec.ofNat 32 (208 * r.val) = w) :
    (oCh L w r hw).view.set = Cert.Blocks.chunkSet (cL L, iL L, r) := by
  subst hw
  show ((View.whole main_v1_scv).slice (Rect.unit (s := S106496x128) (k0_off2 L (BitVec.ofNat 32 (208 * r.val))) S208x128.size _)).set = _
  rw [View.set_slice_whole]
  exact congrArg (fun R : Rect S106496x128 => R.set) (unit_congr (k0_off2_eq L r) _ _)

end Cert.KI
end
-- ==== Proof.Ideal.ChunkValue.lean ====
/-
  What one chunk of the output holds once its task has run. The task copies its block of the flattened index array
  into its index scratch; for chunk `r` it gathers, into one of its four row buffers, the table rows named by the 208
  words at offset `208·r` of the scratch, and copies that buffer out to chunk `r` of its block of the output. Each of the
  three copies writes a whole rectangle, so what is read back through the rectangle is the copy's payload, whatever
  the buffer held before. Entry `(a, b)` of the chunk is then the table's entry at row `flat[R]`, column `b`, where
  `R = 6656·j + 3328·c + 208·r + a` is the chunk's row `a` as a row of the output (`(c, j)` the task's core and subcore)
  and `flat` the flattened index array: word `a` of the list is word `208·r + a` of the scratch, which is word
  `6656·j + 3328·c + 208·r + a` of the flattened index array. That word is below the table's height, so the row it
  names is the row the specification's `rowOf` names, and the entry is the entry of the gathered rows `Cert.Blocks.Rows`.
-/
import proofs.«207303_g8950711845028_cont_9to1c4b_501_30_alg».proof.Proof.Ideal.Chunks
import proofs.«207303_g8950711845028_cont_9to1c4b_501_30_alg».proof.Proof.Blocks
import Idealize.ShloMosaic.Lib.Writes

noncomputable section

namespace Cert.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S106496 EltTy.i32)
local notation "oV" => (Memref.whole Cert.KernelIdeal.main_v1_scv : Memref Cert.KernelIdeal.sig Kind.scVector Space.hbm Cert.KernelIdeal.S106496x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x208x128 EltTy.f32)

variable [FloatOps F]

/-! ## Reading after a whole-rectangle write -/

/-- A buffer read through a view after a list of writes whose last covers the view's whole shape reads that last
    write's payload, whatever came before. -/
theorem read_writes_whole_cons {sg : RefSig} {κ : Kind} {sp : Space} {s : Shape} {e : EltTy} {Val : EltTy → Type}
    (v : View sg κ sp s e) (f : v.ty.Contents Val) (p : s.Idx → Val e) (Ls : List (View.Piece Val s e)) (x : s.Idx) :
    v.read Val (v.writes Val f (⟨Rect.whole s, p⟩ :: Ls)) x = p x := by
  have h := View.read_writes_cons_emb v f (Rect.whole s) p Ls x
  rwa [Rect.emb_whole_apply] at h

/-! ## Where the task's views sit in their buffers -/

/-- The row-major position of an index of a rank-one shape is its coordinate, so the index at a position has that
    position as coordinate. -/
theorem rowMajor_symm_val_one {n : Nat} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- Entry `(a, b)` of chunk `r` of the task's block of the output is entry `(6656·j + 3328·c + 208·r + a, b)` of the
    output, `(c, j)` the task's core and subcore. -/
theorem oCh_emb_val0 (L : grid0.Coords) (r : Fin 16) (x : S208x128.Idx) :
    (((oCh L (BitVec.ofNat 32 (208 * r.val)) r rfl).view.emb x : S106496x128.Idx) 0).val
      = 6656 * (L 1).val + 3328 * (L 0).val + 208 * r.val + (x 0).val := by
  have h := congrFun (k0_off2_eq L r) 0
  show k0_off2 L (BitVec.ofNat 32 (208 * r.val)) 0 + 1 * (x 0).val = _
  rw [h]
  show 6656 * (L 1).val + 3328 * (L 0).val + 208 * r.val + 1 * (x 0).val = _
  omega

theorem oCh_emb_val1 (L : grid0.Coords) (r : Fin 16) (x : S208x128.Idx) :
    (((oCh L (BitVec.ofNat 32 (208 * r.val)) r rfl).view.emb x : S106496x128.Idx) 1).val = (x 1).val := by
  have h := congrFun (k0_off2_eq L r) 1
  show k0_off2 L (BitVec.ofNat 32 (208 * r.val)) 1 + 1 * (x 1).val = _
  rw [h]
  show 0 + 1 * (x 1).val = _
  omega

/-- Word `p` of the task's block of the flattened index array is word `6656·j + 3328·c + p` of the array. -/
theorem iBlk_emb_val (L : grid0.Coords) (p : S3328.Idx) :
    (((iBlk L).view.emb p : S106496.Idx) 0).val = 6656 * (L 1).val + 3328 * (L 0).val + (p 0).val := by
  have h := congrFun (k0_off1_eq L) 0
  show k0_off1 L 0 + 1 * (p 0).val = _
  rw [h]
  show 6656 * (L 1).val + 3328 * (L 0).val + 1 * (p 0).val = _
  omega

/-- Word `q` of the list at offset `o` of the index scratch is word `o + q` of the scratch. -/
theorem lst_emb_val (o : Nat) (ho : ∀ a, (![o] : Fin 1 → Nat) a + S208.size a ≤ S3328.size a) (q : S208.Idx) :
    (((lst o ho).view.emb q : S3328.Idx) 0).val = o + (q 0).val := by
  show o + 1 * (q 0).val = _
  omega

/-- The whole table, as the gathers name it, sits in its buffer entry for entry. -/
theorem tAll_emb (z : S100000x128.Idx) : ((tAll).view.emb z : S100000x128.Idx) = z := by
  funext a
  refine Fin.ext ?_
  match a with
  | ⟨0, _⟩ => show 0 + 1 * (z 0).val = (z 0).val; omega
  | ⟨1, _⟩ => show 0 + 1 * (z 1).val = (z 1).val; omega

/-- The word the gather reads for row `a` of chunk `r` — word `a` of the chunk's list in the index scratch, which holds the
    task's block of the flattened index array — is the flattened index array's word at the output row the chunk's row
    `a` is. -/
theorem word_idx (L : grid0.Coords) (r : Fin 16) (ho : ∀ a, (![208 * r.val] : Fin 1 → Nat) a + S208.size a ≤ S3328.size a)
    (q : S208.Idx) (x : S208x128.Idx) (hq : (q 0).val = (x 0).val) :
    ((iBlk L).view.emb ((lst (208 * r.val) ho).view.emb q) : S106496.Idx)
      = Idealize.ShloMosaic.ValueIdx.ix1 (n := 106496)
          (((oCh L (BitVec.ofNat 32 (208 * r.val)) r rfl).view.emb x : S106496x128.Idx) 0) := by
  funext b
  refine Fin.ext ?_
  match b with
  | ⟨0, _⟩ =>
    have e1 := iBlk_emb_val L ((lst (208 * r.val) ho).view.emb q)
    have e2 := lst_emb_val (208 * r.val) ho q
    have e4 := oCh_emb_val0 L r x
    show (((iBlk L).view.emb ((lst (208 * r.val) ho).view.emb q) : S106496.Idx) 0).val
      = (((oCh L (BitVec.ofNat 32 (208 * r.val)) r rfl).view.emb x : S106496x128.Idx) 0).val
    omega

/-- Chunk `r` of the task's block of the output, after the row buffer that received the chunk's gather has been copied
    out to it, holds the gathered rows `Cert.Blocks.Rows` of the flattened index array and the table, at every entry of
    the chunk. -/
theorem chunk_value (L : grid0.Coords) (d : Dev nD) (r : Fin 16) (w : BitVec 32) (hw : BitVec.ofNat 32 (208 * r.val) = w)
    (k : Nat) (hk : ∀ a, (![k, 0, 0] : Fin 3 → Nat) a + S1x208x128.size a ≤ S4x208x128.size a)
    (o : Nat) (ho : ∀ a, (![o] : Fin 1 → Nat) a + S208.size a ≤ S3328.size a) (hor : o = 208 * r.val)
    (fi : Buf (Elt F) (iLoc d)) (hfi : ∀ y, (fi y).toNat < 100000) (ft : Buf (Elt F) (tLoc d)) (fo : Buf (Elt F) (oLoc d))
    (fs : S3328.Idx → Elt F .i32) (fr : S4x208x128.Idx → Elt F .f32)
    (pay : S3328.Idx → Elt F .i32) (hpay : pay = ReadAs.same.apply ((iBlk L).view.read (Elt F) fi))
    (hn : S208.numel = S208x128.size gathers_S100000x128_S208x128.axis')
    (hin : ∀ x, ((lst o ho).view.read (Elt F) (View.write (Elt F) (sV).view fs pay Finset.univ) x).toNat < S100000x128.size gathers_S100000x128_S208x128.axis)
    (rest : List (View.Piece (Elt F) S208x128 .f32)) :
    ∀ y ∈ (oCh L w r hw).view.set,
      (oCh L w r hw).view.writes (Elt F) fo
        [⟨Rect.whole S208x128, ReadAs.same.apply ((slot k hk).view.read (Elt F)
          ((slot k hk).view.writes (Elt F) fr
            (⟨Rect.whole S208x128, SparseCore.gatherPayload gathers_S100000x128_S208x128 ((tAll).view.read (Elt F) ft)
              (SparseCore.rows ((lst o ho).view.read (Elt F) (View.write (Elt F) (sV).view fs pay Finset.univ)) hn hin)⟩ :: rest)))⟩] y
      = Cert.Blocks.Rows fi ft y := by
  subst hw hor hpay
  intro y hy
  obtain ⟨x, -, rfl⟩ := Finset.mem_map.mp hy
  have eO : ∀ (g : Buf (Elt F) (oLoc d)) (z : S208x128.Idx),
      (oCh L (BitVec.ofNat 32 (208 * r.val)) r rfl).view.read (Elt F) g z
        = g ((oCh L (BitVec.ofNat 32 (208 * r.val)) r rfl).view.emb z) :=
    fun g z => (View.read_apply _ _).trans (cast_eq _ _)
  have eT : ∀ (g : Buf (Elt F) (tLoc d)) (z : S100000x128.Idx), (tAll).view.read (Elt F) g z = g ((tAll).view.emb z) :=
    fun g z => (View.read_apply _ _).trans (cast_eq _ _)
  have eL : ∀ (g : S3328.Idx → Elt F .i32) (z : S208.Idx),
      (lst (208 * r.val) ho).view.read (Elt F) g z = g ((lst (208 * r.val) ho).view.emb z) :=
    fun g z => (View.read_apply _ _).trans (cast_eq _ _)
  have eI : ∀ z : S3328.Idx, (iBlk L).view.read (Elt F) fi z = fi ((iBlk L).view.emb z) :=
    fun z => (View.read_apply _ _).trans (cast_eq _ _)
  have eS : View.write (Elt F) (sV).view fs (ReadAs.same.apply ((iBlk L).view.read (Elt F) fi)) Finset.univ
      = (iBlk L).view.read (Elt F) fi := View.write_whole_univ _ _ _
  refine (eO _ x).symm.trans ?_
  rw [read_writes_whole_cons]
  show (slot k hk).view.read (Elt F) ((slot k hk).view.writes (Elt F) fr (⟨Rect.whole S208x128, _⟩ :: rest)) x = _
  rw [read_writes_whole_cons]
  show (tAll).view.read (Elt F) ft (gathers_S100000x128_S208x128.idx _ x) = _
  rw [eT, tAll_emb]
  refine congrArg ft (?_ : (gathers_S100000x128_S208x128.idx _ x : S100000x128.Idx)
    = Idealize.ShloMosaic.ValueIdx.ix2 (n0 := 100000) (n1 := 128) _ _)
  funext a
  refine Fin.ext ?_
  match a with
  | ⟨0, _⟩ =>
    refine (congrArg Fin.val (Shape.Gathers.idx_axis gathers_S100000x128_S208x128 _ x)).trans ?_
    refine Eq.trans ?_ (Cert.Spec.rowOf_val_of_lt (hfi _)).symm
    show (View.read (Elt F) (lst (208 * r.val) ho).view _ _).toNat = _
    rw [eL, eS, eI]
    exact congrArg (fun t => (fi t).toNat)
      (word_idx L r ho _ x (rowMajor_symm_val_one (n := 208) (Fin.cast hn.symm (x gathers_S100000x128_S208x128.axis'))))
  | ⟨1, _⟩ =>
    refine (Shape.Gathers.idx_of_ne gathers_S100000x128_S208x128 _ x ⟨1, by decide⟩ (by decide)).trans ?_
    exact (oCh_emb_val1 L r x).symm

end Cert.KI
end
-- ==== Proof.Ideal.Task.lean ====
/-
  One task, run once at a symbolic (SparseCore, vector subcore) pair. The task's block of index words lands in its index
  scratch; the scratch is then read as sixteen lists, each naming 208 rows of the table, all in range because every index
  word is. Up to three gathers are in flight at a time, each on its own semaphore into its own row buffer, each reading the
  table through its own read token; a row buffer is overwritten only after the copy out of it has been waited for. At the
  end every chunk of the task's block of the output holds the gathered rows (`chunk_value`), and the scratch buffers, the
  semaphores and the read shares are given back.
-/
import proofs.«207303_g8950711845028_cont_9to1c4b_501_30_alg».proof.Proof.Ideal.Arrays
import proofs.«207303_g8950711845028_cont_9to1c4b_501_30_alg».proof.Proof.Ideal.ChunkValue

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S106496 EltTy.i32)
local notation "oV" => (Memref.whole Cert.KernelIdeal.main_v1_scv : Memref Cert.KernelIdeal.sig Kind.scVector Space.hbm Cert.KernelIdeal.S106496x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x208x128 EltTy.f32)

variable (m : (ℓ : Loc nD τ sig) → Buf (Elt F) ℓ)
variable [FloatOps F]

/-! ## The row scratch, cut into its four buffers -/

theorem slot_inb (k : Fin 4) : ∀ a, (![k.val, 0, 0] : Fin 3 → Nat) a + S1x208x128.size a ≤ S4x208x128.size a := by
  intro a; have := k.isLt
  match a with
  | ⟨0, _⟩ => show k.val + 1 ≤ 4; omega
  | ⟨1, _⟩ => show 0 + 208 ≤ 208; omega
  | ⟨2, _⟩ => show 0 + 128 ≤ 128; omega
abbrev slotN (k : Fin 4) : Memref sig .scVector .vmem S208x128 .f32 := slot k.val (slot_inb k)
abbrev slotSet (k : Fin 4) : Finset S4x208x128.Idx := (slotN k).view.set
theorem slotN_set (k : Fin 4) : slotSet k = (Rect.unit (s := S4x208x128) ![k.val, 0, 0] S1x208x128.size (slot_inb k)).set := by
  show (((View.whole cc0_scratch1).slice (Rect.unit (s := S4x208x128) ![k.val, 0, 0] S1x208x128.size (slot_inb k))).reshape S208x128 _).set = _
  rw [View.set_reshape, View.set_slice_whole]
theorem slot_disjoint : ∀ k ∈ (Finset.univ : Finset (Fin 4)), ∀ k' ∈ (Finset.univ : Finset (Fin 4)), k ≠ k' →
    Disjoint (slotSet k) (slotSet k') := by
  intro k _ k' _ h
  rw [slotN_set, slotN_set]
  refine Rect.unit_disjoint 0 ?_
  have : k.val ≠ k'.val := Fin.val_ne_of_ne h
  show k.val + 1 ≤ k'.val ∨ k'.val + 1 ≤ k.val
  omega
theorem slot_cover : (Finset.univ : Finset (Fin 4)).biUnion slotSet = Finset.univ := by
  ext i
  simp only [Finset.mem_biUnion, Finset.mem_univ, true_and, iff_true]
  have h0 : (i 0).val < 4 := (i 0).isLt
  have h1 : (i 1).val < 208 := (i 1).isLt
  have h2 : (i 2).val < 128 := (i 2).isLt
  refine ⟨⟨(i 0).val, h0⟩, ?_⟩
  rw [slotN_set, Rect.mem_set_unit]
  intro a
  match a with
  | ⟨0, _⟩ => show (i 0).val ≤ (i 0).val ∧ (i 0).val < (i 0).val + 1; omega
  | ⟨1, _⟩ => show 0 ≤ (i 1).val ∧ (i 1).val < 0 + 208; omega
  | ⟨2, _⟩ => show 0 ≤ (i 2).val ∧ (i 2).val < 0 + 128; omega

section Tile
variable (d : Dev nD) (L : grid0.Coords)

omit [FloatOps F] in
/-- The index scratch whole is its sixteen lists. -/
theorem pts_lists (f : Buf (Elt F) ((V d (cV L) (jV L)).loc cc0_scratch0)) :
    ((sV).view.loc (V d (cV L) (jV L)) ↦{fullShare} f : sProp 𝕄)
      = iprop(((sV).view.loc (V d (cV L) (jV L)) ↦[lstSet 0]{fullShare} f)
        ∗ ((sV).view.loc (V d (cV L) (jV L)) ↦[lstSet 1]{fullShare} f)
        ∗ ((sV).view.loc (V d (cV L) (jV L)) ↦[lstSet 2]{fullShare} f)
        ∗ ((sV).view.loc (V d (cV L) (jV L)) ↦[lstSet 3]{fullShare} f)
        ∗ ((sV).view.loc (V d (cV L) (jV L)) ↦[lstSet 4]{fullShare} f)
        ∗ ((sV).view.loc (V d (cV L) (jV L)) ↦[lstSet 5]{fullShare} f)
        ∗ ((sV).view.loc (V d (cV L) (jV L)) ↦[lstSet 6]{fullShare} f)
        ∗ ((sV).view.loc (V d (cV L) (jV L)) ↦[lstSet 7]{fullShare} f)
        ∗ ((sV).view.loc (V d (cV L) (jV L)) ↦[lstSet 8]{fullShare} f)
        ∗ ((sV).view.loc (V d (cV L) (jV L)) ↦[lstSet 9]{fullShare} f)
        ∗ ((sV).view.loc (V d (cV L) (jV L)) ↦[lstSet 10]{fullShare} f)
        ∗ ((sV).view.loc (V d (cV L) (jV L)) ↦[lstSet 11]{fullShare} f)
        ∗ ((sV).view.loc (V d (cV L) (jV L)) ↦[lstSet 12]{fullShare} f)
        ∗ ((sV).view.loc (V d (cV L) (jV L)) ↦[lstSet 13]{fullShare} f)
        ∗ ((sV).view.loc (V d (cV L) (jV L)) ↦[lstSet 14]{fullShare} f)
        ∗ ((sV).view.loc (V d (cV L) (jV L)) ↦[lstSet 15]{fullShare} f)) := by
  rw [← bigSep_fin16 (fun j => ((sV).view.loc (V d (cV L) (jV L)) ↦[lstSet j]{fullShare} f : sProp 𝕄)),
    ← pointsTo_biUnion (ℓ := (sV).view.loc (V d (cV L) (jV L))) (q := fullShare) (f := f) Finset.univ lstSet lst_disjoint, lst_cover]

omit [FloatOps F] in
/-- The row scratch whole is its four buffers; -/
theorem pts_slots (f : Buf (Elt F) ((V d (cV L) (jV L)).loc cc0_scratch1)) :
    ((rV).view.loc (V d (cV L) (jV L)) ↦{fullShare} f : sProp 𝕄)
      = iprop(((rV).view.loc (V d (cV L) (jV L)) ↦[slotSet 0]{fullShare} f) ∗ ((rV).view.loc (V d (cV L) (jV L)) ↦[slotSet 1]{fullShare} f) ∗ ((rV).view.loc (V d (cV L) (jV L)) ↦[slotSet 2]{fullShare} f) ∗ ((rV).view.loc (V d (cV L) (jV L)) ↦[slotSet 3]{fullShare} f)) := by
  rw [← bigSep_fin4 (fun k => ((rV).view.loc (V d (cV L) (jV L)) ↦[slotSet k]{fullShare} f : sProp 𝕄)),
    ← pointsTo_biUnion (ℓ := (rV).view.loc (V d (cV L) (jV L))) (q := fullShare) (f := f) Finset.univ slotSet slot_disjoint, slot_cover]

omit [FloatOps F] in
/-- and the four buffers, whatever each holds, are the row scratch whole at some contents. -/
theorem slots_join (f0 f1 f2 f3 : Buf (Elt F) ((V d (cV L) (jV L)).loc cc0_scratch1)) :
    iprop(((rV).view.loc (V d (cV L) (jV L)) ↦[slotSet 0]{fullShare} f0) ∗ ((rV).view.loc (V d (cV L) (jV L)) ↦[slotSet 1]{fullShare} f1) ∗ ((rV).view.loc (V d (cV L) (jV L)) ↦[slotSet 2]{fullShare} f2) ∗ ((rV).view.loc (V d (cV L) (jV L)) ↦[slotSet 3]{fullShare} f3))
      ⊢ (iprop(∃ g, (rV).view.loc (V d (cV L) (jV L)) ↦{fullShare} g) : sProp 𝕄) := by
  have e := bigSep_fin4 (F := F) (fun k : Fin 4 => ((rV).view.loc (V d (cV L) (jV L)) ↦[slotSet k]{fullShare}
    (match k with | 0 => f0 | 1 => f1 | 2 => f2 | 3 => f3) : sProp 𝕄))
  refine (Entails.of_eq e.symm).trans ?_
  iintro H
  ihave H' := (pointsTo_biUnion_join (ℓ := (rV).view.loc (V d (cV L) (jV L))) (q := fullShare) (Val := Elt F) Finset.univ slotSet
    (fun k : Fin 4 => match k with | 0 => f0 | 1 => f1 | 2 => f2 | 3 => f3) f0 slot_disjoint) $$ H
  icases H' with ⟨%g, -, Hg⟩
  rw [slot_cover]
  iexists g; iexact Hg

/-! ## The task's semaphores and scratch, out of what the launch deals it -/

abbrev cell (s : DmaSem sig) : GSem nD τ sig := ((V d (cV L) (jV L)), .dma s)
omit [FloatOps F] in
theorem cell_ne {s s' : DmaSem sig} (h : s ≠ s') : cell d L s ≠ cell d L s' := fun e => h (by injection e with _ e2; injection e2)
omit [FloatOps F] in
theorem cell_mem (s : DmaSem sig) : cell d L s ∈ ownCells (V d (cV L) (jV L)) :=
  (mem_ownCells (g := cell d L s)).mpr ⟨rfl, by show (SemLoc.dma s : SemLoc sig).isScoped .scVector = true; revert s; decide⟩

omit [FloatOps F] in
/-- The nine DMA semaphores the kernel names are among the task's own, at zero; the rest stay aside. -/
theorem ownSems0_V :
    (ownSems0 (V d (cV L) (jV L)) : sProp 𝕄)
      = iprop(semVal (cell d L cc0_scratch2.sem) 0
          ∗ semVal (cell d L cc0_scratch3.sem) 0
          ∗ semVal (cell d L cc0_scratch4.sem) 0
          ∗ semVal (cell d L cc0_scratch5.sem) 0
          ∗ semVal (cell d L cc0_scratch6.sem) 0
          ∗ semVal (cell d L cc0_scratch7.sem) 0
          ∗ semVal (cell d L cc0_scratch8.sem) 0
          ∗ semVal (cell d L cc0_scratch9.sem) 0
          ∗ semVal (cell d L cc0_scoped0.sem) 0
          ∗ bigSep ((((((((((ownCells (V d (cV L) (jV L))).erase (cell d L cc0_scratch2.sem)).erase (cell d L cc0_scratch3.sem)).erase (cell d L cc0_scratch4.sem)).erase (cell d L cc0_scratch5.sem)).erase (cell d L cc0_scratch6.sem)).erase (cell d L cc0_scratch7.sem)).erase (cell d L cc0_scratch8.sem)).erase (cell d L cc0_scratch9.sem)).erase (cell d L cc0_scoped0.sem)) fun g => semVal g 0) := by
  unfold SparseCore.Cfg.ownSems0
  rw [SparseCore.bigSep_erase' (cell_mem d L cc0_scratch2.sem),
    SparseCore.bigSep_erase' (Finset.mem_erase.mpr ⟨cell_ne d L (show cc0_scratch3.sem ≠ cc0_scratch2.sem by decide), (cell_mem d L cc0_scratch3.sem)⟩),
    SparseCore.bigSep_erase' (Finset.mem_erase.mpr ⟨cell_ne d L (show cc0_scratch4.sem ≠ cc0_scratch3.sem by decide), (Finset.mem_erase.mpr ⟨cell_ne d L (show cc0_scratch4.sem ≠ cc0_scratch2.sem by decide), (cell_mem d L cc0_scratch4.sem)⟩)⟩),
    SparseCore.bigSep_erase' (Finset.mem_erase.mpr ⟨cell_ne d L (show cc0_scratch5.sem ≠ cc0_scratch4.sem by decide), (Finset.mem_erase.mpr ⟨cell_ne d L (show cc0_scratch5.sem ≠ cc0_scratch3.sem by decide), (Finset.mem_erase.mpr ⟨cell_ne d L (show cc0_scratch5.sem ≠ cc0_scratch2.sem by decide), (cell_mem d L cc0_scratch5.sem)⟩)⟩)⟩),
    SparseCore.bigSep_erase' (Finset.mem_erase.mpr ⟨cell_ne d L (show cc0_scratch6.sem ≠ cc0_scratch5.sem by decide), (Finset.mem_erase.mpr ⟨cell_ne d L (show cc0_scratch6.sem ≠ cc0_scratch4.sem by decide), (Finset.mem_erase.mpr ⟨cell_ne d L (show cc0_scratch6.sem ≠ cc0_scratch3.sem by decide), (Finset.mem_erase.mpr ⟨cell_ne d L (show cc0_scratch6.sem ≠ cc0_scratch2.sem by decide), (cell_mem d L cc0_scratch6.sem)⟩)⟩)⟩)⟩),
    SparseCore.bigSep_erase' (Finset.mem_erase.mpr ⟨cell_ne d L (show cc0_scratch7.sem ≠ cc0_scratch6.sem by decide), (Finset.mem_erase.mpr ⟨cell_ne d L (show cc0_scratch7.sem ≠ cc0_scratch5.sem by decide), (Finset.mem_erase.mpr ⟨cell_ne d L (show cc0_scratch7.sem ≠ cc0_scratch4.sem by decide), (Finset.mem_erase.mpr ⟨cell_ne d L (show cc0_scratch7.sem ≠ cc0_scratch3.sem by decide), (Finset.mem_erase.mpr ⟨cell_ne d L (show cc0_scratch7.sem ≠ cc0_scratch2.sem by decide), (cell_mem d L cc0_scratch7.sem)⟩)⟩)⟩)⟩)⟩),
    SparseCore.bigSep_erase' (Finset.mem_erase.mpr ⟨cell_ne d L (show cc0_scratch8.sem ≠ cc0_scratch7.sem by decide), (Finset.mem_erase.mpr ⟨cell_ne d L (show cc0_scratch8.sem ≠ cc0_scratch6.sem by decide), (Finset.mem_erase.mpr ⟨cell_ne d L (show cc0_scratch8.sem ≠ cc0_scratch5.sem by decide), (Finset.mem_erase.mpr ⟨cell_ne d L (show cc0_scratch8.sem ≠ cc0_scratch4.sem by decide), (Finset.mem_erase.mpr ⟨cell_ne d L (show cc0_scratch8.sem ≠ cc0_scratch3.sem by decide), (Finset.mem_erase.mpr ⟨cell_ne d L (show cc0_scratch8.sem ≠ cc0_scratch2.sem by decide), (cell_mem d L cc0_scratch8.sem)⟩)⟩)⟩)⟩)⟩)⟩),
    SparseCore.bigSep_erase' (Finset.mem_erase.mpr ⟨cell_ne d L (show cc0_scratch9.sem ≠ cc0_scratch8.sem by decide), (Finset.mem_erase.mpr ⟨cell_ne d L (show cc0_scratch9.sem ≠ cc0_scratch7.sem by decide), (Finset.mem_erase.mpr ⟨cell_ne d L (show cc0_scratch9.sem ≠ cc0_scratch6.sem by decide), (Finset.mem_erase.mpr ⟨cell_ne d L (show cc0_scratch9.sem ≠ cc0_scratch5.sem by decide), (Finset.mem_erase.mpr ⟨cell_ne d L (show cc0_scratch9.sem ≠ cc0_scratch4.sem by decide), (Finset.mem_erase.mpr ⟨cell_ne d L (show cc0_scratch9.sem ≠ cc0_scratch3.sem by decide), (Finset.mem_erase.mpr ⟨cell_ne d L (show cc0_scratch9.sem ≠ cc0_scratch2.sem by decide), (cell_mem d L cc0_scratch9.sem)⟩)⟩)⟩)⟩)⟩)⟩)⟩),
    SparseCore.bigSep_erase' (Finset.mem_erase.mpr ⟨cell_ne d L (show cc0_scoped0.sem ≠ cc0_scratch9.sem by decide), (Finset.mem_erase.mpr ⟨cell_ne d L (show cc0_scoped0.sem ≠ cc0_scratch8.sem by decide), (Finset.mem_erase.mpr ⟨cell_ne d L (show cc0_scoped0.sem ≠ cc0_scratch7.sem by decide), (Finset.mem_erase.mpr ⟨cell_ne d L (show cc0_scoped0.sem ≠ cc0_scratch6.sem by decide), (Finset.mem_erase.mpr ⟨cell_ne d L (show cc0_scoped0.sem ≠ cc0_scratch5.sem by decide), (Finset.mem_erase.mpr ⟨cell_ne d L (show cc0_scoped0.sem ≠ cc0_scratch4.sem by decide), (Finset.mem_erase.mpr ⟨cell_ne d L (show cc0_scoped0.sem ≠ cc0_scratch3.sem by decide), (Finset.mem_erase.mpr ⟨cell_ne d L (show cc0_scoped0.sem ≠ cc0_scratch2.sem by decide), (cell_mem d L cc0_scoped0.sem)⟩)⟩)⟩)⟩)⟩)⟩)⟩)⟩)]

omit [FloatOps F] in
/-- The two scratch buffers are among the task's own, at some contents; the rest stay aside. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- A chunk of the output as the task addresses it is that chunk of the TensorCore's array. -/
theorem pts_oCh (w : BitVec 32) (r : Fin 16) (hw : BitVec.ofNat 32 (208 * r.val) = w) (f : Buf (Elt F) (oLoc d)) :
    ((oCh L w r hw).view.loc (V d (cV L) (jV L)) ↦[(oCh L w r hw).view.set]{fullShare} f : sProp 𝕄)
      = oLoc d ↦[Cert.Blocks.chunkSet (cL L, iL L, r)]{fullShare} f := by
  rw [set_oCh]

/-- A chunk of the output holding, element by element, the gathered rows is that chunk of the TensorCore's array at the
    gathered rows. -/
theorem chunk_to (w : BitVec 32) (r : Fin 16) (hw : BitVec.ofNat 32 (208 * r.val) = w) (p : S208x128.Idx → Elt F .f32)
    (h : ∀ y ∈ (oCh L w r hw).view.set, (oCh L w r hw).view.writes (Elt F) (m (oLoc d)) [⟨Rect.whole S208x128, p⟩] y = Go m d y) :
    ((oCh L w r hw).view.loc (V d (cV L) (jV L)) ↦[(oCh L w r hw).view.set]{fullShare}
        (oCh L w r hw).view.writes (Elt F) (m (oLoc d)) [⟨Rect.whole S208x128, p⟩] : sProp 𝕄)
      ⊢ oLoc d ↦[Cert.Blocks.chunkSet (cL L, iL L, r)]{fullShare} Go m d :=
  Entails.of_eq ((pointsTo_congr h).trans (pts_oCh (F := F) d L w r hw _))

set_option maxHeartbeats 8000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ taskRes m d (cL L) (iL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) iV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0)
          fun _ => iprop(taskRes m d (cL L) (iL L) (Go m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  unfold taskRes
  rw [bigSep_fin16, bigSep_fin16]
  iintro ⟨#Hlv, -, ⟨Hi, Ht, Ho0, Ho1, Ho2, Ho3, Ho4, Ho5, Ho6, Ho7, Ho8, Ho9, Ho10, Ho11, Ho12, Ho13, Ho14, Ho15⟩, ⟨⟨%fs, Hs⟩, ⟨%fr, Hr⟩, Hbufs⟩, ⟨Hg0, Hg1, Hg2, Hg3, Hw0, Hw1, Hw2, Hw3, Hsc, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  -- the arrays and the scratch as the task's memrefs address them
  ihave Hi := (Entails.of_eq (show (iLoc d ↦{qT (cL L) (iL L)} Fi m d : sProp 𝕄) = ((iV).view.loc (V d (cV L) (jV L)) ↦{qT (cL L) (iL L)} Fi m d) from rfl)) $$ Hi
  ihave Ht := (Entails.of_eq (show (tLoc d ↦{qT (cL L) (iL L)} m (tLoc d) : sProp 𝕄) = ((tV).view.loc (V d (cV L) (jV L)) ↦{qT (cL L) (iL L)} m (tLoc d)) from rfl)) $$ Ht
  ihave Ho0 := (Entails.of_eq (pts_oCh (F := F) d L 0#32 0 rfl (m (oLoc d))).symm) $$ Ho0
  ihave Ho1 := (Entails.of_eq (pts_oCh (F := F) d L 208#32 1 rfl (m (oLoc d))).symm) $$ Ho1
  ihave Ho2 := (Entails.of_eq (pts_oCh (F := F) d L 416#32 2 rfl (m (oLoc d))).symm) $$ Ho2
  ihave Ho3 := (Entails.of_eq (pts_oCh (F := F) d L 624#32 3 rfl (m (oLoc d))).symm) $$ Ho3
  ihave Ho4 := (Entails.of_eq (pts_oCh (F := F) d L 832#32 4 rfl (m (oLoc d))).symm) $$ Ho4
  ihave Ho5 := (Entails.of_eq (pts_oCh (F := F) d L 1040#32 5 rfl (m (oLoc d))).symm) $$ Ho5
  ihave Ho6 := (Entails.of_eq (pts_oCh (F := F) d L 1248#32 6 rfl (m (oLoc d))).symm) $$ Ho6
  ihave Ho7 := (Entails.of_eq (pts_oCh (F := F) d L 1456#32 7 rfl (m (oLoc d))).symm) $$ Ho7
  ihave Ho8 := (Entails.of_eq (pts_oCh (F := F) d L 1664#32 8 rfl (m (oLoc d))).symm) $$ Ho8
  ihave Ho9 := (Entails.of_eq (pts_oCh (F := F) d L 1872#32 9 rfl (m (oLoc d))).symm) $$ Ho9
  ihave Ho10 := (Entails.of_eq (pts_oCh (F := F) d L 2080#32 10 rfl (m (oLoc d))).symm) $$ Ho10
  ihave Ho11 := (Entails.of_eq (pts_oCh (F := F) d L 2288#32 11 rfl (m (oLoc d))).symm) $$ Ho11
  ihave Ho12 := (Entails.of_eq (pts_oCh (F := F) d L 2496#32 12 rfl (m (oLoc d))).symm) $$ Ho12
  ihave Ho13 := (Entails.of_eq (pts_oCh (F := F) d L 2704#32 13 rfl (m (oLoc d))).symm) $$ Ho13
  ihave Ho14 := (Entails.of_eq (pts_oCh (F := F) d L 2912#32 14 rfl (m (oLoc d))).symm) $$ Ho14
  ihave Ho15 := (Entails.of_eq (pts_oCh (F := F) d L 3120#32 15 rfl (m (oLoc d))).symm) $$ Ho15
  ihave Hs := (Entails.of_eq (show ((V d (cV L) (jV L)).loc cc0_scratch0 ↦{fullShare} fs : sProp 𝕄) = ((sV).view.loc (V d (cV L) (jV L)) ↦{fullShare} fs) from rfl)) $$ Hs
  ihave Hr := (Entails.of_eq (pts_slots (F := F) d L fr)) $$ Hr
  icases Hr with ⟨Hr0, Hr1, Hr2, Hr3⟩
  ihave Hr0 := (Entails.of_eq (show ((rV).view.loc (V d (cV L) (jV L)) ↦[slotSet 0]{fullShare} fr : sProp 𝕄) = ((slot 0 inb_S4x208x128_S1x208x128_0_0_0).view.loc (V d (cV L) (jV L)) ↦[(slot 0 inb_S4x208x128_S1x208x128_0_0_0).view.set]{fullShare} fr) from rfl)) $$ Hr0
  ihave Hr1 := (Entails.of_eq (show ((rV).view.loc (V d (cV L) (jV L)) ↦[slotSet 1]{fullShare} fr : sProp 𝕄) = ((slot 1 inb_S4x208x128_S1x208x128_1_0_0).view.loc (V d (cV L) (jV L)) ↦[(slot 1 inb_S4x208x128_S1x208x128_1_0_0).view.set]{fullShare} fr) from rfl)) $$ Hr1
  ihave Hr2 := (Entails.of_eq (show ((rV).view.loc (V d (cV L) (jV L)) ↦[slotSet 2]{fullShare} fr : sProp 𝕄) = ((slot 2 inb_S4x208x128_S1x208x128_2_0_0).view.loc (V d (cV L) (jV L)) ↦[(slot 2 inb_S4x208x128_S1x208x128_2_0_0).view.set]{fullShare} fr) from rfl)) $$ Hr2
  ihave Hr3 := (Entails.of_eq (show ((rV).view.loc (V d (cV L) (jV L)) ↦[slotSet 3]{fullShare} fr : sProp 𝕄) = ((slot 3 inb_S4x208x128_S1x208x128_3_0_0).view.loc (V d (cV L) (jV L)) ↦[(slot 3 inb_S4x208x128_S1x208x128_3_0_0).view.set]{fullShare} fr) from rfl)) $$ Hr3
  -- the task's block of index words into the index scratch
  sl_exec
  -- the scratch as the sixteen lists, every word in range
  have hin := lst_words_lt (F := F) L (hpre d) fs _ rfl
  ihave Hs := (Entails.of_eq (pts_lists (F := F) d L _)) $$ Hs
  icases Hs with ⟨Hl0, Hl1, Hl2, Hl3, Hl4, Hl5, Hl6, Hl7, Hl8, Hl9, Hl10, Hl11, Hl12, Hl13, Hl14, Hl15⟩
  ihave Hl0 := (Entails.of_eq (show ((sV).view.loc (V d (cV L) (jV L)) ↦[lstSet 0]{fullShare} _ : sProp 𝕄) = ((lst 0 inb_S3328_S208_0).view.loc (V d (cV L) (jV L)) ↦[(lst 0 inb_S3328_S208_0).view.set]{fullShare} _) from rfl)) $$ Hl0
  ihave Hl1 := (Entails.of_eq (show ((sV).view.loc (V d (cV L) (jV L)) ↦[lstSet 1]{fullShare} _ : sProp 𝕄) = ((lst 208 inb_S3328_S208_208).view.loc (V d (cV L) (jV L)) ↦[(lst 208 inb_S3328_S208_208).view.set]{fullShare} _) from rfl)) $$ Hl1
  ihave Hl2 := (Entails.of_eq (show ((sV).view.loc (V d (cV L) (jV L)) ↦[lstSet 2]{fullShare} _ : sProp 𝕄) = ((lst 416 inb_S3328_S208_416).view.loc (V d (cV L) (jV L)) ↦[(lst 416 inb_S3328_S208_416).view.set]{fullShare} _) from rfl)) $$ Hl2
  ihave Hl3 := (Entails.of_eq (show ((sV).view.loc (V d (cV L) (jV L)) ↦[lstSet 3]{fullShare} _ : sProp 𝕄) = ((lst 624 inb_S3328_S208_624).view.loc (V d (cV L) (jV L)) ↦[(lst 624 inb_S3328_S208_624).view.set]{fullShare} _) from rfl)) $$ Hl3
  ihave Hl4 := (Entails.of_eq (show ((sV).view.loc (V d (cV L) (jV L)) ↦[lstSet 4]{fullShare} _ : sProp 𝕄) = ((lst 832 inb_S3328_S208_832).view.loc (V d (cV L) (jV L)) ↦[(lst 832 inb_S3328_S208_832).view.set]{fullShare} _) from rfl)) $$ Hl4
  ihave Hl5 := (Entails.of_eq (show ((sV).view.loc (V d (cV L) (jV L)) ↦[lstSet 5]{fullShare} _ : sProp 𝕄) = ((lst 1040 inb_S3328_S208_1040).view.loc (V d (cV L) (jV L)) ↦[(lst 1040 inb_S3328_S208_1040).view.set]{fullShare} _) from rfl)) $$ Hl5
  ihave Hl6 := (Entails.of_eq (show ((sV).view.loc (V d (cV L) (jV L)) ↦[lstSet 6]{fullShare} _ : sProp 𝕄) = ((lst 1248 inb_S3328_S208_1248).view.loc (V d (cV L) (jV L)) ↦[(lst 1248 inb_S3328_S208_1248).view.set]{fullShare} _) from rfl)) $$ Hl6
  ihave Hl7 := (Entails.of_eq (show ((sV).view.loc (V d (cV L) (jV L)) ↦[lstSet 7]{fullShare} _ : sProp 𝕄) = ((lst 1456 inb_S3328_S208_1456).view.loc (V d (cV L) (jV L)) ↦[(lst 1456 inb_S3328_S208_1456).view.set]{fullShare} _) from rfl)) $$ Hl7
  ihave Hl8 := (Entails.of_eq (show ((sV).view.loc (V d (cV L) (jV L)) ↦[lstSet 8]{fullShare} _ : sProp 𝕄) = ((lst 1664 inb_S3328_S208_1664).view.loc (V d (cV L) (jV L)) ↦[(lst 1664 inb_S3328_S208_1664).view.set]{fullShare} _) from rfl)) $$ Hl8
  ihave Hl9 := (Entails.of_eq (show ((sV).view.loc (V d (cV L) (jV L)) ↦[lstSet 9]{fullShare} _ : sProp 𝕄) = ((lst 1872 inb_S3328_S208_1872).view.loc (V d (cV L) (jV L)) ↦[(lst 1872 inb_S3328_S208_1872).view.set]{fullShare} _) from rfl)) $$ Hl9
  ihave Hl10 := (Entails.of_eq (show ((sV).view.loc (V d (cV L) (jV L)) ↦[lstSet 10]{fullShare} _ : sProp 𝕄) = ((lst 2080 inb_S3328_S208_2080).view.loc (V d (cV L) (jV L)) ↦[(lst 2080 inb_S3328_S208_2080).view.set]{fullShare} _) from rfl)) $$ Hl10
  ihave Hl11 := (Entails.of_eq (show ((sV).view.loc (V d (cV L) (jV L)) ↦[lstSet 11]{fullShare} _ : sProp 𝕄) = ((lst 2288 inb_S3328_S208_2288).view.loc (V d (cV L) (jV L)) ↦[(lst 2288 inb_S3328_S208_2288).view.set]{fullShare} _) from rfl)) $$ Hl11
  ihave Hl12 := (Entails.of_eq (show ((sV).view.loc (V d (cV L) (jV L)) ↦[lstSet 12]{fullShare} _ : sProp 𝕄) = ((lst 2496 inb_S3328_S208_2496).view.loc (V d (cV L) (jV L)) ↦[(lst 2496 inb_S3328_S208_2496).view.set]{fullShare} _) from rfl)) $$ Hl12
  ihave Hl13 := (Entails.of_eq (show ((sV).view.loc (V d (cV L) (jV L)) ↦[lstSet 13]{fullShare} _ : sProp 𝕄) = ((lst 2704 inb_S3328_S208_2704).view.loc (V d (cV L) (jV L)) ↦[(lst 2704 inb_S3328_S208_2704).view.set]{fullShare} _) from rfl)) $$ Hl13
  ihave Hl14 := (Entails.of_eq (show ((sV).view.loc (V d (cV L) (jV L)) ↦[lstSet 14]{fullShare} _ : sProp 𝕄) = ((lst 2912 inb_S3328_S208_2912).view.loc (V d (cV L) (jV L)) ↦[(lst 2912 inb_S3328_S208_2912).view.set]{fullShare} _) from rfl)) $$ Hl14
  ihave Hl15 := (Entails.of_eq (show ((sV).view.loc (V d (cV L) (jV L)) ↦[lstSet 15]{fullShare} _ : sProp 𝕄) = ((lst 3120 inb_S3328_S208_3120).view.loc (V d (cV L) (jV L)) ↦[(lst 3120 inb_S3328_S208_3120).view.set]{fullShare} _) from rfl)) $$ Hl15
  -- the table as one read token per gather semaphore
  ihave Ht := ((Transfers.pointsTo_toks_split (Ix := HIx 1) (Name := ℕ) (U := UU) (Lvl := ℕ) (qT (cL L) (iL L)) 4).trans (Entails.of_eq (by rw [bigSep_fin4]))) $$ Ht
  icases Ht with ⟨Htr, Ht0, Ht1, Ht2, Ht3⟩
  -- the sixteen gathers, copies out and their waits
  sl_exec
  sl_step
  -- what each chunk of the output now holds
  ihave Ho0 := (chunk_to (F := F) m d L 0#32 0 rfl (tile_body.sl.dma0_1 m d L fs fr hin)
    (chunk_value (F := F) L d 0 0#32 rfl 0 inb_S4x208x128_S1x208x128_0_0_0 0 inb_S3328_S208_0 rfl (Fi m d) (hpre d) (m (tLoc d)) (m (oLoc d)) fs fr _ rfl _ (hin 0 inb_S3328_S208_0) _)) $$ Ho0
  ihave Ho1 := (chunk_to (F := F) m d L 208#32 1 rfl (tile_body.sl.dma0_2 m d L fs fr hin)
    (chunk_value (F := F) L d 1 208#32 rfl 1 inb_S4x208x128_S1x208x128_1_0_0 208 inb_S3328_S208_208 rfl (Fi m d) (hpre d) (m (tLoc d)) (m (oLoc d)) fs fr _ rfl _ (hin 208 inb_S3328_S208_208) _)) $$ Ho1
  ihave Ho2 := (chunk_to (F := F) m d L 416#32 2 rfl (tile_body.sl.dma0_3 m d L fs fr hin)
    (chunk_value (F := F) L d 2 416#32 rfl 2 inb_S4x208x128_S1x208x128_2_0_0 416 inb_S3328_S208_416 rfl (Fi m d) (hpre d) (m (tLoc d)) (m (oLoc d)) fs fr _ rfl _ (hin 416 inb_S3328_S208_416) _)) $$ Ho2
  ihave Ho3 := (chunk_to (F := F) m d L 624#32 3 rfl (tile_body.sl.dma0_4 m d L fs fr hin)
    (chunk_value (F := F) L d 3 624#32 rfl 3 inb_S4x208x128_S1x208x128_3_0_0 624 inb_S3328_S208_624 rfl (Fi m d) (hpre d) (m (tLoc d)) (m (oLoc d)) fs fr _ rfl _ (hin 624 inb_S3328_S208_624) _)) $$ Ho3
  ihave Ho4 := (chunk_to (F := F) m d L 832#32 4 rfl (tile_body.sl.dma0_5 m d L fs fr hin)
    (chunk_value (F := F) L d 4 832#32 rfl 0 inb_S4x208x128_S1x208x128_0_0_0 832 inb_S3328_S208_832 rfl (Fi m d) (hpre d) (m (tLoc d)) (m (oLoc d)) fs fr _ rfl _ (hin 832 inb_S3328_S208_832) _)) $$ Ho4
  ihave Ho5 := (chunk_to (F := F) m d L 1040#32 5 rfl (tile_body.sl.dma0_6 m d L fs fr hin)
    (chunk_value (F := F) L d 5 1040#32 rfl 1 inb_S4x208x128_S1x208x128_1_0_0 1040 inb_S3328_S208_1040 rfl (Fi m d) (hpre d) (m (tLoc d)) (m (oLoc d)) fs fr _ rfl _ (hin 1040 inb_S3328_S208_1040) _)) $$ Ho5
  ihave Ho6 := (chunk_to (F := F) m d L 1248#32 6 rfl (tile_body.sl.dma0_7 m d L fs fr hin)
    (chunk_value (F := F) L d 6 1248#32 rfl 2 inb_S4x208x128_S1x208x128_2_0_0 1248 inb_S3328_S208_1248 rfl (Fi m d) (hpre d) (m (tLoc d)) (m (oLoc d)) fs fr _ rfl _ (hin 1248 inb_S3328_S208_1248) _)) $$ Ho6
  ihave Ho7 := (chunk_to (F := F) m d L 1456#32 7 rfl (tile_body.sl.dma0_8 m d L fs fr hin)
    (chunk_value (F := F) L d 7 1456#32 rfl 3 inb_S4x208x128_S1x208x128_3_0_0 1456 inb_S3328_S208_1456 rfl (Fi m d) (hpre d) (m (tLoc d)) (m (oLoc d)) fs fr _ rfl _ (hin 1456 inb_S3328_S208_1456) _)) $$ Ho7
  ihave Ho8 := (chunk_to (F := F) m d L 1664#32 8 rfl (tile_body.sl.dma0_9 m d L fs fr hin)
    (chunk_value (F := F) L d 8 1664#32 rfl 0 inb_S4x208x128_S1x208x128_0_0_0 1664 inb_S3328_S208_1664 rfl (Fi m d) (hpre d) (m (tLoc d)) (m (oLoc d)) fs fr _ rfl _ (hin 1664 inb_S3328_S208_1664) _)) $$ Ho8
  ihave Ho9 := (chunk_to (F := F) m d L 1872#32 9 rfl (tile_body.sl.dma0_10 m d L fs fr hin)
    (chunk_value (F := F) L d 9 1872#32 rfl 1 inb_S4x208x128_S1x208x128_1_0_0 1872 inb_S3328_S208_1872 rfl (Fi m d) (hpre d) (m (tLoc d)) (m (oLoc d)) fs fr _ rfl _ (hin 1872 inb_S3328_S208_1872) _)) $$ Ho9
  ihave Ho10 := (chunk_to (F := F) m d L 2080#32 10 rfl (tile_body.sl.dma0_11 m d L fs fr hin)
    (chunk_value (F := F) L d 10 2080#32 rfl 2 inb_S4x208x128_S1x208x128_2_0_0 2080 inb_S3328_S208_2080 rfl (Fi m d) (hpre d) (m (tLoc d)) (m (oLoc d)) fs fr _ rfl _ (hin 2080 inb_S3328_S208_2080) _)) $$ Ho10
  ihave Ho11 := (chunk_to (F := F) m d L 2288#32 11 rfl (tile_body.sl.dma0_12 m d L fs fr hin)
    (chunk_value (F := F) L d 11 2288#32 rfl 3 inb_S4x208x128_S1x208x128_3_0_0 2288 inb_S3328_S208_2288 rfl (Fi m d) (hpre d) (m (tLoc d)) (m (oLoc d)) fs fr _ rfl _ (hin 2288 inb_S3328_S208_2288) _)) $$ Ho11
  ihave Ho12 := (chunk_to (F := F) m d L 2496#32 12 rfl (tile_body.sl.dma0_13 m d L fs fr hin)
    (chunk_value (F := F) L d 12 2496#32 rfl 0 inb_S4x208x128_S1x208x128_0_0_0 2496 inb_S3328_S208_2496 rfl (Fi m d) (hpre d) (m (tLoc d)) (m (oLoc d)) fs fr _ rfl _ (hin 2496 inb_S3328_S208_2496) _)) $$ Ho12
  ihave Ho13 := (chunk_to (F := F) m d L 2704#32 13 rfl (tile_body.sl.dma0_14 m d L fs fr hin)
    (chunk_value (F := F) L d 13 2704#32 rfl 1 inb_S4x208x128_S1x208x128_1_0_0 2704 inb_S3328_S208_2704 rfl (Fi m d) (hpre d) (m (tLoc d)) (m (oLoc d)) fs fr _ rfl _ (hin 2704 inb_S3328_S208_2704) _)) $$ Ho13
  ihave Ho14 := (chunk_to (F := F) m d L 2912#32 14 rfl (tile_body.sl.dma0_15 m d L fs fr hin)
    (chunk_value (F := F) L d 14 2912#32 rfl 2 inb_S4x208x128_S1x208x128_2_0_0 2912 inb_S3328_S208_2912 rfl (Fi m d) (hpre d) (m (tLoc d)) (m (oLoc d)) fs fr _ rfl _ (hin 2912 inb_S3328_S208_2912) _)) $$ Ho14
  ihave Ho15 := (chunk_to (F := F) m d L 3120#32 15 rfl (tile_body.sl.dma0_16 m d L fs fr hin)
    (chunk_value (F := F) L d 15 3120#32 rfl 3 inb_S4x208x128_S1x208x128_3_0_0 3120 inb_S3328_S208_3120 rfl (Fi m d) (hpre d) (m (tLoc d)) (m (oLoc d)) fs fr _ rfl _ (hin 3120 inb_S3328_S208_3120) _)) $$ Ho15
  -- the read tokens back into the task's share of the table
  ihave Ht := ((show _ ⊢ _ from Entails.of_eq (by rw [bigSep_fin4])).trans
    (Transfers.pointsTo_toks_join (Ix := HIx 1) (Name := ℕ) (U := UU) (Lvl := ℕ) (ℓ := (tV).view.loc (V d (cV L) (jV L))) (S := Finset.univ) (f := m (tLoc d)) (qT (cL L) (iL L)) 4)) $$ [Htr Ht0 Ht1 Ht2 Ht3]
  · isplitl [Htr]; · iexact Htr
    isplitl [Ht0]; · iexact Ht0
    isplitl [Ht1]; · iexact Ht1
    isplitl [Ht2]; · iexact Ht2
    iexact Ht3
  -- the task's holdings
  isplitl [Hi Ht Ho0 Ho1 Ho2 Ho3 Ho4 Ho5 Ho6 Ho7 Ho8 Ho9 Ho10 Ho11 Ho12 Ho13 Ho14 Ho15]
  · isplitl [Hi]; · iexact Hi
    isplitl [Ht]; · iexact Ht
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  -- the scratch buffers
  isplitl [Hl0 Hl1 Hl2 Hl3 Hl4 Hl5 Hl6 Hl7 Hl8 Hl9 Hl10 Hl11 Hl12 Hl13 Hl14 Hl15 Hr0 Hr1 Hr2 Hr3 Hbufs]
  · isplitl [Hl0 Hl1 Hl2 Hl3 Hl4 Hl5 Hl6 Hl7 Hl8 Hl9 Hl10 Hl11 Hl12 Hl13 Hl14 Hl15]
    · iexists _
      iapply (Entails.of_eq (pts_lists (F := F) d L _).symm)
      isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      isplitl [Hl6]; · iexact Hl6
      isplitl [Hl7]; · iexact Hl7
      isplitl [Hl8]; · iexact Hl8
      isplitl [Hl9]; · iexact Hl9
      isplitl [Hl10]; · iexact Hl10
      isplitl [Hl11]; · iexact Hl11
      isplitl [Hl12]; · iexact Hl12
      isplitl [Hl13]; · iexact Hl13
      isplitl [Hl14]; · iexact Hl14
      iexact Hl15
    isplitl [Hr0 Hr1 Hr2 Hr3]
    · iapply (slots_join (F := F) d L _ _ _ _)
      isplitl [Hr0]; · iexact Hr0
      isplitl [Hr1]; · iexact Hr1
      isplitl [Hr2]; · iexact Hr2
      iexact Hr3
    iexact Hbufs
  -- the semaphores, all at zero again
  isplitl [Hg0 Hg1 Hg2 Hg3 Hw0 Hw1 Hw2 Hw3 Hsc Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hsc]; · iexact Hsc
    iexact Hsems
  iexists _; isplitr
  swap; · iexact HO
  ipureintro; intro p hp
  repeat (rcases Finset.mem_insert.mp hp with hp | hp; · exact .inr (hp ▸ rfl))
  exact .inl hp

end Tile
end Cert.KI
end
-- ==== Proof.Ideal.Launch.lean ====
/-
  The whole program from the tasks. The call hands each SparseCore its sixteen tasks' holdings (read shares of the
  flattened index array and of the table, the chunks of their blocks of the output) and takes them back with every chunk
  at the gathered rows. @main on the TensorCore reshapes the index array, makes the call — cutting the three arrays
  into the thirty-two tasks' holdings and joining them again — and reshapes the gathered rows. Every weakly fair
  execution of all the threads then terminates with the result at the lookup and the two arguments unchanged.
-/
import proofs.«207303_g8950711845028_cont_9to1c4b_501_30_alg».proof.Proof.Ideal.Task

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_arg1_scv : Memref Cert.KernelIdeal.sig Kind.scVector Space.hbm Cert.KernelIdeal.S100000x128 EltTy.f32)
local notation "iV" => (Memref.whole Cert.KernelIdeal.main_v0_scv : Memref Cert.KernelIdeal.sig Kind.scVector Space.hbm Cert.KernelIdeal.S106496 EltTy.i32)
local notation "oV" => (Memref.whole Cert.KernelIdeal.main_v1_scv : Memref Cert.KernelIdeal.sig Kind.scVector Space.hbm Cert.KernelIdeal.S106496x128 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S4x208x128 EltTy.f32)

variable (m : (ℓ : Loc nD τ sig) → Buf (Elt F) ℓ) (ρ : Dev nD → PrngReg)
variable [FloatOps F]

/-! ## What the handshakes carry -/

def P : (K (F := F)).Pay (nD := nD) (Val := Elt F) (Name := ℕ) (U := UU) where
  st := fun q d c => match q with
    | 0 => bigSep Finset.univ fun i : Fin 16 => taskRes m d (Fin.cast nCore_zero c) i (m (oLoc d))
  dn := fun q d c => match q with
    | 0 => bigSep Finset.univ fun i : Fin 16 => taskRes m d (Fin.cast nCore_zero c) i (Go m d)
  go := fun q d c i => match q with
    | 0 => taskRes m d (Fin.cast nCore_zero c) (Fin.cast nSub_zero i) (m (oLoc d))
  td := fun q d c i => match q with
    | 0 => taskRes m d (Fin.cast nCore_zero c) (Fin.cast nSub_zero i) (Go m d)
  x := fun _ _ => iprop(emp)

instance taskRes_storable (d : Dev nD) (c : Fin 2) (i : Fin 16) (fo : Buf (Elt F) (oLoc d)) :
    BI.Storable (upEmb : UEmb _ 𝕄) (taskRes m d c i fo) := by
  unfold taskRes; infer_instance

instance P_storable : (P (F := F) m).IsStorable where
  st q d c := match q with
    | 0 => (inferInstance : BI.Storable (upEmb : UEmb _ 𝕄) (bigSep Finset.univ fun i : Fin 16 => taskRes m d (Fin.cast nCore_zero c) i (m (oLoc d))))
  dn q d c := match q with
    | 0 => (inferInstance : BI.Storable (upEmb : UEmb _ 𝕄) (bigSep Finset.univ fun i : Fin 16 => taskRes m d (Fin.cast nCore_zero c) i (Go m d)))
  go q d c i := match q with
    | 0 => (inferInstance : BI.Storable (upEmb : UEmb _ 𝕄) (taskRes m d (Fin.cast nCore_zero c) (Fin.cast nSub_zero i) (m (oLoc d))))
  td q d c i := match q with
    | 0 => (inferInstance : BI.Storable (upEmb : UEmb _ 𝕄) (taskRes m d (Fin.cast nCore_zero c) (Fin.cast nSub_zero i) (Go m d)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          tV (Memref.isWhole_whole _) iV (Memref.isWhole_whole _) oV (Memref.isWhole_whole _)
          sV (Memref.isWhole_whole _) rV (Memref.isWhole_whole _) cc0_scratch2 cc0_scratch3 cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A SparseCore's holdings are its tasks' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => taskRes m d (Fin.cast nCore_zero c) i (m (oLoc d))) ⊢ |={Set.univ}=> iprop(
      (bigSep Finset.univ fun i : Fin ((K (F := F)).nSub 0) => taskRes m d (Fin.cast nCore_zero c) (Fin.cast nSub_zero i) (m (oLoc d)))
      ∗ ((bigSep Finset.univ fun i : Fin ((K (F := F)).nSub 0) => taskRes m d (Fin.cast nCore_zero c) (Fin.cast nSub_zero i) (Go m d))
          -∗ bigSep Finset.univ fun i : Fin 16 => taskRes m d (Fin.cast nCore_zero c) i (Go m d)))
  rw [bigSep_tasks (F := F) (fun i => taskRes m d (Fin.cast nCore_zero c) i (m (oLoc d))),
    bigSep_tasks (F := F) (fun i => taskRes m d (Fin.cast nCore_zero c) i (Go m d))]
  iintro H; imodintro
  isplitl [H]; · iexact H
  iintro H; iexact H

/-! ## The arrays whole are the thirty-two tasks' holdings -/

theorem res_eq (d : Dev nD) (fo : Buf (Elt F) (oLoc d)) :
    (bigSep Finset.univ fun c : Fin 2 => bigSep Finset.univ fun i : Fin 16 => taskRes m d c i fo)
      = iprop((iLoc d ↦{fullShare} Fi m d) ∗ (tLoc d ↦{fullShare} m (tLoc d)) ∗ (oLoc d ↦{fullShare} fo)) := by
  have hsh : ∀ (ℓ : Loc nD τ sig) (f : Buf (Elt F) ℓ), (ℓ ↦{fullShare} f : sProp 𝕄)
      = bigSep Finset.univ fun c : Fin 2 => bigSep Finset.univ fun i : Fin 16 => ℓ ↦{qT c i} f := by
    intro ℓ f
    rw [pointsTo_piecesOf Finset.univ f (by decide : 0 < 2) fullShare]
    exact bigSep_congr fun c _ => pointsTo_piecesOf Finset.univ f (by decide : 0 < 16) (qC c)
  have hch : (oLoc d ↦{fullShare} fo : sProp 𝕄)
      = bigSep Finset.univ fun c : Fin 2 => bigSep Finset.univ fun i : Fin 16 => bigSep Finset.univ fun j : Fin 16 =>
          oLoc d ↦[Cert.Blocks.chunkSet (c, i, j)]{fullShare} fo := by
    rw [show (oLoc d ↦{fullShare} fo : sProp 𝕄) = oLoc d ↦[(Finset.univ : Finset (Fin 2 × Fin 16 × Fin 16)).biUnion Cert.Blocks.chunkSet]{fullShare} fo from by
        rw [Cert.Blocks.chunk_cover],
      pointsTo_biUnion (ℓ := oLoc d) (q := fullShare) (f := fo) Finset.univ Cert.Blocks.chunkSet Cert.Blocks.chunk_disjoint, bigSep_univ_prod]
    exact bigSep_congr fun c _ => bigSep_univ_prod _
  rw [hsh (iLoc d), hsh (tLoc d), hch]
  unfold taskRes
  simp only [bigSep_sep']

theorem st0_eq (d : Dev nD) : (bigSep Finset.univ fun c : Fin ((K (F := F)).nCore 0) => (P m).st 0 d c)
    = iprop((iLoc d ↦{fullShare} Fi m d) ∗ (tLoc d ↦{fullShare} m (tLoc d)) ∗ (oLoc d ↦{fullShare} m (oLoc d))) := by
  show (bigSep Finset.univ fun c : Fin ((K (F := F)).nCore 0) => bigSep Finset.univ fun i : Fin 16 => taskRes m d (Fin.cast nCore_zero c) i (m (oLoc d))) = _
  rw [bigSep_cores (F := F) (fun c => bigSep Finset.univ fun i : Fin 16 => taskRes m d c i (m (oLoc d))), res_eq]
theorem dn0_eq (d : Dev nD) : (bigSep Finset.univ fun c : Fin ((K (F := F)).nCore 0) => (P m).dn 0 d c)
    = iprop((iLoc d ↦{fullShare} Fi m d) ∗ (tLoc d ↦{fullShare} m (tLoc d)) ∗ (oLoc d ↦{fullShare} Go m d)) := by
  show (bigSep Finset.univ fun c : Fin ((K (F := F)).nCore 0) => bigSep Finset.univ fun i : Fin 16 => taskRes m d (Fin.cast nCore_zero c) i (Go m d)) = _
  rw [bigSep_cores (F := F) (fun c => bigSep Finset.univ fun i : Fin 16 => taskRes m d c i (Go m d)), res_eq]

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opFlat : HloOp τ sig (Elt F) := StableHlo.reshape main_arg0 main_v0 rfl shapeCasts_S4096x26_S106496
abbrev opOut : HloOp τ sig (Elt F) := StableHlo.reshape main_v1 main_v2 rfl shapeCasts_S106496x128_S4096x26x128

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]

omit [FloatOps F] in
theorem held_pair (d : Dev nD) (x y : DevRef τ sig) (h : x ≠ y) (Vv : Valuation τ sig (Elt F)) :
    (StableHlo.held (T d) {x, y} Vv : sProp 𝕄) = iprop(((d, x) ↦{fullShare} Vv x) ∗ ((d, y) ↦{fullShare} Vv y)) := by
  unfold StableHlo.held
  rw [SparseCore.bigSep_insert' (by rw [Finset.mem_singleton]; exact h), bigSep_singleton]

/-- The launch valuation, and the one before the second reshape (the gathered rows in place). -/
def V0 (d : Dev nD) : Valuation τ sig (Elt F) := fun b => m (d, b)
def V1 (d : Dev nD) : Valuation τ sig (Elt F) := Function.update (V0 m d) o' (Go m d)

abbrev FIN (d : Dev nD) : sProp 𝕄 := iprop((rLoc d ↦{fullShare} Res m d) ∗ (aLoc d ↦{fullShare} m (aLoc d)) ∗ (tLoc d ↦{fullShare} m (tLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Hi, Ho, Hr⟩, -, -⟩, -⟩
  -- the index array, flattened
  iapply (StableHlo.wp_hlo_within 𝒱 (SparseCore.T d) none Set.univ (op := opFlat (F := F)) (S := {a', i'}) (Finset.Subset.refl _) (V := V0 m d)) $$ [Hb Ha Hi]
  · isplitl [Hb]; · iexact Hb
    rw [held_pair (F := F) d a' i' (by decide)]
    isplitl [Ha]; · iexact Ha
    iexact Hi
  iintro ⟨Hb, Hh⟩
  ihave Hh := (Entails.of_eq (held_pair (F := F) d a' i' (by decide) _)) $$ Hh
  icases Hh with ⟨Ha, Hi⟩
  have eA : (opFlat (F := F)).result (V0 m d) a' = m (aLoc d) :=
    StableHlo.reshape_result_ne (x := main_arg0) (y := main_v0) _ _ _ _ (V0 m d) (show (main_arg0 : Ref sig .tc) ≠ main_v0 by decide)
  have eI : (opFlat (F := F)).result (V0 m d) i' = Fi m d := StableHlo.reshape_result _ _ _ _ _ _ (V0 m d)
  ihave Ha := (Entails.of_eq (congrArg (fun f => (aLoc d ↦{fullShare} f : sProp 𝕄)) eA)) $$ Ha
  ihave Hi := (Entails.of_eq (congrArg (fun f => (iLoc d ↦{fullShare} f : sProp 𝕄)) eI)) $$ Hi
  rw [wp_ret]; imodintro
  -- the call: the three arrays cut into the thirty-two tasks' holdings, and joined again
  iapply ((K (F := F)).wp_run (D (F := F)) 𝒱 (EH := EH) (P := P m) κ d 0) $$ [Hst Hi Ht Ho Hb Ha Hr]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  -- the gathered rows, reshaped
  have e1o : V1 m d o' = Go m d := Function.update_self _ _ _
  have e1r : V1 m d r' = m (rLoc d) := Function.update_of_ne (show r' ≠ o' by decide) _ _
  iapply (StableHlo.wp_hlo_within 𝒱 (SparseCore.T d) none Set.univ (op := opOut (F := F)) (S := {o', r'}) (Finset.Subset.refl _) (V := V1 m d)) $$ [Hb Ho Hr]
  · isplitl [Hb]; · iexact Hb
    rw [held_pair (F := F) d o' r' (by decide), e1o, e1r]
    isplitl [Ho]; · iexact Ho
    iexact Hr
  iintro ⟨Hb, Hh⟩
  ihave Hh := (Entails.of_eq (held_pair (F := F) d o' r' (by decide) _)) $$ Hh
  icases Hh with ⟨-, Hr⟩
  have eR : (opOut (F := F)).result (V1 m d) r' = Res m d := by
    rw [show (opOut (F := F)).result (V1 m d) r' = _ from StableHlo.reshape_result _ _ _ _ _ _ (V1 m d), e1o]; rfl
  ihave Hr := (Entails.of_eq (congrArg (fun f => (rLoc d ↦{fullShare} f : sProp 𝕄)) eR)) $$ Hr
  rw [wp_ret]; imodintro; imodintro
  isplitl [Hst]; · iexact Hst
  isplitl [Hr]; · iexact Hr
  isplitl [Ha]; · iexact Ha
  iexact Ht

def fq (d : Dev nD) (s' : Phys nD τ sig (Elt F)) : Prop :=
  s'.mem.mem (rLoc d) = Res m d ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha, Ht⟩, HSI⟩
  ihave H := (persistent_entails_right (SI_pointsTo_agree (st := s') (ℓ := rLoc d) (I := Finset.univ) (q := fullShare) (f := Res m d))) $$ [HSI Hr]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := tLoc d) (I := Finset.univ) (q := fullShare) (f := m (tLoc d))) $$ [HSI Ht]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (rLoc c) = Res m c ∧ r.2.mem (aLoc c) = m (aLoc c) ∧ r.2.mem (tLoc c) = m (tLoc c)

/-- Every weakly fair execution of the device's threads from `m` terminates, nothing faulting, with the result at the
    gathered rows reshaped and the two arguments unchanged — provided every index word names a row of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KI
end
-- ==== Proof.Word.Base.lean ====
/-
  The kernel, as printed, as a SparseCore program: thirty-two tasks, one per vector subcore of the two SparseCores. Task
  `(core c, subcore s)` owns the block of 3328 consecutive rows starting at row `3328 · (2 s + c)` of the flattened
  index array and of the output: it copies its block of index words into its index scratch, and for each of the block's
  sixteen chunks of 208 rows gathers the table rows those words name into one of four row buffers and copies that buffer
  out to the chunk of the output. This file fixes the vocabulary the other files of the proof share: the program as the
  launch theorem reads it, the ghost state (the launch handshakes' rounds beside the transfers' counters), and the five
  arrays of the TensorCore's memory.
-/
import proofs.«207303_g8950711845028_cont_9to1c4b_501_30_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207303_g8950711845028_cont_9to1c4b_501_30_alg».proof.Proof.Gen.Kernel
import proofs.«207303_g8950711845028_cont_9to1c4b_501_30_alg».proof.Proof.Gen.Kernel.Skeleton

noncomputable section

namespace Cert.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array as given, the table, the index array flattened, the gathered rows, the result. -/
abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

end Cert.KW
end
-- ==== Proof.Word.Chunks.lean ====
/-
  One task's memory, cut the way the kernel's copies cut it: the sixteen chunks of its block of the output, the sixteen
  lists of 208 index words in its index scratch, the four row buffers of its row scratch, and its block of the flattened
  index array. The lists partition the index scratch; every word a list holds is a word of the index array.
-/
import proofs.«207303_g8950711845028_cont_9to1c4b_501_30_alg».proof.Proof.Word.Base

noncomputable section

namespace Cert.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One tile's task -/

local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S106496 EltTy.i32)
local notation "oV" => (Memref.whole Cert.Kernel.main_v1_scv : Memref Cert.Kernel.sig Kind.scVector Space.hbm Cert.Kernel.S106496x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x208x128 EltTy.f32)

abbrev cV (L : grid0.Coords) : Fin τ.nSC := (L 0).castLE hcore0
abbrev jV (L : grid0.Coords) : Fin τ.nSub := (L 1).castLE hsub0

/-- Chunk `r` of the tile's block of the output: 208 rows from row `3328 · (2 · subcore + core) + 208 · r`. -/
abbrev oCh (L : grid0.Coords) (w : BitVec 32) (r : Fin 16) (h : BitVec.ofNat 32 (208 * r.val) = w) : Memref sig .scVector .hbm S208x128 .f32 :=
  (oV).slice (Rect.unit (s := S106496x128) (k0_off2 L w) S208x128.size (h ▸ k0_off2_inb L r)) (fun _ => rfl)
/-- The 208 index words of one chunk, in the tile's index scratch. -/
abbrev lst (o : Nat) (h : ∀ a, (![o] : Fin 1 → Nat) a + S208.size a ≤ S3328.size a) : Memref sig .scVector .vmem S208 .i32 :=
  (sV).slice (Rect.unit (s := S3328) ![o] S208.size h) (fun _ => rfl)
/-- One of the four row buffers of the tile's row scratch. -/
abbrev slot (k : Nat) (h : ∀ a, (![k, 0, 0] : Fin 3 → Nat) a + S1x208x128.size a ≤ S4x208x128.size a) : Memref sig .scVector .vmem S208x128 .f32 :=
  ((rV).slice (Rect.unit (s := S4x208x128) ![k, 0, 0] S1x208x128.size h) (fun _ => rfl)).squeeze S208x128 squeezes_S1x208x128_S208x128
/-- The tile's block of the flattened index array. -/
abbrev iBlk (L : grid0.Coords) : Memref sig .scVector .hbm S3328 .i32 :=
  (iV).slice (Rect.unit (s := S106496) (k0_off1 L) S3328.size (k0_off1_inb L)) (fun _ => rfl)

/-- The whole table, as each gather names its source. -/
abbrev tAll : Memref sig .scVector .hbm S100000x128 .f32 :=
  (tV).slice (Rect.unit (s := S100000x128) ![0, 0] S100000x128.size inb_S100000x128_S100000x128_0_0) (fun _ => rfl)

variable [FloatOps F]

/-! ## Finite families, spelt out -/
omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    SparseCore.bigSep_insert' (by decide), SparseCore.bigSep_insert' (by decide), SparseCore.bigSep_insert' (by decide), bigSep_singleton]
omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The index scratch, cut into the sixteen chunks' lists -/

theorem lst_inb (j : Fin 16) : ∀ a, (![208 * j.val] : Fin 1 → Nat) a + S208.size a ≤ S3328.size a := by
  intro a; have := j.isLt
  match a with
  | ⟨0, _⟩ => show 208 * j.val + 208 ≤ 3328; omega
abbrev lstN (j : Fin 16) : Memref sig .scVector .vmem S208 .i32 := lst (208 * j.val) (lst_inb j)
abbrev lstSet (j : Fin 16) : Finset S3328.Idx := (lstN j).view.set
theorem lstN_set (j : Fin 16) : lstSet j = (Rect.unit (s := S3328) ![208 * j.val] S208.size (lst_inb j)).set :=
  View.set_slice_whole _ _
theorem lst_disjoint : ∀ j ∈ (Finset.univ : Finset (Fin 16)), ∀ j' ∈ (Finset.univ : Finset (Fin 16)), j ≠ j' →
    Disjoint (lstSet j) (lstSet j') := by
  intro j _ j' _ h
  rw [lstN_set, lstN_set]
  refine Rect.unit_disjoint 0 ?_
  have : j.val ≠ j'.val := Fin.val_ne_of_ne h
  show 208 * j.val + 208 ≤ 208 * j'.val ∨ 208 * j'.val + 208 ≤ 208 * j.val
  omega
theorem lst_cover : (Finset.univ : Finset (Fin 16)).biUnion lstSet = Finset.univ := by
  ext i
  simp only [Finset.mem_biUnion, Finset.mem_univ, true_and, iff_true]
  have hi : (i 0).val < 3328 := (i 0).isLt
  refine ⟨⟨(i 0).val / 208, by omega⟩, ?_⟩
  rw [lstN_set, Rect.mem_set_unit]
  intro a
  match a with
  | ⟨0, _⟩ => show 208 * ((i 0).val / 208) ≤ (i 0).val ∧ (i 0).val < 208 * ((i 0).val / 208) + 208; omega

/-! ## The index words the lists hold -/

/-- What the index scratch holds once the tile's block of the index array has landed in it: every word is a word of the
    index array, so below the table's height when those all are. -/
theorem lst_words_lt (L : grid0.Coords) {d : Dev nD} {fi : Buf (Elt F) (iLoc d)} (hfi : ∀ y, (fi y).toNat < 100000)
    (fs : S3328.Idx → Elt F .i32) (pay : S3328.Idx → Elt F .i32) (hpay : pay = (iBlk L).view.read (Elt F) fi)
    (o : Nat) (h : ∀ a, (![o] : Fin 1 → Nat) a + S208.size a ≤ S3328.size a) :
    ∀ x, ((lst o h).view.read (Elt F) (View.write (Elt F) (sV).view fs pay Finset.univ) x).toNat < S100000x128.size gathers_S100000x128_S208x128.axis := by
  subst hpay; intro x
  have e : View.write (Elt F) (sV).view fs ((iBlk L).view.read (Elt F) fi) Finset.univ = (iBlk L).view.read (Elt F) fi :=
    View.write_whole_univ _ _ _
  have e1 : ∀ (g : S3328.Idx → Elt F .i32) z, (lst o h).view.read (Elt F) g z = g ((lst o h).view.emb z) :=
    fun g z => (View.read_apply _ _).trans (cast_eq _ _)
  have e2 : ∀ z, (iBlk L).view.read (Elt F) fi z = fi ((iBlk L).view.emb z) := fun z => (View.read_apply _ _).trans (cast_eq _ _)
  rw [e, e1, e2]
  exact hfi _

end Cert.KW
end
-- ==== Proof.Word.Arrays.lean ====
/-
  What the arrays hold, and who holds which part of them while the tasks run. The flattened index array is the index
  array reshaped; the output ends as the gathered rows, row `r` the table's row named by the flattened index word `r`
  (`Cert.Blocks.Rows`); the result is that reshaped. During the call every task reads the whole index array and the
  whole table, so each holds a read share of both (the full share cut in two for the SparseCores, each half in sixteen
  for its tasks), and owns the sixteen chunks of its own block of the output.
-/
import proofs.«207303_g8950711845028_cont_9to1c4b_501_30_alg».proof.Proof.Word.Chunks
import proofs.«207303_g8950711845028_cont_9to1c4b_501_30_alg».proof.Proof.Blocks

noncomputable section

namespace Cert.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S106496 EltTy.i32)
local notation "oV" => (Memref.whole Cert.Kernel.main_v1_scv : Memref Cert.Kernel.sig Kind.scVector Space.hbm Cert.Kernel.S106496x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x208x128 EltTy.f32)

variable (m : (ℓ : Loc nD τ sig) → Buf (Elt F) ℓ)

/-- The flattened index array: the index array's words in row-major order. -/
def Fi (d : Dev nD) : Buf (Elt F) (iLoc d) := fun i => shapeCast S106496 (m (aLoc d)) shapeCasts_S4096x26_S106496 i
/-- The gathered rows. -/
def Go (d : Dev nD) : Buf (Elt F) (oLoc d) := Cert.Blocks.Rows (Fi m d) (m (tLoc d))
/-- The result: the gathered rows, one per pair of a batch row and a feature. -/
def Res (d : Dev nD) : Buf (Elt F) (rLoc d) := fun i => shapeCast S4096x26x128 (Go m d) shapeCasts_S106496x128_S4096x26x128 i

/-- What the proof asks of the launch memory: every index word names a row of the table. -/
def PreOK : Prop := ∀ (d : Dev nD) y, (Fi m d y).toNat < 100000

/-- The read share of SparseCore `c`, and of its task `i`. -/
def qC (c : Fin 2) : PosShare TreeShare := pieceOf fullShare 2 (by decide) c
def qT (c : Fin 2) (i : Fin 16) : PosShare TreeShare := pieceOf (qC c) 16 (by decide) i

theorem bound_zero : grid0.bound 0 = 2 := rfl
theorem bound_one : grid0.bound 1 = 16 := rfl
/-- A task's SparseCore and vector subcore, as numbers below 2 and 16. -/
abbrev cL (L : grid0.Coords) : Fin 2 := Fin.cast bound_zero (L 0)
abbrev iL (L : grid0.Coords) : Fin 16 := Fin.cast bound_one (L 1)

/-- What task `(c, i)` holds: its read shares of the flattened index array and of the table, and the sixteen chunks of its
    block of the output, at contents `fo`. -/
def taskRes (d : Dev nD) (c : Fin 2) (i : Fin 16) (fo : Buf (Elt F) (oLoc d)) : sProp 𝕄 :=
  iprop((iLoc d ↦{qT c i} Fi m d) ∗ (tLoc d ↦{qT c i} m (tLoc d))
    ∗ bigSep Finset.univ fun j : Fin 16 => oLoc d ↦[Cert.Blocks.chunkSet (c, i, j)]{fullShare} fo)

theorem unit_congr {s : Shape} {off off' size : Fin s.rank → Nat} (e : off = off') (h : ∀ a, off a + size a ≤ s.size a)
    (h' : ∀ a, off' a + size a ≤ s.size a) : Rect.unit off size h = Rect.unit off' size h' := by
  subst e; rfl

/-- Chunk `r` of a task's block of the output, as the kernel slices it, is chunk `(core, subcore, r)` of the output's rows. -/
theorem set_oCh (L : grid0.Coords) (w : BitVec 32) (r : Fin 16) (hw : BitVec.ofNat 32 (208 * r.val) = w) :
    (oCh L w r hw).view.set = Cert.Blocks.chunkSet (cL L, iL L, r) := by
  subst hw
  show ((View.whole main_v1_scv).slice (Rect.unit (s := S106496x128) (k0_off2 L (BitVec.ofNat 32 (208 * r.val))) S208x128.size _)).set = _
  rw [View.set_slice_whole]
  exact congrArg (fun R : Rect S106496x128 => R.set) (unit_congr (k0_off2_eq L r) _ _)

end Cert.KW
end
-- ==== Proof.Word.ChunkValue.lean ====
/-
  What one chunk of the output holds once its task has run. The task copies its block of the flattened index array
  into its index scratch; for chunk `r` it gathers, into one of its four row buffers, the table rows named by the 208
  words at offset `208·r` of the scratch, and copies that buffer out to chunk `r` of its block of the output. Each of the
  three copies writes a whole rectangle, so what is read back through the rectangle is the copy's payload, whatever
  the buffer held before. Entry `(a, b)` of the chunk is then the table's entry at row `flat[R]`, column `b`, where
  `R = 6656·j + 3328·c + 208·r + a` is the chunk's row `a` as a row of the output (`(c, j)` the task's core and subcore)
  and `flat` the flattened index array: word `a` of the list is word `208·r + a` of the scratch, which is word
  `6656·j + 3328·c + 208·r + a` of the flattened index array. That word is below the table's height, so the row it
  names is the row the specification's `rowOf` names, and the entry is the entry of the gathered rows `Cert.Blocks.Rows`.
-/
import proofs.«207303_g8950711845028_cont_9to1c4b_501_30_alg».proof.Proof.Word.Chunks
import proofs.«207303_g8950711845028_cont_9to1c4b_501_30_alg».proof.Proof.Blocks
import Idealize.ShloMosaic.Lib.Writes

noncomputable section

namespace Cert.KW
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S106496 EltTy.i32)
local notation "oV" => (Memref.whole Cert.Kernel.main_v1_scv : Memref Cert.Kernel.sig Kind.scVector Space.hbm Cert.Kernel.S106496x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x208x128 EltTy.f32)

variable [FloatOps F]

/-! ## Reading after a whole-rectangle write -/

/-- A buffer read through a view after a list of writes whose last covers the view's whole shape reads that last
    write's payload, whatever came before. -/
theorem read_writes_whole_cons {sg : RefSig} {κ : Kind} {sp : Space} {s : Shape} {e : EltTy} {Val : EltTy → Type}
    (v : View sg κ sp s e) (f : v.ty.Contents Val) (p : s.Idx → Val e) (Ls : List (View.Piece Val s e)) (x : s.Idx) :
    v.read Val (v.writes Val f (⟨Rect.whole s, p⟩ :: Ls)) x = p x := by
  have h := View.read_writes_cons_emb v f (Rect.whole s) p Ls x
  rwa [Rect.emb_whole_apply] at h

/-! ## Where the task's views sit in their buffers -/

/-- The row-major position of an index of a rank-one shape is its coordinate, so the index at a position has that
    position as coordinate. -/
theorem rowMajor_symm_val_one {n : Nat} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- Entry `(a, b)` of chunk `r` of the task's block of the output is entry `(6656·j + 3328·c + 208·r + a, b)` of the
    output, `(c, j)` the task's core and subcore. -/
theorem oCh_emb_val0 (L : grid0.Coords) (r : Fin 16) (x : S208x128.Idx) :
    (((oCh L (BitVec.ofNat 32 (208 * r.val)) r rfl).view.emb x : S106496x128.Idx) 0).val
      = 6656 * (L 1).val + 3328 * (L 0).val + 208 * r.val + (x 0).val := by
  have h := congrFun (k0_off2_eq L r) 0
  show k0_off2 L (BitVec.ofNat 32 (208 * r.val)) 0 + 1 * (x 0).val = _
  rw [h]
  show 6656 * (L 1).val + 3328 * (L 0).val + 208 * r.val + 1 * (x 0).val = _
  omega

theorem oCh_emb_val1 (L : grid0.Coords) (r : Fin 16) (x : S208x128.Idx) :
    (((oCh L (BitVec.ofNat 32 (208 * r.val)) r rfl).view.emb x : S106496x128.Idx) 1).val = (x 1).val := by
  have h := congrFun (k0_off2_eq L r) 1
  show k0_off2 L (BitVec.ofNat 32 (208 * r.val)) 1 + 1 * (x 1).val = _
  rw [h]
  show 0 + 1 * (x 1).val = _
  omega

/-- Word `p` of the task's block of the flattened index array is word `6656·j + 3328·c + p` of the array. -/
theorem iBlk_emb_val (L : grid0.Coords) (p : S3328.Idx) :
    (((iBlk L).view.emb p : S106496.Idx) 0).val = 6656 * (L 1).val + 3328 * (L 0).val + (p 0).val := by
  have h := congrFun (k0_off1_eq L) 0
  show k0_off1 L 0 + 1 * (p 0).val = _
  rw [h]
  show 6656 * (L 1).val + 3328 * (L 0).val + 1 * (p 0).val = _
  omega

/-- Word `q` of the list at offset `o` of the index scratch is word `o + q` of the scratch. -/
theorem lst_emb_val (o : Nat) (ho : ∀ a, (![o] : Fin 1 → Nat) a + S208.size a ≤ S3328.size a) (q : S208.Idx) :
    (((lst o ho).view.emb q : S3328.Idx) 0).val = o + (q 0).val := by
  show o + 1 * (q 0).val = _
  omega

/-- The whole table, as the gathers name it, sits in its buffer entry for entry. -/
theorem tAll_emb (z : S100000x128.Idx) : ((tAll).view.emb z : S100000x128.Idx) = z := by
  funext a
  refine Fin.ext ?_
  match a with
  | ⟨0, _⟩ => show 0 + 1 * (z 0).val = (z 0).val; omega
  | ⟨1, _⟩ => show 0 + 1 * (z 1).val = (z 1).val; omega

/-- The word the gather reads for row `a` of chunk `r` — word `a` of the chunk's list in the index scratch, which holds the
    task's block of the flattened index array — is the flattened index array's word at the output row the chunk's row
    `a` is. -/
theorem word_idx (L : grid0.Coords) (r : Fin 16) (ho : ∀ a, (![208 * r.val] : Fin 1 → Nat) a + S208.size a ≤ S3328.size a)
    (q : S208.Idx) (x : S208x128.Idx) (hq : (q 0).val = (x 0).val) :
    ((iBlk L).view.emb ((lst (208 * r.val) ho).view.emb q) : S106496.Idx)
      = Idealize.ShloMosaic.ValueIdx.ix1 (n := 106496)
          (((oCh L (BitVec.ofNat 32 (208 * r.val)) r rfl).view.emb x : S106496x128.Idx) 0) := by
  funext b
  refine Fin.ext ?_
  match b with
  | ⟨0, _⟩ =>
    have e1 := iBlk_emb_val L ((lst (208 * r.val) ho).view.emb q)
    have e2 := lst_emb_val (208 * r.val) ho q
    have e4 := oCh_emb_val0 L r x
    show (((iBlk L).view.emb ((lst (208 * r.val) ho).view.emb q) : S106496.Idx) 0).val
      = (((oCh L (BitVec.ofNat 32 (208 * r.val)) r rfl).view.emb x : S106496x128.Idx) 0).val
    omega

/-- Chunk `r` of the task's block of the output, after the row buffer that received the chunk's gather has been copied
    out to it, holds the gathered rows `Cert.Blocks.Rows` of the flattened index array and the table, at every entry of
    the chunk. -/
theorem chunk_value (L : grid0.Coords) (d : Dev nD) (r : Fin 16) (w : BitVec 32) (hw : BitVec.ofNat 32 (208 * r.val) = w)
    (k : Nat) (hk : ∀ a, (![k, 0, 0] : Fin 3 → Nat) a + S1x208x128.size a ≤ S4x208x128.size a)
    (o : Nat) (ho : ∀ a, (![o] : Fin 1 → Nat) a + S208.size a ≤ S3328.size a) (hor : o = 208 * r.val)
    (fi : Buf (Elt F) (iLoc d)) (hfi : ∀ y, (fi y).toNat < 100000) (ft : Buf (Elt F) (tLoc d)) (fo : Buf (Elt F) (oLoc d))
    (fs : S3328.Idx → Elt F .i32) (fr : S4x208x128.Idx → Elt F .f32)
    (pay : S3328.Idx → Elt F .i32) (hpay : pay = ReadAs.same.apply ((iBlk L).view.read (Elt F) fi))
    (hn : S208.numel = S208x128.size gathers_S100000x128_S208x128.axis')
    (hin : ∀ x, ((lst o ho).view.read (Elt F) (View.write (Elt F) (sV).view fs pay Finset.univ) x).toNat < S100000x128.size gathers_S100000x128_S208x128.axis)
    (rest : List (View.Piece (Elt F) S208x128 .f32)) :
    ∀ y ∈ (oCh L w r hw).view.set,
      (oCh L w r hw).view.writes (Elt F) fo
        [⟨Rect.whole S208x128, ReadAs.same.apply ((slot k hk).view.read (Elt F)
          ((slot k hk).view.writes (Elt F) fr
            (⟨Rect.whole S208x128, SparseCore.gatherPayload gathers_S100000x128_S208x128 ((tAll).view.read (Elt F) ft)
              (SparseCore.rows ((lst o ho).view.read (Elt F) (View.write (Elt F) (sV).view fs pay Finset.univ)) hn hin)⟩ :: rest)))⟩] y
      = Cert.Blocks.Rows fi ft y := by
  subst hw hor hpay
  intro y hy
  obtain ⟨x, -, rfl⟩ := Finset.mem_map.mp hy
  have eO : ∀ (g : Buf (Elt F) (oLoc d)) (z : S208x128.Idx),
      (oCh L (BitVec.ofNat 32 (208 * r.val)) r rfl).view.read (Elt F) g z
        = g ((oCh L (BitVec.ofNat 32 (208 * r.val)) r rfl).view.emb z) :=
    fun g z => (View.read_apply _ _).trans (cast_eq _ _)
  have eT : ∀ (g : Buf (Elt F) (tLoc d)) (z : S100000x128.Idx), (tAll).view.read (Elt F) g z = g ((tAll).view.emb z) :=
    fun g z => (View.read_apply _ _).trans (cast_eq _ _)
  have eL : ∀ (g : S3328.Idx → Elt F .i32) (z : S208.Idx),
      (lst (208 * r.val) ho).view.read (Elt F) g z = g ((lst (208 * r.val) ho).view.emb z) :=
    fun g z => (View.read_apply _ _).trans (cast_eq _ _)
  have eI : ∀ z : S3328.Idx, (iBlk L).view.read (Elt F) fi z = fi ((iBlk L).view.emb z) :=
    fun z => (View.read_apply _ _).trans (cast_eq _ _)
  have eS : View.write (Elt F) (sV).view fs (ReadAs.same.apply ((iBlk L).view.read (Elt F) fi)) Finset.univ
      = (iBlk L).view.read (Elt F) fi := View.write_whole_univ _ _ _
  refine (eO _ x).symm.trans ?_
  rw [read_writes_whole_cons]
  show (slot k hk).view.read (Elt F) ((slot k hk).view.writes (Elt F) fr (⟨Rect.whole S208x128, _⟩ :: rest)) x = _
  rw [read_writes_whole_cons]
  show (tAll).view.read (Elt F) ft (gathers_S100000x128_S208x128.idx _ x) = _
  rw [eT, tAll_emb]
  refine congrArg ft (?_ : (gathers_S100000x128_S208x128.idx _ x : S100000x128.Idx)
    = Idealize.ShloMosaic.ValueIdx.ix2 (n0 := 100000) (n1 := 128) _ _)
  funext a
  refine Fin.ext ?_
  match a with
  | ⟨0, _⟩ =>
    refine (congrArg Fin.val (Shape.Gathers.idx_axis gathers_S100000x128_S208x128 _ x)).trans ?_
    refine Eq.trans ?_ (Cert.Spec.rowOf_val_of_lt (hfi _)).symm
    show (View.read (Elt F) (lst (208 * r.val) ho).view _ _).toNat = _
    rw [eL, eS, eI]
    exact congrArg (fun t => (fi t).toNat)
      (word_idx L r ho _ x (rowMajor_symm_val_one (n := 208) (Fin.cast hn.symm (x gathers_S100000x128_S208x128.axis'))))
  | ⟨1, _⟩ =>
    refine (Shape.Gathers.idx_of_ne gathers_S100000x128_S208x128 _ x ⟨1, by decide⟩ (by decide)).trans ?_
    exact (oCh_emb_val1 L r x).symm

end Cert.KW
end
-- ==== Proof.Word.Task.lean ====
/-
  One task, run once at a symbolic (SparseCore, vector subcore) pair. The task's block of index words lands in its index
  scratch; the scratch is then read as sixteen lists, each naming 208 rows of the table, all in range because every index
  word is. Up to three gathers are in flight at a time, each on its own semaphore into its own row buffer, each reading the
  table through its own read token; a row buffer is overwritten only after the copy out of it has been waited for. At the
  end every chunk of the task's block of the output holds the gathered rows (`chunk_value`), and the scratch buffers, the
  semaphores and the read shares are given back.
-/
import proofs.«207303_g8950711845028_cont_9to1c4b_501_30_alg».proof.Proof.Word.Arrays
import proofs.«207303_g8950711845028_cont_9to1c4b_501_30_alg».proof.Proof.Word.ChunkValue

noncomputable section

namespace Cert.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S106496 EltTy.i32)
local notation "oV" => (Memref.whole Cert.Kernel.main_v1_scv : Memref Cert.Kernel.sig Kind.scVector Space.hbm Cert.Kernel.S106496x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x208x128 EltTy.f32)

variable (m : (ℓ : Loc nD τ sig) → Buf (Elt F) ℓ)
variable [FloatOps F]

/-! ## The row scratch, cut into its four buffers -/

theorem slot_inb (k : Fin 4) : ∀ a, (![k.val, 0, 0] : Fin 3 → Nat) a + S1x208x128.size a ≤ S4x208x128.size a := by
  intro a; have := k.isLt
  match a with
  | ⟨0, _⟩ => show k.val + 1 ≤ 4; omega
  | ⟨1, _⟩ => show 0 + 208 ≤ 208; omega
  | ⟨2, _⟩ => show 0 + 128 ≤ 128; omega
abbrev slotN (k : Fin 4) : Memref sig .scVector .vmem S208x128 .f32 := slot k.val (slot_inb k)
abbrev slotSet (k : Fin 4) : Finset S4x208x128.Idx := (slotN k).view.set
theorem slotN_set (k : Fin 4) : slotSet k = (Rect.unit (s := S4x208x128) ![k.val, 0, 0] S1x208x128.size (slot_inb k)).set := by
  show (((View.whole cc0_scratch1).slice (Rect.unit (s := S4x208x128) ![k.val, 0, 0] S1x208x128.size (slot_inb k))).reshape S208x128 _).set = _
  rw [View.set_reshape, View.set_slice_whole]
theorem slot_disjoint : ∀ k ∈ (Finset.univ : Finset (Fin 4)), ∀ k' ∈ (Finset.univ : Finset (Fin 4)), k ≠ k' →
    Disjoint (slotSet k) (slotSet k') := by
  intro k _ k' _ h
  rw [slotN_set, slotN_set]
  refine Rect.unit_disjoint 0 ?_
  have : k.val ≠ k'.val := Fin.val_ne_of_ne h
  show k.val + 1 ≤ k'.val ∨ k'.val + 1 ≤ k.val
  omega
theorem slot_cover : (Finset.univ : Finset (Fin 4)).biUnion slotSet = Finset.univ := by
  ext i
  simp only [Finset.mem_biUnion, Finset.mem_univ, true_and, iff_true]
  have h0 : (i 0).val < 4 := (i 0).isLt
  have h1 : (i 1).val < 208 := (i 1).isLt
  have h2 : (i 2).val < 128 := (i 2).isLt
  refine ⟨⟨(i 0).val, h0⟩, ?_⟩
  rw [slotN_set, Rect.mem_set_unit]
  intro a
  match a with
  | ⟨0, _⟩ => show (i 0).val ≤ (i 0).val ∧ (i 0).val < (i 0).val + 1; omega
  | ⟨1, _⟩ => show 0 ≤ (i 1).val ∧ (i 1).val < 0 + 208; omega
  | ⟨2, _⟩ => show 0 ≤ (i 2).val ∧ (i 2).val < 0 + 128; omega

section Tile
variable (d : Dev nD) (L : grid0.Coords)

omit [FloatOps F] in
/-- The index scratch whole is its sixteen lists. -/
theorem pts_lists (f : Buf (Elt F) ((V d (cV L) (jV L)).loc cc0_scratch0)) :
    ((sV).view.loc (V d (cV L) (jV L)) ↦{fullShare} f : sProp 𝕄)
      = iprop(((sV).view.loc (V d (cV L) (jV L)) ↦[lstSet 0]{fullShare} f)
        ∗ ((sV).view.loc (V d (cV L) (jV L)) ↦[lstSet 1]{fullShare} f)
        ∗ ((sV).view.loc (V d (cV L) (jV L)) ↦[lstSet 2]{fullShare} f)
        ∗ ((sV).view.loc (V d (cV L) (jV L)) ↦[lstSet 3]{fullShare} f)
        ∗ ((sV).view.loc (V d (cV L) (jV L)) ↦[lstSet 4]{fullShare} f)
        ∗ ((sV).view.loc (V d (cV L) (jV L)) ↦[lstSet 5]{fullShare} f)
        ∗ ((sV).view.loc (V d (cV L) (jV L)) ↦[lstSet 6]{fullShare} f)
        ∗ ((sV).view.loc (V d (cV L) (jV L)) ↦[lstSet 7]{fullShare} f)
        ∗ ((sV).view.loc (V d (cV L) (jV L)) ↦[lstSet 8]{fullShare} f)
        ∗ ((sV).view.loc (V d (cV L) (jV L)) ↦[lstSet 9]{fullShare} f)
        ∗ ((sV).view.loc (V d (cV L) (jV L)) ↦[lstSet 10]{fullShare} f)
        ∗ ((sV).view.loc (V d (cV L) (jV L)) ↦[lstSet 11]{fullShare} f)
        ∗ ((sV).view.loc (V d (cV L) (jV L)) ↦[lstSet 12]{fullShare} f)
        ∗ ((sV).view.loc (V d (cV L) (jV L)) ↦[lstSet 13]{fullShare} f)
        ∗ ((sV).view.loc (V d (cV L) (jV L)) ↦[lstSet 14]{fullShare} f)
        ∗ ((sV).view.loc (V d (cV L) (jV L)) ↦[lstSet 15]{fullShare} f)) := by
  rw [← bigSep_fin16 (fun j => ((sV).view.loc (V d (cV L) (jV L)) ↦[lstSet j]{fullShare} f : sProp 𝕄)),
    ← pointsTo_biUnion (ℓ := (sV).view.loc (V d (cV L) (jV L))) (q := fullShare) (f := f) Finset.univ lstSet lst_disjoint, lst_cover]

omit [FloatOps F] in
/-- The row scratch whole is its four buffers; -/
theorem pts_slots (f : Buf (Elt F) ((V d (cV L) (jV L)).loc cc0_scratch1)) :
    ((rV).view.loc (V d (cV L) (jV L)) ↦{fullShare} f : sProp 𝕄)
      = iprop(((rV).view.loc (V d (cV L) (jV L)) ↦[slotSet 0]{fullShare} f) ∗ ((rV).view.loc (V d (cV L) (jV L)) ↦[slotSet 1]{fullShare} f) ∗ ((rV).view.loc (V d (cV L) (jV L)) ↦[slotSet 2]{fullShare} f) ∗ ((rV).view.loc (V d (cV L) (jV L)) ↦[slotSet 3]{fullShare} f)) := by
  rw [← bigSep_fin4 (fun k => ((rV).view.loc (V d (cV L) (jV L)) ↦[slotSet k]{fullShare} f : sProp 𝕄)),
    ← pointsTo_biUnion (ℓ := (rV).view.loc (V d (cV L) (jV L))) (q := fullShare) (f := f) Finset.univ slotSet slot_disjoint, slot_cover]

omit [FloatOps F] in
/-- and the four buffers, whatever each holds, are the row scratch whole at some contents. -/
theorem slots_join (f0 f1 f2 f3 : Buf (Elt F) ((V d (cV L) (jV L)).loc cc0_scratch1)) :
    iprop(((rV).view.loc (V d (cV L) (jV L)) ↦[slotSet 0]{fullShare} f0) ∗ ((rV).view.loc (V d (cV L) (jV L)) ↦[slotSet 1]{fullShare} f1) ∗ ((rV).view.loc (V d (cV L) (jV L)) ↦[slotSet 2]{fullShare} f2) ∗ ((rV).view.loc (V d (cV L) (jV L)) ↦[slotSet 3]{fullShare} f3))
      ⊢ (iprop(∃ g, (rV).view.loc (V d (cV L) (jV L)) ↦{fullShare} g) : sProp 𝕄) := by
  have e := bigSep_fin4 (F := F) (fun k : Fin 4 => ((rV).view.loc (V d (cV L) (jV L)) ↦[slotSet k]{fullShare}
    (match k with | 0 => f0 | 1 => f1 | 2 => f2 | 3 => f3) : sProp 𝕄))
  refine (Entails.of_eq e.symm).trans ?_
  iintro H
  ihave H' := (pointsTo_biUnion_join (ℓ := (rV).view.loc (V d (cV L) (jV L))) (q := fullShare) (Val := Elt F) Finset.univ slotSet
    (fun k : Fin 4 => match k with | 0 => f0 | 1 => f1 | 2 => f2 | 3 => f3) f0 slot_disjoint) $$ H
  icases H' with ⟨%g, -, Hg⟩
  rw [slot_cover]
  iexists g; iexact Hg

/-! ## The task's semaphores and scratch, out of what the launch deals it -/

abbrev cell (s : DmaSem sig) : GSem nD τ sig := ((V d (cV L) (jV L)), .dma s)
omit [FloatOps F] in
theorem cell_ne {s s' : DmaSem sig} (h : s ≠ s') : cell d L s ≠ cell d L s' := fun e => h (by injection e with _ e2; injection e2)
omit [FloatOps F] in
theorem cell_mem (s : DmaSem sig) : cell d L s ∈ ownCells (V d (cV L) (jV L)) :=
  (mem_ownCells (g := cell d L s)).mpr ⟨rfl, by show (SemLoc.dma s : SemLoc sig).isScoped .scVector = true; revert s; decide⟩

omit [FloatOps F] in
/-- The nine DMA semaphores the kernel names are among the task's own, at zero; the rest stay aside. -/
theorem ownSems0_V :
    (ownSems0 (V d (cV L) (jV L)) : sProp 𝕄)
      = iprop(semVal (cell d L cc0_scratch2.sem) 0
          ∗ semVal (cell d L cc0_scratch3.sem) 0
          ∗ semVal (cell d L cc0_scratch4.sem) 0
          ∗ semVal (cell d L cc0_scratch5.sem) 0
          ∗ semVal (cell d L cc0_scratch6.sem) 0
          ∗ semVal (cell d L cc0_scratch7.sem) 0
          ∗ semVal (cell d L cc0_scratch8.sem) 0
          ∗ semVal (cell d L cc0_scratch9.sem) 0
          ∗ semVal (cell d L cc0_scoped0.sem) 0
          ∗ bigSep ((((((((((ownCells (V d (cV L) (jV L))).erase (cell d L cc0_scratch2.sem)).erase (cell d L cc0_scratch3.sem)).erase (cell d L cc0_scratch4.sem)).erase (cell d L cc0_scratch5.sem)).erase (cell d L cc0_scratch6.sem)).erase (cell d L cc0_scratch7.sem)).erase (cell d L cc0_scratch8.sem)).erase (cell d L cc0_scratch9.sem)).erase (cell d L cc0_scoped0.sem)) fun g => semVal g 0) := by
  unfold SparseCore.Cfg.ownSems0
  rw [SparseCore.bigSep_erase' (cell_mem d L cc0_scratch2.sem),
    SparseCore.bigSep_erase' (Finset.mem_erase.mpr ⟨cell_ne d L (show cc0_scratch3.sem ≠ cc0_scratch2.sem by decide), (cell_mem d L cc0_scratch3.sem)⟩),
    SparseCore.bigSep_erase' (Finset.mem_erase.mpr ⟨cell_ne d L (show cc0_scratch4.sem ≠ cc0_scratch3.sem by decide), (Finset.mem_erase.mpr ⟨cell_ne d L (show cc0_scratch4.sem ≠ cc0_scratch2.sem by decide), (cell_mem d L cc0_scratch4.sem)⟩)⟩),
    SparseCore.bigSep_erase' (Finset.mem_erase.mpr ⟨cell_ne d L (show cc0_scratch5.sem ≠ cc0_scratch4.sem by decide), (Finset.mem_erase.mpr ⟨cell_ne d L (show cc0_scratch5.sem ≠ cc0_scratch3.sem by decide), (Finset.mem_erase.mpr ⟨cell_ne d L (show cc0_scratch5.sem ≠ cc0_scratch2.sem by decide), (cell_mem d L cc0_scratch5.sem)⟩)⟩)⟩),
    SparseCore.bigSep_erase' (Finset.mem_erase.mpr ⟨cell_ne d L (show cc0_scratch6.sem ≠ cc0_scratch5.sem by decide), (Finset.mem_erase.mpr ⟨cell_ne d L (show cc0_scratch6.sem ≠ cc0_scratch4.sem by decide), (Finset.mem_erase.mpr ⟨cell_ne d L (show cc0_scratch6.sem ≠ cc0_scratch3.sem by decide), (Finset.mem_erase.mpr ⟨cell_ne d L (show cc0_scratch6.sem ≠ cc0_scratch2.sem by decide), (cell_mem d L cc0_scratch6.sem)⟩)⟩)⟩)⟩),
    SparseCore.bigSep_erase' (Finset.mem_erase.mpr ⟨cell_ne d L (show cc0_scratch7.sem ≠ cc0_scratch6.sem by decide), (Finset.mem_erase.mpr ⟨cell_ne d L (show cc0_scratch7.sem ≠ cc0_scratch5.sem by decide), (Finset.mem_erase.mpr ⟨cell_ne d L (show cc0_scratch7.sem ≠ cc0_scratch4.sem by decide), (Finset.mem_erase.mpr ⟨cell_ne d L (show cc0_scratch7.sem ≠ cc0_scratch3.sem by decide), (Finset.mem_erase.mpr ⟨cell_ne d L (show cc0_scratch7.sem ≠ cc0_scratch2.sem by decide), (cell_mem d L cc0_scratch7.sem)⟩)⟩)⟩)⟩)⟩),
    SparseCore.bigSep_erase' (Finset.mem_erase.mpr ⟨cell_ne d L (show cc0_scratch8.sem ≠ cc0_scratch7.sem by decide), (Finset.mem_erase.mpr ⟨cell_ne d L (show cc0_scratch8.sem ≠ cc0_scratch6.sem by decide), (Finset.mem_erase.mpr ⟨cell_ne d L (show cc0_scratch8.sem ≠ cc0_scratch5.sem by decide), (Finset.mem_erase.mpr ⟨cell_ne d L (show cc0_scratch8.sem ≠ cc0_scratch4.sem by decide), (Finset.mem_erase.mpr ⟨cell_ne d L (show cc0_scratch8.sem ≠ cc0_scratch3.sem by decide), (Finset.mem_erase.mpr ⟨cell_ne d L (show cc0_scratch8.sem ≠ cc0_scratch2.sem by decide), (cell_mem d L cc0_scratch8.sem)⟩)⟩)⟩)⟩)⟩)⟩),
    SparseCore.bigSep_erase' (Finset.mem_erase.mpr ⟨cell_ne d L (show cc0_scratch9.sem ≠ cc0_scratch8.sem by decide), (Finset.mem_erase.mpr ⟨cell_ne d L (show cc0_scratch9.sem ≠ cc0_scratch7.sem by decide), (Finset.mem_erase.mpr ⟨cell_ne d L (show cc0_scratch9.sem ≠ cc0_scratch6.sem by decide), (Finset.mem_erase.mpr ⟨cell_ne d L (show cc0_scratch9.sem ≠ cc0_scratch5.sem by decide), (Finset.mem_erase.mpr ⟨cell_ne d L (show cc0_scratch9.sem ≠ cc0_scratch4.sem by decide), (Finset.mem_erase.mpr ⟨cell_ne d L (show cc0_scratch9.sem ≠ cc0_scratch3.sem by decide), (Finset.mem_erase.mpr ⟨cell_ne d L (show cc0_scratch9.sem ≠ cc0_scratch2.sem by decide), (cell_mem d L cc0_scratch9.sem)⟩)⟩)⟩)⟩)⟩)⟩)⟩),
    SparseCore.bigSep_erase' (Finset.mem_erase.mpr ⟨cell_ne d L (show cc0_scoped0.sem ≠ cc0_scratch9.sem by decide), (Finset.mem_erase.mpr ⟨cell_ne d L (show cc0_scoped0.sem ≠ cc0_scratch8.sem by decide), (Finset.mem_erase.mpr ⟨cell_ne d L (show cc0_scoped0.sem ≠ cc0_scratch7.sem by decide), (Finset.mem_erase.mpr ⟨cell_ne d L (show cc0_scoped0.sem ≠ cc0_scratch6.sem by decide), (Finset.mem_erase.mpr ⟨cell_ne d L (show cc0_scoped0.sem ≠ cc0_scratch5.sem by decide), (Finset.mem_erase.mpr ⟨cell_ne d L (show cc0_scoped0.sem ≠ cc0_scratch4.sem by decide), (Finset.mem_erase.mpr ⟨cell_ne d L (show cc0_scoped0.sem ≠ cc0_scratch3.sem by decide), (Finset.mem_erase.mpr ⟨cell_ne d L (show cc0_scoped0.sem ≠ cc0_scratch2.sem by decide), (cell_mem d L cc0_scoped0.sem)⟩)⟩)⟩)⟩)⟩)⟩)⟩)⟩)]

omit [FloatOps F] in
/-- The two scratch buffers are among the task's own, at some contents; the rest stay aside. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- A chunk of the output as the task addresses it is that chunk of the TensorCore's array. -/
theorem pts_oCh (w : BitVec 32) (r : Fin 16) (hw : BitVec.ofNat 32 (208 * r.val) = w) (f : Buf (Elt F) (oLoc d)) :
    ((oCh L w r hw).view.loc (V d (cV L) (jV L)) ↦[(oCh L w r hw).view.set]{fullShare} f : sProp 𝕄)
      = oLoc d ↦[Cert.Blocks.chunkSet (cL L, iL L, r)]{fullShare} f := by
  rw [set_oCh]

/-- A chunk of the output holding, element by element, the gathered rows is that chunk of the TensorCore's array at the
    gathered rows. -/
theorem chunk_to (w : BitVec 32) (r : Fin 16) (hw : BitVec.ofNat 32 (208 * r.val) = w) (p : S208x128.Idx → Elt F .f32)
    (h : ∀ y ∈ (oCh L w r hw).view.set, (oCh L w r hw).view.writes (Elt F) (m (oLoc d)) [⟨Rect.whole S208x128, p⟩] y = Go m d y) :
    ((oCh L w r hw).view.loc (V d (cV L) (jV L)) ↦[(oCh L w r hw).view.set]{fullShare}
        (oCh L w r hw).view.writes (Elt F) (m (oLoc d)) [⟨Rect.whole S208x128, p⟩] : sProp 𝕄)
      ⊢ oLoc d ↦[Cert.Blocks.chunkSet (cL L, iL L, r)]{fullShare} Go m d :=
  Entails.of_eq ((pointsTo_congr h).trans (pts_oCh (F := F) d L w r hw _))

set_option maxHeartbeats 8000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ taskRes m d (cL L) (iL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) iV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0)
          fun _ => iprop(taskRes m d (cL L) (iL L) (Go m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  unfold taskRes
  rw [bigSep_fin16, bigSep_fin16]
  iintro ⟨#Hlv, -, ⟨Hi, Ht, Ho0, Ho1, Ho2, Ho3, Ho4, Ho5, Ho6, Ho7, Ho8, Ho9, Ho10, Ho11, Ho12, Ho13, Ho14, Ho15⟩, ⟨⟨%fs, Hs⟩, ⟨%fr, Hr⟩, Hbufs⟩, ⟨Hg0, Hg1, Hg2, Hg3, Hw0, Hw1, Hw2, Hw3, Hsc, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  -- the arrays and the scratch as the task's memrefs address them
  ihave Hi := (Entails.of_eq (show (iLoc d ↦{qT (cL L) (iL L)} Fi m d : sProp 𝕄) = ((iV).view.loc (V d (cV L) (jV L)) ↦{qT (cL L) (iL L)} Fi m d) from rfl)) $$ Hi
  ihave Ht := (Entails.of_eq (show (tLoc d ↦{qT (cL L) (iL L)} m (tLoc d) : sProp 𝕄) = ((tV).view.loc (V d (cV L) (jV L)) ↦{qT (cL L) (iL L)} m (tLoc d)) from rfl)) $$ Ht
  ihave Ho0 := (Entails.of_eq (pts_oCh (F := F) d L 0#32 0 rfl (m (oLoc d))).symm) $$ Ho0
  ihave Ho1 := (Entails.of_eq (pts_oCh (F := F) d L 208#32 1 rfl (m (oLoc d))).symm) $$ Ho1
  ihave Ho2 := (Entails.of_eq (pts_oCh (F := F) d L 416#32 2 rfl (m (oLoc d))).symm) $$ Ho2
  ihave Ho3 := (Entails.of_eq (pts_oCh (F := F) d L 624#32 3 rfl (m (oLoc d))).symm) $$ Ho3
  ihave Ho4 := (Entails.of_eq (pts_oCh (F := F) d L 832#32 4 rfl (m (oLoc d))).symm) $$ Ho4
  ihave Ho5 := (Entails.of_eq (pts_oCh (F := F) d L 1040#32 5 rfl (m (oLoc d))).symm) $$ Ho5
  ihave Ho6 := (Entails.of_eq (pts_oCh (F := F) d L 1248#32 6 rfl (m (oLoc d))).symm) $$ Ho6
  ihave Ho7 := (Entails.of_eq (pts_oCh (F := F) d L 1456#32 7 rfl (m (oLoc d))).symm) $$ Ho7
  ihave Ho8 := (Entails.of_eq (pts_oCh (F := F) d L 1664#32 8 rfl (m (oLoc d))).symm) $$ Ho8
  ihave Ho9 := (Entails.of_eq (pts_oCh (F := F) d L 1872#32 9 rfl (m (oLoc d))).symm) $$ Ho9
  ihave Ho10 := (Entails.of_eq (pts_oCh (F := F) d L 2080#32 10 rfl (m (oLoc d))).symm) $$ Ho10
  ihave Ho11 := (Entails.of_eq (pts_oCh (F := F) d L 2288#32 11 rfl (m (oLoc d))).symm) $$ Ho11
  ihave Ho12 := (Entails.of_eq (pts_oCh (F := F) d L 2496#32 12 rfl (m (oLoc d))).symm) $$ Ho12
  ihave Ho13 := (Entails.of_eq (pts_oCh (F := F) d L 2704#32 13 rfl (m (oLoc d))).symm) $$ Ho13
  ihave Ho14 := (Entails.of_eq (pts_oCh (F := F) d L 2912#32 14 rfl (m (oLoc d))).symm) $$ Ho14
  ihave Ho15 := (Entails.of_eq (pts_oCh (F := F) d L 3120#32 15 rfl (m (oLoc d))).symm) $$ Ho15
  ihave Hs := (Entails.of_eq (show ((V d (cV L) (jV L)).loc cc0_scratch0 ↦{fullShare} fs : sProp 𝕄) = ((sV).view.loc (V d (cV L) (jV L)) ↦{fullShare} fs) from rfl)) $$ Hs
  ihave Hr := (Entails.of_eq (pts_slots (F := F) d L fr)) $$ Hr
  icases Hr with ⟨Hr0, Hr1, Hr2, Hr3⟩
  ihave Hr0 := (Entails.of_eq (show ((rV).view.loc (V d (cV L) (jV L)) ↦[slotSet 0]{fullShare} fr : sProp 𝕄) = ((slot 0 inb_S4x208x128_S1x208x128_0_0_0).view.loc (V d (cV L) (jV L)) ↦[(slot 0 inb_S4x208x128_S1x208x128_0_0_0).view.set]{fullShare} fr) from rfl)) $$ Hr0
  ihave Hr1 := (Entails.of_eq (show ((rV).view.loc (V d (cV L) (jV L)) ↦[slotSet 1]{fullShare} fr : sProp 𝕄) = ((slot 1 inb_S4x208x128_S1x208x128_1_0_0).view.loc (V d (cV L) (jV L)) ↦[(slot 1 inb_S4x208x128_S1x208x128_1_0_0).view.set]{fullShare} fr) from rfl)) $$ Hr1
  ihave Hr2 := (Entails.of_eq (show ((rV).view.loc (V d (cV L) (jV L)) ↦[slotSet 2]{fullShare} fr : sProp 𝕄) = ((slot 2 inb_S4x208x128_S1x208x128_2_0_0).view.loc (V d (cV L) (jV L)) ↦[(slot 2 inb_S4x208x128_S1x208x128_2_0_0).view.set]{fullShare} fr) from rfl)) $$ Hr2
  ihave Hr3 := (Entails.of_eq (show ((rV).view.loc (V d (cV L) (jV L)) ↦[slotSet 3]{fullShare} fr : sProp 𝕄) = ((slot 3 inb_S4x208x128_S1x208x128_3_0_0).view.loc (V d (cV L) (jV L)) ↦[(slot 3 inb_S4x208x128_S1x208x128_3_0_0).view.set]{fullShare} fr) from rfl)) $$ Hr3
  -- the task's block of index words into the index scratch
  sl_exec
  -- the scratch as the sixteen lists, every word in range
  have hin := lst_words_lt (F := F) L (hpre d) fs _ rfl
  ihave Hs := (Entails.of_eq (pts_lists (F := F) d L _)) $$ Hs
  icases Hs with ⟨Hl0, Hl1, Hl2, Hl3, Hl4, Hl5, Hl6, Hl7, Hl8, Hl9, Hl10, Hl11, Hl12, Hl13, Hl14, Hl15⟩
  ihave Hl0 := (Entails.of_eq (show ((sV).view.loc (V d (cV L) (jV L)) ↦[lstSet 0]{fullShare} _ : sProp 𝕄) = ((lst 0 inb_S3328_S208_0).view.loc (V d (cV L) (jV L)) ↦[(lst 0 inb_S3328_S208_0).view.set]{fullShare} _) from rfl)) $$ Hl0
  ihave Hl1 := (Entails.of_eq (show ((sV).view.loc (V d (cV L) (jV L)) ↦[lstSet 1]{fullShare} _ : sProp 𝕄) = ((lst 208 inb_S3328_S208_208).view.loc (V d (cV L) (jV L)) ↦[(lst 208 inb_S3328_S208_208).view.set]{fullShare} _) from rfl)) $$ Hl1
  ihave Hl2 := (Entails.of_eq (show ((sV).view.loc (V d (cV L) (jV L)) ↦[lstSet 2]{fullShare} _ : sProp 𝕄) = ((lst 416 inb_S3328_S208_416).view.loc (V d (cV L) (jV L)) ↦[(lst 416 inb_S3328_S208_416).view.set]{fullShare} _) from rfl)) $$ Hl2
  ihave Hl3 := (Entails.of_eq (show ((sV).view.loc (V d (cV L) (jV L)) ↦[lstSet 3]{fullShare} _ : sProp 𝕄) = ((lst 624 inb_S3328_S208_624).view.loc (V d (cV L) (jV L)) ↦[(lst 624 inb_S3328_S208_624).view.set]{fullShare} _) from rfl)) $$ Hl3
  ihave Hl4 := (Entails.of_eq (show ((sV).view.loc (V d (cV L) (jV L)) ↦[lstSet 4]{fullShare} _ : sProp 𝕄) = ((lst 832 inb_S3328_S208_832).view.loc (V d (cV L) (jV L)) ↦[(lst 832 inb_S3328_S208_832).view.set]{fullShare} _) from rfl)) $$ Hl4
  ihave Hl5 := (Entails.of_eq (show ((sV).view.loc (V d (cV L) (jV L)) ↦[lstSet 5]{fullShare} _ : sProp 𝕄) = ((lst 1040 inb_S3328_S208_1040).view.loc (V d (cV L) (jV L)) ↦[(lst 1040 inb_S3328_S208_1040).view.set]{fullShare} _) from rfl)) $$ Hl5
  ihave Hl6 := (Entails.of_eq (show ((sV).view.loc (V d (cV L) (jV L)) ↦[lstSet 6]{fullShare} _ : sProp 𝕄) = ((lst 1248 inb_S3328_S208_1248).view.loc (V d (cV L) (jV L)) ↦[(lst 1248 inb_S3328_S208_1248).view.set]{fullShare} _) from rfl)) $$ Hl6
  ihave Hl7 := (Entails.of_eq (show ((sV).view.loc (V d (cV L) (jV L)) ↦[lstSet 7]{fullShare} _ : sProp 𝕄) = ((lst 1456 inb_S3328_S208_1456).view.loc (V d (cV L) (jV L)) ↦[(lst 1456 inb_S3328_S208_1456).view.set]{fullShare} _) from rfl)) $$ Hl7
  ihave Hl8 := (Entails.of_eq (show ((sV).view.loc (V d (cV L) (jV L)) ↦[lstSet 8]{fullShare} _ : sProp 𝕄) = ((lst 1664 inb_S3328_S208_1664).view.loc (V d (cV L) (jV L)) ↦[(lst 1664 inb_S3328_S208_1664).view.set]{fullShare} _) from rfl)) $$ Hl8
  ihave Hl9 := (Entails.of_eq (show ((sV).view.loc (V d (cV L) (jV L)) ↦[lstSet 9]{fullShare} _ : sProp 𝕄) = ((lst 1872 inb_S3328_S208_1872).view.loc (V d (cV L) (jV L)) ↦[(lst 1872 inb_S3328_S208_1872).view.set]{fullShare} _) from rfl)) $$ Hl9
  ihave Hl10 := (Entails.of_eq (show ((sV).view.loc (V d (cV L) (jV L)) ↦[lstSet 10]{fullShare} _ : sProp 𝕄) = ((lst 2080 inb_S3328_S208_2080).view.loc (V d (cV L) (jV L)) ↦[(lst 2080 inb_S3328_S208_2080).view.set]{fullShare} _) from rfl)) $$ Hl10
  ihave Hl11 := (Entails.of_eq (show ((sV).view.loc (V d (cV L) (jV L)) ↦[lstSet 11]{fullShare} _ : sProp 𝕄) = ((lst 2288 inb_S3328_S208_2288).view.loc (V d (cV L) (jV L)) ↦[(lst 2288 inb_S3328_S208_2288).view.set]{fullShare} _) from rfl)) $$ Hl11
  ihave Hl12 := (Entails.of_eq (show ((sV).view.loc (V d (cV L) (jV L)) ↦[lstSet 12]{fullShare} _ : sProp 𝕄) = ((lst 2496 inb_S3328_S208_2496).view.loc (V d (cV L) (jV L)) ↦[(lst 2496 inb_S3328_S208_2496).view.set]{fullShare} _) from rfl)) $$ Hl12
  ihave Hl13 := (Entails.of_eq (show ((sV).view.loc (V d (cV L) (jV L)) ↦[lstSet 13]{fullShare} _ : sProp 𝕄) = ((lst 2704 inb_S3328_S208_2704).view.loc (V d (cV L) (jV L)) ↦[(lst 2704 inb_S3328_S208_2704).view.set]{fullShare} _) from rfl)) $$ Hl13
  ihave Hl14 := (Entails.of_eq (show ((sV).view.loc (V d (cV L) (jV L)) ↦[lstSet 14]{fullShare} _ : sProp 𝕄) = ((lst 2912 inb_S3328_S208_2912).view.loc (V d (cV L) (jV L)) ↦[(lst 2912 inb_S3328_S208_2912).view.set]{fullShare} _) from rfl)) $$ Hl14
  ihave Hl15 := (Entails.of_eq (show ((sV).view.loc (V d (cV L) (jV L)) ↦[lstSet 15]{fullShare} _ : sProp 𝕄) = ((lst 3120 inb_S3328_S208_3120).view.loc (V d (cV L) (jV L)) ↦[(lst 3120 inb_S3328_S208_3120).view.set]{fullShare} _) from rfl)) $$ Hl15
  -- the table as one read token per gather semaphore
  ihave Ht := ((Transfers.pointsTo_toks_split (Ix := HIx 1) (Name := ℕ) (U := UU) (Lvl := ℕ) (qT (cL L) (iL L)) 4).trans (Entails.of_eq (by rw [bigSep_fin4]))) $$ Ht
  icases Ht with ⟨Htr, Ht0, Ht1, Ht2, Ht3⟩
  -- the sixteen gathers, copies out and their waits
  sl_exec
  sl_step
  -- what each chunk of the output now holds
  ihave Ho0 := (chunk_to (F := F) m d L 0#32 0 rfl (tile_body.sl.dma0_1 m d L fs fr hin)
    (chunk_value (F := F) L d 0 0#32 rfl 0 inb_S4x208x128_S1x208x128_0_0_0 0 inb_S3328_S208_0 rfl (Fi m d) (hpre d) (m (tLoc d)) (m (oLoc d)) fs fr _ rfl _ (hin 0 inb_S3328_S208_0) _)) $$ Ho0
  ihave Ho1 := (chunk_to (F := F) m d L 208#32 1 rfl (tile_body.sl.dma0_2 m d L fs fr hin)
    (chunk_value (F := F) L d 1 208#32 rfl 1 inb_S4x208x128_S1x208x128_1_0_0 208 inb_S3328_S208_208 rfl (Fi m d) (hpre d) (m (tLoc d)) (m (oLoc d)) fs fr _ rfl _ (hin 208 inb_S3328_S208_208) _)) $$ Ho1
  ihave Ho2 := (chunk_to (F := F) m d L 416#32 2 rfl (tile_body.sl.dma0_3 m d L fs fr hin)
    (chunk_value (F := F) L d 2 416#32 rfl 2 inb_S4x208x128_S1x208x128_2_0_0 416 inb_S3328_S208_416 rfl (Fi m d) (hpre d) (m (tLoc d)) (m (oLoc d)) fs fr _ rfl _ (hin 416 inb_S3328_S208_416) _)) $$ Ho2
  ihave Ho3 := (chunk_to (F := F) m d L 624#32 3 rfl (tile_body.sl.dma0_4 m d L fs fr hin)
    (chunk_value (F := F) L d 3 624#32 rfl 3 inb_S4x208x128_S1x208x128_3_0_0 624 inb_S3328_S208_624 rfl (Fi m d) (hpre d) (m (tLoc d)) (m (oLoc d)) fs fr _ rfl _ (hin 624 inb_S3328_S208_624) _)) $$ Ho3
  ihave Ho4 := (chunk_to (F := F) m d L 832#32 4 rfl (tile_body.sl.dma0_5 m d L fs fr hin)
    (chunk_value (F := F) L d 4 832#32 rfl 0 inb_S4x208x128_S1x208x128_0_0_0 832 inb_S3328_S208_832 rfl (Fi m d) (hpre d) (m (tLoc d)) (m (oLoc d)) fs fr _ rfl _ (hin 832 inb_S3328_S208_832) _)) $$ Ho4
  ihave Ho5 := (chunk_to (F := F) m d L 1040#32 5 rfl (tile_body.sl.dma0_6 m d L fs fr hin)
    (chunk_value (F := F) L d 5 1040#32 rfl 1 inb_S4x208x128_S1x208x128_1_0_0 1040 inb_S3328_S208_1040 rfl (Fi m d) (hpre d) (m (tLoc d)) (m (oLoc d)) fs fr _ rfl _ (hin 1040 inb_S3328_S208_1040) _)) $$ Ho5
  ihave Ho6 := (chunk_to (F := F) m d L 1248#32 6 rfl (tile_body.sl.dma0_7 m d L fs fr hin)
    (chunk_value (F := F) L d 6 1248#32 rfl 2 inb_S4x208x128_S1x208x128_2_0_0 1248 inb_S3328_S208_1248 rfl (Fi m d) (hpre d) (m (tLoc d)) (m (oLoc d)) fs fr _ rfl _ (hin 1248 inb_S3328_S208_1248) _)) $$ Ho6
  ihave Ho7 := (chunk_to (F := F) m d L 1456#32 7 rfl (tile_body.sl.dma0_8 m d L fs fr hin)
    (chunk_value (F := F) L d 7 1456#32 rfl 3 inb_S4x208x128_S1x208x128_3_0_0 1456 inb_S3328_S208_1456 rfl (Fi m d) (hpre d) (m (tLoc d)) (m (oLoc d)) fs fr _ rfl _ (hin 1456 inb_S3328_S208_1456) _)) $$ Ho7
  ihave Ho8 := (chunk_to (F := F) m d L 1664#32 8 rfl (tile_body.sl.dma0_9 m d L fs fr hin)
    (chunk_value (F := F) L d 8 1664#32 rfl 0 inb_S4x208x128_S1x208x128_0_0_0 1664 inb_S3328_S208_1664 rfl (Fi m d) (hpre d) (m (tLoc d)) (m (oLoc d)) fs fr _ rfl _ (hin 1664 inb_S3328_S208_1664) _)) $$ Ho8
  ihave Ho9 := (chunk_to (F := F) m d L 1872#32 9 rfl (tile_body.sl.dma0_10 m d L fs fr hin)
    (chunk_value (F := F) L d 9 1872#32 rfl 1 inb_S4x208x128_S1x208x128_1_0_0 1872 inb_S3328_S208_1872 rfl (Fi m d) (hpre d) (m (tLoc d)) (m (oLoc d)) fs fr _ rfl _ (hin 1872 inb_S3328_S208_1872) _)) $$ Ho9
  ihave Ho10 := (chunk_to (F := F) m d L 2080#32 10 rfl (tile_body.sl.dma0_11 m d L fs fr hin)
    (chunk_value (F := F) L d 10 2080#32 rfl 2 inb_S4x208x128_S1x208x128_2_0_0 2080 inb_S3328_S208_2080 rfl (Fi m d) (hpre d) (m (tLoc d)) (m (oLoc d)) fs fr _ rfl _ (hin 2080 inb_S3328_S208_2080) _)) $$ Ho10
  ihave Ho11 := (chunk_to (F := F) m d L 2288#32 11 rfl (tile_body.sl.dma0_12 m d L fs fr hin)
    (chunk_value (F := F) L d 11 2288#32 rfl 3 inb_S4x208x128_S1x208x128_3_0_0 2288 inb_S3328_S208_2288 rfl (Fi m d) (hpre d) (m (tLoc d)) (m (oLoc d)) fs fr _ rfl _ (hin 2288 inb_S3328_S208_2288) _)) $$ Ho11
  ihave Ho12 := (chunk_to (F := F) m d L 2496#32 12 rfl (tile_body.sl.dma0_13 m d L fs fr hin)
    (chunk_value (F := F) L d 12 2496#32 rfl 0 inb_S4x208x128_S1x208x128_0_0_0 2496 inb_S3328_S208_2496 rfl (Fi m d) (hpre d) (m (tLoc d)) (m (oLoc d)) fs fr _ rfl _ (hin 2496 inb_S3328_S208_2496) _)) $$ Ho12
  ihave Ho13 := (chunk_to (F := F) m d L 2704#32 13 rfl (tile_body.sl.dma0_14 m d L fs fr hin)
    (chunk_value (F := F) L d 13 2704#32 rfl 1 inb_S4x208x128_S1x208x128_1_0_0 2704 inb_S3328_S208_2704 rfl (Fi m d) (hpre d) (m (tLoc d)) (m (oLoc d)) fs fr _ rfl _ (hin 2704 inb_S3328_S208_2704) _)) $$ Ho13
  ihave Ho14 := (chunk_to (F := F) m d L 2912#32 14 rfl (tile_body.sl.dma0_15 m d L fs fr hin)
    (chunk_value (F := F) L d 14 2912#32 rfl 2 inb_S4x208x128_S1x208x128_2_0_0 2912 inb_S3328_S208_2912 rfl (Fi m d) (hpre d) (m (tLoc d)) (m (oLoc d)) fs fr _ rfl _ (hin 2912 inb_S3328_S208_2912) _)) $$ Ho14
  ihave Ho15 := (chunk_to (F := F) m d L 3120#32 15 rfl (tile_body.sl.dma0_16 m d L fs fr hin)
    (chunk_value (F := F) L d 15 3120#32 rfl 3 inb_S4x208x128_S1x208x128_3_0_0 3120 inb_S3328_S208_3120 rfl (Fi m d) (hpre d) (m (tLoc d)) (m (oLoc d)) fs fr _ rfl _ (hin 3120 inb_S3328_S208_3120) _)) $$ Ho15
  -- the read tokens back into the task's share of the table
  ihave Ht := ((show _ ⊢ _ from Entails.of_eq (by rw [bigSep_fin4])).trans
    (Transfers.pointsTo_toks_join (Ix := HIx 1) (Name := ℕ) (U := UU) (Lvl := ℕ) (ℓ := (tV).view.loc (V d (cV L) (jV L))) (S := Finset.univ) (f := m (tLoc d)) (qT (cL L) (iL L)) 4)) $$ [Htr Ht0 Ht1 Ht2 Ht3]
  · isplitl [Htr]; · iexact Htr
    isplitl [Ht0]; · iexact Ht0
    isplitl [Ht1]; · iexact Ht1
    isplitl [Ht2]; · iexact Ht2
    iexact Ht3
  -- the task's holdings
  isplitl [Hi Ht Ho0 Ho1 Ho2 Ho3 Ho4 Ho5 Ho6 Ho7 Ho8 Ho9 Ho10 Ho11 Ho12 Ho13 Ho14 Ho15]
  · isplitl [Hi]; · iexact Hi
    isplitl [Ht]; · iexact Ht
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  -- the scratch buffers
  isplitl [Hl0 Hl1 Hl2 Hl3 Hl4 Hl5 Hl6 Hl7 Hl8 Hl9 Hl10 Hl11 Hl12 Hl13 Hl14 Hl15 Hr0 Hr1 Hr2 Hr3 Hbufs]
  · isplitl [Hl0 Hl1 Hl2 Hl3 Hl4 Hl5 Hl6 Hl7 Hl8 Hl9 Hl10 Hl11 Hl12 Hl13 Hl14 Hl15]
    · iexists _
      iapply (Entails.of_eq (pts_lists (F := F) d L _).symm)
      isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      isplitl [Hl6]; · iexact Hl6
      isplitl [Hl7]; · iexact Hl7
      isplitl [Hl8]; · iexact Hl8
      isplitl [Hl9]; · iexact Hl9
      isplitl [Hl10]; · iexact Hl10
      isplitl [Hl11]; · iexact Hl11
      isplitl [Hl12]; · iexact Hl12
      isplitl [Hl13]; · iexact Hl13
      isplitl [Hl14]; · iexact Hl14
      iexact Hl15
    isplitl [Hr0 Hr1 Hr2 Hr3]
    · iapply (slots_join (F := F) d L _ _ _ _)
      isplitl [Hr0]; · iexact Hr0
      isplitl [Hr1]; · iexact Hr1
      isplitl [Hr2]; · iexact Hr2
      iexact Hr3
    iexact Hbufs
  -- the semaphores, all at zero again
  isplitl [Hg0 Hg1 Hg2 Hg3 Hw0 Hw1 Hw2 Hw3 Hsc Hsems]
  · isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    isplitl [Hsc]; · iexact Hsc
    iexact Hsems
  iexists _; isplitr
  swap; · iexact HO
  ipureintro; intro p hp
  repeat (rcases Finset.mem_insert.mp hp with hp | hp; · exact .inr (hp ▸ rfl))
  exact .inl hp

end Tile
end Cert.KW
end
-- ==== Proof.Word.Launch.lean ====
/-
  The whole program from the tasks. The call hands each SparseCore its sixteen tasks' holdings (read shares of the
  flattened index array and of the table, the chunks of their blocks of the output) and takes them back with every chunk
  at the gathered rows. @main on the TensorCore reshapes the index array, makes the call — cutting the three arrays
  into the thirty-two tasks' holdings and joining them again — and reshapes the gathered rows. Every weakly fair
  execution of all the threads then terminates with the result at the lookup and the two arguments unchanged.
-/
import proofs.«207303_g8950711845028_cont_9to1c4b_501_30_alg».proof.Proof.Word.Task

noncomputable section

namespace Cert.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.Kernel.main_arg1_scv : Memref Cert.Kernel.sig Kind.scVector Space.hbm Cert.Kernel.S100000x128 EltTy.f32)
local notation "iV" => (Memref.whole Cert.Kernel.main_v0_scv : Memref Cert.Kernel.sig Kind.scVector Space.hbm Cert.Kernel.S106496 EltTy.i32)
local notation "oV" => (Memref.whole Cert.Kernel.main_v1_scv : Memref Cert.Kernel.sig Kind.scVector Space.hbm Cert.Kernel.S106496x128 EltTy.f32)
local notation "sV" => (Memref.whole Cert.Kernel.cc0_scratch0 : Memref Cert.Kernel.sig Kind.scVector Space.vmem Cert.Kernel.S3328 EltTy.i32)
local notation "rV" => (Memref.whole Cert.Kernel.cc0_scratch1 : Memref Cert.Kernel.sig Kind.scVector Space.vmem Cert.Kernel.S4x208x128 EltTy.f32)

variable (m : (ℓ : Loc nD τ sig) → Buf (Elt F) ℓ) (ρ : Dev nD → PrngReg)
variable [FloatOps F]

/-! ## What the handshakes carry -/

def P : (K (F := F)).Pay (nD := nD) (Val := Elt F) (Name := ℕ) (U := UU) where
  st := fun q d c => match q with
    | 0 => bigSep Finset.univ fun i : Fin 16 => taskRes m d (Fin.cast nCore_zero c) i (m (oLoc d))
  dn := fun q d c => match q with
    | 0 => bigSep Finset.univ fun i : Fin 16 => taskRes m d (Fin.cast nCore_zero c) i (Go m d)
  go := fun q d c i => match q with
    | 0 => taskRes m d (Fin.cast nCore_zero c) (Fin.cast nSub_zero i) (m (oLoc d))
  td := fun q d c i => match q with
    | 0 => taskRes m d (Fin.cast nCore_zero c) (Fin.cast nSub_zero i) (Go m d)
  x := fun _ _ => iprop(emp)

instance taskRes_storable (d : Dev nD) (c : Fin 2) (i : Fin 16) (fo : Buf (Elt F) (oLoc d)) :
    BI.Storable (upEmb : UEmb _ 𝕄) (taskRes m d c i fo) := by
  unfold taskRes; infer_instance

instance P_storable : (P (F := F) m).IsStorable where
  st q d c := match q with
    | 0 => (inferInstance : BI.Storable (upEmb : UEmb _ 𝕄) (bigSep Finset.univ fun i : Fin 16 => taskRes m d (Fin.cast nCore_zero c) i (m (oLoc d))))
  dn q d c := match q with
    | 0 => (inferInstance : BI.Storable (upEmb : UEmb _ 𝕄) (bigSep Finset.univ fun i : Fin 16 => taskRes m d (Fin.cast nCore_zero c) i (Go m d)))
  go q d c i := match q with
    | 0 => (inferInstance : BI.Storable (upEmb : UEmb _ 𝕄) (taskRes m d (Fin.cast nCore_zero c) (Fin.cast nSub_zero i) (m (oLoc d))))
  td q d c i := match q with
    | 0 => (inferInstance : BI.Storable (upEmb : UEmb _ 𝕄) (taskRes m d (Fin.cast nCore_zero c) (Fin.cast nSub_zero i) (Go m d)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          tV (Memref.isWhole_whole _) iV (Memref.isWhole_whole _) oV (Memref.isWhole_whole _)
          sV (Memref.isWhole_whole _) rV (Memref.isWhole_whole _) cc0_scratch2 cc0_scratch3 cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A SparseCore's holdings are its tasks' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => taskRes m d (Fin.cast nCore_zero c) i (m (oLoc d))) ⊢ |={Set.univ}=> iprop(
      (bigSep Finset.univ fun i : Fin ((K (F := F)).nSub 0) => taskRes m d (Fin.cast nCore_zero c) (Fin.cast nSub_zero i) (m (oLoc d)))
      ∗ ((bigSep Finset.univ fun i : Fin ((K (F := F)).nSub 0) => taskRes m d (Fin.cast nCore_zero c) (Fin.cast nSub_zero i) (Go m d))
          -∗ bigSep Finset.univ fun i : Fin 16 => taskRes m d (Fin.cast nCore_zero c) i (Go m d)))
  rw [bigSep_tasks (F := F) (fun i => taskRes m d (Fin.cast nCore_zero c) i (m (oLoc d))),
    bigSep_tasks (F := F) (fun i => taskRes m d (Fin.cast nCore_zero c) i (Go m d))]
  iintro H; imodintro
  isplitl [H]; · iexact H
  iintro H; iexact H

/-! ## The arrays whole are the thirty-two tasks' holdings -/

theorem res_eq (d : Dev nD) (fo : Buf (Elt F) (oLoc d)) :
    (bigSep Finset.univ fun c : Fin 2 => bigSep Finset.univ fun i : Fin 16 => taskRes m d c i fo)
      = iprop((iLoc d ↦{fullShare} Fi m d) ∗ (tLoc d ↦{fullShare} m (tLoc d)) ∗ (oLoc d ↦{fullShare} fo)) := by
  have hsh : ∀ (ℓ : Loc nD τ sig) (f : Buf (Elt F) ℓ), (ℓ ↦{fullShare} f : sProp 𝕄)
      = bigSep Finset.univ fun c : Fin 2 => bigSep Finset.univ fun i : Fin 16 => ℓ ↦{qT c i} f := by
    intro ℓ f
    rw [pointsTo_piecesOf Finset.univ f (by decide : 0 < 2) fullShare]
    exact bigSep_congr fun c _ => pointsTo_piecesOf Finset.univ f (by decide : 0 < 16) (qC c)
  have hch : (oLoc d ↦{fullShare} fo : sProp 𝕄)
      = bigSep Finset.univ fun c : Fin 2 => bigSep Finset.univ fun i : Fin 16 => bigSep Finset.univ fun j : Fin 16 =>
          oLoc d ↦[Cert.Blocks.chunkSet (c, i, j)]{fullShare} fo := by
    rw [show (oLoc d ↦{fullShare} fo : sProp 𝕄) = oLoc d ↦[(Finset.univ : Finset (Fin 2 × Fin 16 × Fin 16)).biUnion Cert.Blocks.chunkSet]{fullShare} fo from by
        rw [Cert.Blocks.chunk_cover],
      pointsTo_biUnion (ℓ := oLoc d) (q := fullShare) (f := fo) Finset.univ Cert.Blocks.chunkSet Cert.Blocks.chunk_disjoint, bigSep_univ_prod]
    exact bigSep_congr fun c _ => bigSep_univ_prod _
  rw [hsh (iLoc d), hsh (tLoc d), hch]
  unfold taskRes
  simp only [bigSep_sep']

theorem st0_eq (d : Dev nD) : (bigSep Finset.univ fun c : Fin ((K (F := F)).nCore 0) => (P m).st 0 d c)
    = iprop((iLoc d ↦{fullShare} Fi m d) ∗ (tLoc d ↦{fullShare} m (tLoc d)) ∗ (oLoc d ↦{fullShare} m (oLoc d))) := by
  show (bigSep Finset.univ fun c : Fin ((K (F := F)).nCore 0) => bigSep Finset.univ fun i : Fin 16 => taskRes m d (Fin.cast nCore_zero c) i (m (oLoc d))) = _
  rw [bigSep_cores (F := F) (fun c => bigSep Finset.univ fun i : Fin 16 => taskRes m d c i (m (oLoc d))), res_eq]
theorem dn0_eq (d : Dev nD) : (bigSep Finset.univ fun c : Fin ((K (F := F)).nCore 0) => (P m).dn 0 d c)
    = iprop((iLoc d ↦{fullShare} Fi m d) ∗ (tLoc d ↦{fullShare} m (tLoc d)) ∗ (oLoc d ↦{fullShare} Go m d)) := by
  show (bigSep Finset.univ fun c : Fin ((K (F := F)).nCore 0) => bigSep Finset.univ fun i : Fin 16 => taskRes m d (Fin.cast nCore_zero c) i (Go m d)) = _
  rw [bigSep_cores (F := F) (fun c => bigSep Finset.univ fun i : Fin 16 => taskRes m d c i (Go m d)), res_eq]

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opFlat : HloOp τ sig (Elt F) := StableHlo.reshape main_arg0 main_v0 rfl shapeCasts_S4096x26_S106496
abbrev opOut : HloOp τ sig (Elt F) := StableHlo.reshape main_v1 main_v2 rfl shapeCasts_S106496x128_S4096x26x128

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]

omit [FloatOps F] in
theorem held_pair (d : Dev nD) (x y : DevRef τ sig) (h : x ≠ y) (Vv : Valuation τ sig (Elt F)) :
    (StableHlo.held (T d) {x, y} Vv : sProp 𝕄) = iprop(((d, x) ↦{fullShare} Vv x) ∗ ((d, y) ↦{fullShare} Vv y)) := by
  unfold StableHlo.held
  rw [SparseCore.bigSep_insert' (by rw [Finset.mem_singleton]; exact h), bigSep_singleton]

/-- The launch valuation, and the one before the second reshape (the gathered rows in place). -/
def V0 (d : Dev nD) : Valuation τ sig (Elt F) := fun b => m (d, b)
def V1 (d : Dev nD) : Valuation τ sig (Elt F) := Function.update (V0 m d) o' (Go m d)

abbrev FIN (d : Dev nD) : sProp 𝕄 := iprop((rLoc d ↦{fullShare} Res m d) ∗ (aLoc d ↦{fullShare} m (aLoc d)) ∗ (tLoc d ↦{fullShare} m (tLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Hi, Ho, Hr⟩, -, -⟩, -⟩
  -- the index array, flattened
  iapply (StableHlo.wp_hlo_within 𝒱 (SparseCore.T d) none Set.univ (op := opFlat (F := F)) (S := {a', i'}) (Finset.Subset.refl _) (V := V0 m d)) $$ [Hb Ha Hi]
  · isplitl [Hb]; · iexact Hb
    rw [held_pair (F := F) d a' i' (by decide)]
    isplitl [Ha]; · iexact Ha
    iexact Hi
  iintro ⟨Hb, Hh⟩
  ihave Hh := (Entails.of_eq (held_pair (F := F) d a' i' (by decide) _)) $$ Hh
  icases Hh with ⟨Ha, Hi⟩
  have eA : (opFlat (F := F)).result (V0 m d) a' = m (aLoc d) :=
    StableHlo.reshape_result_ne (x := main_arg0) (y := main_v0) _ _ _ _ (V0 m d) (show (main_arg0 : Ref sig .tc) ≠ main_v0 by decide)
  have eI : (opFlat (F := F)).result (V0 m d) i' = Fi m d := StableHlo.reshape_result _ _ _ _ _ _ (V0 m d)
  ihave Ha := (Entails.of_eq (congrArg (fun f => (aLoc d ↦{fullShare} f : sProp 𝕄)) eA)) $$ Ha
  ihave Hi := (Entails.of_eq (congrArg (fun f => (iLoc d ↦{fullShare} f : sProp 𝕄)) eI)) $$ Hi
  rw [wp_ret]; imodintro
  -- the call: the three arrays cut into the thirty-two tasks' holdings, and joined again
  iapply ((K (F := F)).wp_run (D (F := F)) 𝒱 (EH := EH) (P := P m) κ d 0) $$ [Hst Hi Ht Ho Hb Ha Hr]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  -- the gathered rows, reshaped
  have e1o : V1 m d o' = Go m d := Function.update_self _ _ _
  have e1r : V1 m d r' = m (rLoc d) := Function.update_of_ne (show r' ≠ o' by decide) _ _
  iapply (StableHlo.wp_hlo_within 𝒱 (SparseCore.T d) none Set.univ (op := opOut (F := F)) (S := {o', r'}) (Finset.Subset.refl _) (V := V1 m d)) $$ [Hb Ho Hr]
  · isplitl [Hb]; · iexact Hb
    rw [held_pair (F := F) d o' r' (by decide), e1o, e1r]
    isplitl [Ho]; · iexact Ho
    iexact Hr
  iintro ⟨Hb, Hh⟩
  ihave Hh := (Entails.of_eq (held_pair (F := F) d o' r' (by decide) _)) $$ Hh
  icases Hh with ⟨-, Hr⟩
  have eR : (opOut (F := F)).result (V1 m d) r' = Res m d := by
    rw [show (opOut (F := F)).result (V1 m d) r' = _ from StableHlo.reshape_result _ _ _ _ _ _ (V1 m d), e1o]; rfl
  ihave Hr := (Entails.of_eq (congrArg (fun f => (rLoc d ↦{fullShare} f : sProp 𝕄)) eR)) $$ Hr
  rw [wp_ret]; imodintro; imodintro
  isplitl [Hst]; · iexact Hst
  isplitl [Hr]; · iexact Hr
  isplitl [Ha]; · iexact Ha
  iexact Ht

def fq (d : Dev nD) (s' : Phys nD τ sig (Elt F)) : Prop :=
  s'.mem.mem (rLoc d) = Res m d ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha, Ht⟩, HSI⟩
  ihave H := (persistent_entails_right (SI_pointsTo_agree (st := s') (ℓ := rLoc d) (I := Finset.univ) (q := fullShare) (f := Res m d))) $$ [HSI Hr]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := tLoc d) (I := Finset.univ) (q := fullShare) (f := m (tLoc d))) $$ [HSI Ht]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (rLoc c) = Res m c ∧ r.2.mem (aLoc c) = m (aLoc c) ∧ r.2.mem (tLoc c) = m (tLoc c)

/-- Every weakly fair execution of the device's threads from `m` terminates, nothing faulting, with the result at the
    gathered rows reshaped and the two arguments unchanged — provided every index word names a row of the table. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KW
end
-- ==== Proof.lean ====
/-
  An embedding lookup: `out[b, f, :] = table[idx[b, f], :]` for `idx : int32[4096, 26]` with every word in `[0, 100000)`
  and `table : float32[100000, 128]`.

  The kernel flattens the index array, gathers the 106496 named rows of the table on the two SparseCores — thirty-two
  tasks, each owning a block of 3328 consecutive rows, each moving its block in sixteen chunks of 208 rows through four
  row buffers, up to three gathers in flight — and reshapes the gathered rows. The reference is `jnp.take`: negative
  indices wrapped, out-of-range ones masked to NaN, the rest gathered; under the precondition no index is negative or out
  of range, so it is the same lookup. Both sides are proved against one function, `Cert.Spec.G`.

  The kernel's run (Proof/Ideal/, and Proof/Word/ for the program as printed: the same text at the other instance)
  gives, for every weakly fair execution of all the device's threads, termination without fault with the result at
  `Cert.Spec.G` of the arguments and the arguments unchanged; the three frames drop the value, the equivalence pairs it
  with the reference's run (Proof/RefSide.lean). No operation was rewritten by the idealization, so there is nothing to
  preserve.
-/
import proofs.«207303_g8950711845028_cont_9to1c4b_501_30_alg».proof.Defs
import proofs.«207303_g8950711845028_cont_9to1c4b_501_30_alg».proof.Proof.Gen.Kernel
import proofs.«207303_g8950711845028_cont_9to1c4b_501_30_alg».proof.Proof.Gen.Kernel.Skeleton
import proofs.«207303_g8950711845028_cont_9to1c4b_501_30_alg».proof.Proof.Gen.KernelIdeal
import proofs.«207303_g8950711845028_cont_9to1c4b_501_30_alg».proof.Proof.Gen.KernelIdeal.Skeleton
import proofs.«207303_g8950711845028_cont_9to1c4b_501_30_alg».proof.Proof.Gen.ReferenceIdeal
import proofs.«207303_g8950711845028_cont_9to1c4b_501_30_alg».proof.Proof.Gen.Pre_input_domain
import proofs.«207303_g8950711845028_cont_9to1c4b_501_30_alg».proof.Proof.RefSide
import proofs.«207303_g8950711845028_cont_9to1c4b_501_30_alg».proof.Proof.Ideal.Launch
import proofs.«207303_g8950711845028_cont_9to1c4b_501_30_alg».proof.Proof.Word.Launch
import Idealize.ShloMosaic.Adequacy
import Idealize.ShloMosaic.Init

noncomputable section

namespace Cert.Proof

open Idealize.ShloMosaic Idealize.SL.Sem

/-- Under the precondition every word of the flattened index array names a row of the table (the idealized kernel); -/
theorem ok_ideal (m : (ℓ : Loc Cert.KernelIdeal.nD Cert.KernelIdeal.τ Cert.KernelIdeal.sig) → Buf (Elt Ideal) ℓ)
    (h : Cert.Pre_KernelIdeal m) : Cert.KI.PreOK (F := Ideal) m :=
  fun d => Cert.Blocks.flat_lt _ _ (Cert.RefSide.idx_lt_of_pre (F := Ideal) _ _ (h d))

/-- (the kernel as printed). -/
theorem ok_word (m : (ℓ : Loc Cert.Kernel.nD Cert.Kernel.τ Cert.Kernel.sig) → Buf (Elt Bits) ℓ)
    (h : Cert.Pre_Kernel m) : Cert.KW.PreOK (F := Bits) m :=
  fun d => Cert.Blocks.flat_lt _ _ (Cert.RefSide.idx_lt_of_pre (F := Bits) _ _ (h d))

/-- The gathered rows reshaped are the lookup. -/
theorem res_eq_G (m : (ℓ : Loc Cert.KernelIdeal.nD Cert.KernelIdeal.τ Cert.KernelIdeal.sig) → Buf (Elt Ideal) ℓ) (d : Dev Cert.KernelIdeal.nD) :
    Cert.KI.Res m d = Cert.Spec.G (m (Cert.KI.aLoc d)) (m (Cert.KI.tLoc d)) :=
  Cert.Blocks.rows_reshape _ _ _ _

theorem frame_k : Cert.frame_Kernel := fun m ρ hpre =>
  (θ_run Cert.Kernel.defs _ _).mono (fun _ h c => ⟨(h c).2.1, (h c).2.2⟩) (Cert.KW.run_main (F := Bits) m ρ (ok_word m hpre))

theorem frame_ki : Cert.frame_KernelIdeal := fun m ρ hpre =>
  (θ_run Cert.KernelIdeal.defs _ _).mono (fun _ h c => ⟨(h c).2.1, (h c).2.2⟩) (Cert.KI.run_main (F := Ideal) m ρ (ok_ideal m hpre))

/-- Both programs end with the lookup of the (agreeing) arguments. -/
theorem algebraic : Cert.algebraic_KernelIdeal_ReferenceIdeal := by
  intro m ρ m' ρ' hpre hagree
  refine ⟨fun c => Cert.KI.Res m c, ?_, ?_⟩
  · exact (θ_run Cert.KernelIdeal.defs _ _).mono (fun _ h c => h c) (Cert.KI.run_main (F := Ideal) m ρ (ok_ideal m hpre))
  · have hidx : ∀ (c : Dev Cert.ReferenceIdeal.nD) j,
        (m' ((c.tc : Thread Cert.ReferenceIdeal.nD Cert.ReferenceIdeal.τ).loc Cert.ReferenceIdeal.main_arg0) j).toNat < 100000 := fun c j => by
      rw [(hagree c).1]; exact Cert.RefSide.idx_lt_of_pre (F := Ideal) _ _ (hpre c) j
    refine (θ_run Cert.ReferenceIdeal.defs _ _).mono (fun _ h c => ⟨(h c).1.trans ?_, (h c).2.1, (h c).2.2⟩) (Cert.RefSide.run m' ρ' hidx)
    rw [(hagree c).1, (hagree c).2]
    exact (res_eq_G m c).symm

theorem claim : Cert.Claim := ⟨Cert.Kernel.Gen.facts, Cert.KernelIdeal.Gen.facts, Cert.ReferenceIdeal.Gen.facts, Cert.Pre_input_domain.Gen.facts,
  frame_k, frame_ki, Cert.RefSide.frame, trivial, algebraic⟩

end Cert.Proof

end
